-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S64x128 : Shape := ⟨2, ![64, 128]⟩
abbrev S512x1024 : Shape := ⟨2, ![512, 1024]⟩
abbrev S512x1 : Shape := ⟨2, ![512, 1]⟩
abbrev S1x512 : Shape := ⟨2, ![1, 512]⟩
abbrev S8x128 : Shape := ⟨2, ![8, 128]⟩
abbrev S1024x512 : Shape := ⟨2, ![1024, 512]⟩
abbrev S512x512 : Shape := ⟨2, ![512, 512]⟩
abbrev S512 : Shape := ⟨1, ![512]⟩
abbrev S1 : Shape := ⟨1, ![1]⟩
abbrev S1x1 : Shape := ⟨2, ![1, 1]⟩

abbrev nBuf : Space → Nat
  | .hbm => 47
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S1x4096, .f32⟩
  | .hbm, ⟨15, _⟩ => ⟨S1x4096, .f32⟩
  | .hbm, ⟨16, _⟩ => ⟨S64x128, .f32⟩
  | .hbm, ⟨17, _⟩ => ⟨S64x128, .f32⟩
  | .hbm, ⟨18, _⟩ => ⟨S64x128, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1, .f32⟩
  | .local _ .vmem, ⟨9, _⟩ => ⟨S512x1, .f32⟩
  | .local _ .vmem, ⟨10, _⟩ => ⟨S1x512, .f32⟩
  | .local _ .vmem, ⟨11, _⟩ => ⟨S1x512, .f32⟩
  | .local _ .vmem, ⟨12, _⟩ => ⟨S512x1, .f32⟩
  | .local _ .vmem, ⟨13, _⟩ => ⟨S512x1, .f32⟩
  | .local _ .vmem, ⟨14, _⟩ => ⟨S1x512, .f32⟩
  | .local _ .vmem, ⟨15, _⟩ => ⟨S1x512, .f32⟩
  | .local _ .vmem, ⟨16, _⟩ => ⟨S8x128, .f32⟩
  | .local _ .vmem, ⟨17, _⟩ => ⟨S8x128, .f32⟩
  | .local _ .vmem, ⟨18, _⟩ => ⟨S8x128, .f32⟩
  | .local _ .vmem, ⟨19, _⟩ => ⟨S8x128, .f32⟩
  | .local _ .vmem, ⟨20, _⟩ => ⟨S8x128, .f32⟩
  | .local _ .vmem, ⟨21, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev main_v12_2 : Ref sig .tc := ⟨.hbm, 18, rfl⟩
abbrev main_cst_1 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_cst_7 : Ref sig .tc := ⟨.hbm, 31, rfl⟩
abbrev main_cst_8 : Ref sig .tc := ⟨.hbm, 32, rfl⟩
abbrev main_v19 : Ref sig .tc := ⟨.hbm, 33, rfl⟩
abbrev main_v20 : Ref sig .tc := ⟨.hbm, 34, rfl⟩
abbrev main_cst_9 : Ref sig .tc := ⟨.hbm, 35, rfl⟩
abbrev main_cst_10 : Ref sig .tc := ⟨.hbm, 36, rfl⟩
abbrev main_v21 : Ref sig .tc := ⟨.hbm, 37, rfl⟩
abbrev main_v22 : Ref sig .tc := ⟨.hbm, 38, rfl⟩
abbrev main_cst_11 : Ref sig .tc := ⟨.hbm, 39, rfl⟩
abbrev main_cst_12 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_13 : Ref sig .tc := ⟨.hbm, 44, rfl⟩
abbrev main_v26 : Ref sig .tc := ⟨.hbm, 45, rfl⟩
abbrev main_v27 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

class Facts₀ : Prop where
  bitsLt_bf16_f32 : FTy.bits .bf16 < FTy.bits .f32
  reducesTo_S4096x1024_S4096_d1 : S4096x1024.ReducesTo [1] S4096
  h_S_ : 0 < S_.numel
  bcast_S4096_S4096x1_0 : S4096.BroadcastsInDim S4096x1 (![0] : Fin 1 → Fin S4096x1.rank)
  shapeCasts_S4096x1_S1x4096 : S4096x1.ShapeCasts S1x4096
  inb_S8x128_S8x128_0_0 : ∀ a, (![0, 0] : Fin 2 → Nat) a + S8x128.size a ≤ S8x128.size a
  h_S8x128 : 0 < S8x128.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  transposes_S512x1024_p1_0_S1024x512 : S512x1024.Transposes [1, 0] S1024x512
  broadcasts_S512x1_S512x512 : S512x1.Broadcasts S512x512
  broadcasts_S1x512_S512x512 : S1x512.Broadcasts S512x512
  reduces_S512x512_S512 : S512x512.Reduces [1] S512
  shapeCasts_S512_S512x1 : S512.ShapeCasts S512x1
  reduces_S512x1_S1 : S512x1.Reduces [0] S1
  shapeCasts_S1_S1x1 : S1.ShapeCasts S1x1
  shapeCasts_S8x128_S8x128 : S8x128.ShapeCasts S8x128
  shapeCasts_S1x1_S1x1 : S1x1.ShapeCasts S1x1
  broadcasts_S1x1_S8x128 : S1x1.Broadcasts S8x128
  reducesTo_S64x128_S_d0_1 : S64x128.ReducesTo [0, 1] S_
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .bf16 = 32 ∨ (Rect.block (s := S4096x1024) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x1024.size a
  hwx0_2 : ∀ i : grid0.Coords, EltTy.bits .bf16 = 32 ∨ (Rect.block (s := S4096x1024) S512x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .bf16 = 32 ∨ (Rect.block (s := S4096x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x4096.size a
  hwx0_5 : ∀ i : grid0.Coords, EltTy.bits .f32 = 32 ∨ (Rect.block (s := S1x4096) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S4096x1.size a
  hwx0_6 : ∀ i : grid0.Coords, EltTy.bits .f32 = 32 ∨ (Rect.block (s := S4096x1) S512x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x4096.size a
  hwx0_7 : ∀ i : grid0.Coords, EltTy.bits .f32 = 32 ∨ (Rect.block (s := S1x4096) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x128.size a ≤ S64x128.size a
  hwx0_8 : ∀ i : grid0.Coords, EltTy.bits .f32 = 32 ∨ (Rect.block (s := S64x128) S8x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8x128.size a ≤ S64x128.size a
  hwx0_9 : ∀ i : grid0.Coords, EltTy.bits .f32 = 32 ∨ (Rect.block (s := S64x128) S8x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8x128.size a ≤ S64x128.size a
  hwx0_10 : ∀ i : grid0.Coords, EltTy.bits .f32 = 32 ∨ (Rect.block (s := S64x128) S8x128.size (cc0_transform_10 i) (hinb0_10 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9) S512x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v12_0) S8x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v12_1) S8x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v12_2) S8x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S_ : Shape := ⟨0, ![]⟩
abbrev S4096 : Shape := ⟨1, ![4096]⟩
abbrev S4096x4096 : Shape := ⟨2, ![4096, 4096]⟩
abbrev S4096x1 : Shape := ⟨2, ![4096, 1]⟩
abbrev S1x4096 : Shape := ⟨2, ![1, 4096]⟩

abbrev nBuf : Space → Nat
  | .hbm => 81
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x4096, .f32⟩
  | .hbm, ⟨9, _⟩ => ⟨S4096x1, .f32⟩
  | .hbm, ⟨10, _⟩ => ⟨S1x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S4096x1024, .f32⟩
  | .hbm, ⟨31, _⟩ => ⟨S_, .f32⟩
  | .hbm, ⟨32, _⟩ => ⟨S4096, .f32⟩
  | .hbm, ⟨33, _⟩ => ⟨S4096x4096, .f32⟩
  | .hbm, ⟨34, _⟩ => ⟨S4096x1, .f32⟩
  | .hbm, ⟨35, _⟩ => ⟨S1x4096, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S_, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S4096x1024, .f32⟩
  | .hbm, ⟨53, _⟩ => ⟨S_, .f32⟩
  | .hbm, ⟨54, _⟩ => ⟨S4096, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x4096, .f32⟩
  | .hbm, ⟨59, _⟩ => ⟨S4096x1, .f32⟩
  | .hbm, ⟨60, _⟩ => ⟨S1x4096, .f32⟩
  | .hbm, ⟨61, _⟩ => ⟨S4096x4096, .f32⟩
  | .hbm, ⟨62, _⟩ => ⟨S4096x4096, .f32⟩
  | .hbm, ⟨63, _⟩ => ⟨S4096x4096, .f32⟩
  | .hbm, ⟨64, _⟩ => ⟨S_, .f32⟩
  | .hbm, ⟨65, _⟩ => ⟨S4096x4096, .f32⟩
  | .hbm, ⟨66, _⟩ => ⟨S4096x4096, .f32⟩
  | .hbm, ⟨67, _⟩ => ⟨S4096x4096, .f32⟩
  | .hbm, ⟨68, _⟩ => ⟨S4096x4096, .f32⟩
  | .hbm, ⟨69, _⟩ => ⟨S_, .f32⟩
  | .hbm, ⟨70, _⟩ => ⟨S4096x4096, .f32⟩
  | .hbm, ⟨71, _⟩ => ⟨S4096x4096, .f32⟩
  | .hbm, ⟨72, _⟩ => ⟨S4096x4096, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_7 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_8 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_9 : Ref sig .tc := ⟨.hbm, 48, rfl⟩
abbrev main_v36 : Ref sig .tc := ⟨.hbm, 49, rfl⟩
abbrev main_cst_10 : Ref sig .tc := ⟨.hbm, 50, rfl⟩
abbrev main_v37 : Ref sig .tc := ⟨.hbm, 51, rfl⟩
abbrev main_v38 : Ref sig .tc := ⟨.hbm, 52, rfl⟩
abbrev main_cst_11 : Ref sig .tc := ⟨.hbm, 53, rfl⟩
abbrev main_v39 : Ref sig .tc := ⟨.hbm, 54, rfl⟩
abbrev main_v40 : Ref sig .tc := ⟨.hbm, 55, rfl⟩
abbrev main_cst_12 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_13 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_14 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_15 : Ref sig .tc := ⟨.hbm, 73, rfl⟩
abbrev main_v55 : Ref sig .tc := ⟨.hbm, 74, rfl⟩
abbrev main_cst_16 : Ref sig .tc := ⟨.hbm, 75, rfl⟩
abbrev main_v56 : Ref sig .tc := ⟨.hbm, 76, rfl⟩
abbrev main_v57 : Ref sig .tc := ⟨.hbm, 77, rfl⟩
abbrev main_cst_17 : Ref sig .tc := ⟨.hbm, 78, rfl⟩
abbrev main_v58 : Ref sig .tc := ⟨.hbm, 79, rfl⟩
abbrev main_v59 : Ref sig .tc := ⟨.hbm, 80, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S_d0_1 : S4096x4096.ReducesTo [0, 1] S_
  dot_S4096x1024_S4096x1024_S4096x4096_1_1_0_0_n_n_wf : DotDims.WF S4096x1024 S4096x1024 S4096x4096 [1] [1] [0] [0] [] []

variable [Facts₀]

def dot_S4096x1024_S4096x1024_S4096x4096_1_1_0_0_n_n : DotDims S4096x1024 S4096x1024 S4096x4096 where
  lhsContracting := [1]
  rhsContracting := [1]
  lhsNonContracting := [0]
  rhsNonContracting := [0]
  lhsBatch := []
  rhsBatch := []
  wf := dot_S4096x1024_S4096x1024_S4096x4096_1_1_0_0_n_n_wf

class Facts : Prop extends Facts₀ where

variable [Facts]
-- ==== Proof.K.Base.lean ====
/-
  What the frame run of the kernel program as printed and its value leg share: the contents of the core's buffers when
  the region is entered (the fourteen host operations before it have run: the two casts, the squares, the row sums of
  squares as a column and as a row), each window's block of its array at a grid point, and the share of an array
  each input window holds. Two arrays are handed to the kernel twice — the cast first argument through windows 0
  and 1 (its row block `i` and its row block `j` of the 8 × 8 grid), the cast second argument through windows 2 and
  3 — so each of those four windows holds half of its array; every other window holds its array whole.
  Stated for every float instance.
-/
import proofs.«104702_j27968827031704_2_alg».proof.Proof.Gen.Kernel.Launch
import proofs.«104702_j27968827031704_2_alg».proof.Proof.Gen.Kernel.Skeleton
import proofs.«104702_j27968827031704_2_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers when the region is entered: the host operations before it have run from the launch contents. -/
abbrev V0 (c : Dev nD) : Valuation τ sig (Elt F) := StableHlo.after (List.flatten [hostOps0 (F := F)]) (fun b => m (c, b))
/-- The same, at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The share of its array each input window holds: a half for the four windows that come in pairs on one array. -/
def qOf : Fin cfg0.W → PosShare TreeShare
  | ⟨0, _⟩ => fullShare.left
  | ⟨1, _⟩ => fullShare.right
  | ⟨2, _⟩ => fullShare.left
  | ⟨3, _⟩ => fullShare.right
  | _ => fullShare

/-- The body's condition "second grid coordinate is zero", from the grid coordinates. -/
abbrev cond0_0 (i : grid0.Coords) : Prop := (Scalar.cmpi .ne (Scalar.extui (Scalar.cmpi .eq (BitVec.ofNat 32 (i 1).val) 0#32)) 0#32) = 1#1
/-- It holds at the first point of each row of the grid. -/
theorem hcond0_0 : ∀ t : Fin cfg0.N, cond0_0 (grid0.coords t) ↔ t.val % 8 = 0 :=
  (by decide +kernel : ∀ t : Fin grid0.N, cond0_0 (grid0.coords t) ↔ t.val % 8 = 0)

end Cert.Kernel.Frm

end
-- ==== Proof.K.Launch.lean ====
/-
  The frame run of the kernel program as printed: its fourteen host operations, its one region on the 8 × 8 grid, and
  the twenty-eight host operations that reduce the three result arrays to the loss. Two arrays are handed to the region
  twice, so the buffers behind the windows' arrays are nine where the windows are eleven. At the region's entry each of
  the two cast arguments is split into a left half and a right half, one for each window it goes through. At its exit
  the lines that follow take the three result arrays, which the region returns whole, together with the buffers that
  bypass the region; they run within those, write none of the three, and give them back as they found them. The
  conclusion reads the result buffer and the two arguments off the final memory: the result is what the last lines
  compute from the three result arrays as the write-backs left them, the arguments are untouched.
  Stated for every float instance.
-/
import proofs.«104702_j27968827031704_2_alg».proof.Proof.K.Base

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ (UR sig nD τ) ℕ

/-! ## The contents the lines after the region start from -/

/-- The buffers as the lines after the region find them: the region-entry contents, the three result arrays at what the
    write-backs left. -/
def exitVal (dats : (p : Fin 1) → (c : Dev nD) → Dat τ (Elt F) Unit ℕ (UR sig nD τ) ℕ (cfgs p) c) (c : Dev nD) : Valuation τ sig (Elt F) :=
  Function.update (Function.update (Function.update (V0 m c) (Proc.devRef .tc main_v12_0) ((dats 0 c).arrAt 8 cfg0.N)) (Proc.devRef .tc main_v12_1) ((dats 0 c).arrAt 9 cfg0.N)) (Proc.devRef .tc main_v12_2) ((dats 0 c).arrAt 10 cfg0.N)

variable (dats : (p : Fin 1) → (c : Dev nD) → Dat τ (Elt F) Unit ℕ (UR sig nD τ) ℕ (cfgs p) c)

theorem exitVal_out0 (c : Dev nD) : exitVal m dats c (Proc.devRef .tc main_v12_0) = (dats 0 c).arrAt 8 cfg0.N := by
  unfold exitVal
  rw [Function.update_of_ne (StableHlo.devRef_ne_of_ne (by decide : main_v12_0 ≠ main_v12_2)),
    Function.update_of_ne (StableHlo.devRef_ne_of_ne (by decide : main_v12_0 ≠ main_v12_1)), Function.update_self]

theorem exitVal_out1 (c : Dev nD) : exitVal m dats c (Proc.devRef .tc main_v12_1) = (dats 0 c).arrAt 9 cfg0.N := by
  unfold exitVal
  rw [Function.update_of_ne (StableHlo.devRef_ne_of_ne (by decide : main_v12_1 ≠ main_v12_2)), Function.update_self]

theorem exitVal_out2 (c : Dev nD) : exitVal m dats c (Proc.devRef .tc main_v12_2) = (dats 0 c).arrAt 10 cfg0.N := by
  unfold exitVal
  rw [Function.update_self]

theorem exitVal_of_ne (c : Dev nD) (b : Ref sig .tc) (h0 : b ≠ main_v12_0) (h1 : b ≠ main_v12_1) (h2 : b ≠ main_v12_2) :
    exitVal m dats c (Proc.devRef .tc b) = V m c b := by
  unfold exitVal
  rw [Function.update_of_ne (StableHlo.devRef_ne_of_ne h2), Function.update_of_ne (StableHlo.devRef_ne_of_ne h1),
    Function.update_of_ne (StableHlo.devRef_ne_of_ne h0)]

/-! ## What the host operations leave alone -/

/-- The buffers the operations before the region write. -/
def wr0 : List (Ref sig .tc) := [main_v0, main_v1, main_v2, main_v3, main_cst, main_v4, main_v5, main_v6, main_v7, main_cst_0, main_v8, main_v9, main_v10, main_v11]
/-- The buffers the operations after the region write. -/
def wr1 : List (Ref sig .tc) := [main_cst_1, main_v13, main_cst_2, main_v14, main_cst_3, main_v15, main_cst_4, main_v16, main_cst_5, main_v17, main_cst_6, main_v18, main_cst_7, main_cst_8, main_v19, main_v20, main_cst_9, main_cst_10, main_v21, main_v22, main_cst_11, main_cst_12, main_v23, main_v24, main_v25, main_cst_13, main_v26, main_v27]

theorem writes_in {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

theorem hW0 : (hostOps0 (F := F)).Forall fun op => op.writes ⊆ (wr0.map (Proc.devRef (τ := τ) .tc)).toFinset :=
  ⟨writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide)⟩

theorem hW1 : (hostOps1 (F := F)).Forall fun op => op.writes ⊆ (wr1.map (Proc.devRef (τ := τ) .tc)).toFinset :=
  ⟨writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide)⟩

/-- A buffer the operations before the region do not write keeps its contents. -/
theorem after0_keep (W : Valuation τ sig (Elt F)) (r : Ref sig .tc) (hr : r ∉ wr0) :
    StableHlo.after (List.flatten [hostOps0 (F := F)]) W (Proc.devRef .tc r) = W (Proc.devRef .tc r) := by
  rw [show List.flatten [hostOps0 (F := F)] = hostOps0 from by simp only [List.flatten_cons, List.flatten_nil, List.append_nil]]
  exact StableHlo.after_of_writes_sub _ W hW0 hr

/-- A buffer the operations after the region do not write keeps its contents. -/
theorem after1_keep (W : Valuation τ sig (Elt F)) (r : Ref sig .tc) (hr : r ∉ wr1) :
    StableHlo.after (hostOps1 (F := F)) W (Proc.devRef .tc r) = W (Proc.devRef .tc r) :=
  StableHlo.after_of_writes_sub _ W hW1 hr

theorem V_arg0 (c : Dev nD) : V m c main_arg0 = m ((c.tc : Thread nD τ).loc main_arg0) :=
  after0_keep (fun b => m (c, b)) main_arg0 (by decide)
theorem V_arg1 (c : Dev nD) : V m c main_arg1 = m ((c.tc : Thread nD τ).loc main_arg1) :=
  after0_keep (fun b => m (c, b)) main_arg1 (by decide)

/-! ## The buffers the lines after the region run within -/

/-- The three result arrays. -/
def outR : Finset (Ref sig .tc) := {main_v12_0, main_v12_1, main_v12_2}
/-- The buffers that bypass the region, and the three result arrays: every buffer a line after the region touches. -/
def tailR : Finset (Ref sig .tc) := Pipeline.restRefs sig spec0 ∪ outR
/-- The same, as device buffers. -/
def tailS : Finset (DevRef τ sig) := tailR.map ⟨Proc.devRef (sig := sig) .tc, Proc.devRef_injective _⟩

theorem mem_tailR {b : Ref sig .tc} (h : b.isScoped = false ∧ ((∀ w, (spec0 w).arr.view.ref ≠ b) ∨ b ∈ outR)) : b ∈ tailR :=
  h.2.elim (fun ha => Finset.mem_union_left _ (Pipeline.mem_restRefs_of b h.1 ha)) (Finset.mem_union_right _)

theorem bufs1_in {a : Ref sig .tc} (ha : a ∈ tailR) : ({Proc.devRef (τ := τ) .tc a} : Finset (DevRef τ sig)) ⊆ tailS :=
  Finset.singleton_subset_iff.mpr (Finset.mem_map_of_mem _ ha)
theorem bufs3_in {a b y : Ref sig .tc} (ha : a ∈ tailR) (hb : b ∈ tailR) (hy : y ∈ tailR) :
    ({Proc.devRef (τ := τ) .tc a, Proc.devRef .tc b, Proc.devRef .tc y} : Finset (DevRef τ sig)) ⊆ tailS :=
  Finset.insert_subset (Finset.mem_map_of_mem _ ha) (Finset.insert_subset (Finset.mem_map_of_mem _ hb) (bufs1_in hy))

/-- Every line after the region stays within them. -/
theorem hsub1 : (hostOps1 (F := F)).Forall fun op => op.bufs ⊆ tailS :=
  ⟨bufs1_in (mem_tailR (by decide)),
   bufs3_in (mem_tailR (by decide)) (mem_tailR (by decide)) (mem_tailR (by decide)),
   bufs1_in (mem_tailR (by decide)),
   bufs3_in (mem_tailR (by decide)) (mem_tailR (by decide)) (mem_tailR (by decide)),
   bufs1_in (mem_tailR (by decide)),
   bufs3_in (mem_tailR (by decide)) (mem_tailR (by decide)) (mem_tailR (by decide)),
   bufs1_in (mem_tailR (by decide)),
   bufs3_in (mem_tailR (by decide)) (mem_tailR (by decide)) (mem_tailR (by decide)),
   bufs1_in (mem_tailR (by decide)),
   bufs3_in (mem_tailR (by decide)) (mem_tailR (by decide)) (mem_tailR (by decide)),
   bufs1_in (mem_tailR (by decide)),
   bufs3_in (mem_tailR (by decide)) (mem_tailR (by decide)) (mem_tailR (by decide)),
   bufs1_in (mem_tailR (by decide)),
   bufs1_in (mem_tailR (by decide)),
   bufs3_in (mem_tailR (by decide)) (mem_tailR (by decide)) (mem_tailR (by decide)),
   bufs3_in (mem_tailR (by decide)) (mem_tailR (by decide)) (mem_tailR (by decide)),
   bufs1_in (mem_tailR (by decide)),
   bufs1_in (mem_tailR (by decide)),
   bufs3_in (mem_tailR (by decide)) (mem_tailR (by decide)) (mem_tailR (by decide)),
   bufs3_in (mem_tailR (by decide)) (mem_tailR (by decide)) (mem_tailR (by decide)),
   bufs1_in (mem_tailR (by decide)),
   bufs1_in (mem_tailR (by decide)),
   bufs3_in (mem_tailR (by decide)) (mem_tailR (by decide)) (mem_tailR (by decide)),
   bufs3_in (mem_tailR (by decide)) (mem_tailR (by decide)) (mem_tailR (by decide)),
   bufs3_in (mem_tailR (by decide)) (mem_tailR (by decide)) (mem_tailR (by decide)),
   bufs1_in (mem_tailR (by decide)),
   bufs3_in (mem_tailR (by decide)) (mem_tailR (by decide)) (mem_tailR (by decide)),
   bufs3_in (mem_tailR (by decide)) (mem_tailR (by decide)) (mem_tailR (by decide))⟩

theorem hfresh0 : (hostOps0 (F := F)).Forall fun op => op.fresh = ∅ := ⟨rfl, rfl, rfl, rfl, rfl, rfl, rfl, rfl, rfl, rfl, rfl, rfl, rfl, rfl⟩
theorem hfresh1 : (hostOps1 (F := F)).Forall fun op => op.fresh = ∅ := ⟨rfl, rfl, rfl, rfl, rfl, rfl, rfl, rfl, rfl, rfl, rfl, rfl, rfl, rfl, rfl, rfl, rfl, rfl, rfl, rfl, rfl, rfl, rfl, rfl, rfl, rfl, rfl, rfl⟩

theorem rest_disj_out : Disjoint (Pipeline.restRefs sig spec0) outR :=
  Finset.disjoint_left.mpr fun b hb ho => (Finset.mem_sdiff.mp hb).2 (by
    unfold outR at ho
    simp only [Finset.mem_insert, Finset.mem_singleton] at ho
    rcases ho with rfl | rfl | rfl
    · exact Finset.mem_image.mpr ⟨8, Finset.mem_univ _, rfl⟩
    · exact Finset.mem_image.mpr ⟨9, Finset.mem_univ _, rfl⟩
    · exact Finset.mem_image.mpr ⟨10, Finset.mem_univ _, rfl⟩)

/-- Those buffers held whole at contents `W`: the bypassing buffers and the three result arrays. -/
theorem held_tailS (c : Dev nD) (W : Valuation τ sig (Elt F)) :
    (StableHlo.held (c.tc : Thread nD τ) tailS W : sProp 𝕄)
      = iprop(Pipeline.unscopedRest spec0 c (fun b => W (Proc.devRef .tc b))
          ∗ (((c.tc : Thread nD τ).loc main_v12_0) ↦{fullShare} W (Proc.devRef .tc main_v12_0))
          ∗ (((c.tc : Thread nD τ).loc main_v12_1) ↦{fullShare} W (Proc.devRef .tc main_v12_1))
          ∗ (((c.tc : Thread nD τ).loc main_v12_2) ↦{fullShare} W (Proc.devRef .tc main_v12_2))) := by
  classical
  unfold StableHlo.held tailS tailR outR
  rw [bigSep_map, bigSep_union (by exact rest_disj_out), bigSep_insert (by decide), bigSep_insert (by decide), bigSep_singleton]
  rfl

/-! ## The windows' arrays one by one -/

theorem sep_congr {P P' Q Q' : sProp 𝕄} (h₁ : P = P') (h₂ : Q = Q') : (iprop(P ∗ Q) : sProp 𝕄) = iprop(P' ∗ Q') := by rw [h₁, h₂]

theorem pt_in {c : Dev nD} (dat : Dat τ (Elt F) Unit ℕ (UR sig nD τ) ℕ cfg0 c) (w : Fin cfg0.W) (hw : (cfg0.win w).isOut = false)
    (G : Buf (Elt F) ((cfg0.win w).arr.view.loc (c.tc : Thread nD τ))) :
    ((cfg0.win w).arr.view.loc (c.tc : Thread nD τ) ↦[(cfg0.win w).arr.view.set]{dat.share w} G : sProp 𝕄)
      = (((c.tc : Thread nD τ).loc (Pipeline.arrRef spec0 w)) ↦{dat.q w} G) := by
  rw [(arr_whole0 w).set_eq_univ]; unfold Dat.share; rw [if_neg (by rw [hw]; exact Bool.false_ne_true)]

theorem pt_out {c : Dev nD} (dat : Dat τ (Elt F) Unit ℕ (UR sig nD τ) ℕ cfg0 c) (w : Fin cfg0.W) (hw : (cfg0.win w).isOut = true)
    (G : Buf (Elt F) ((cfg0.win w).arr.view.loc (c.tc : Thread nD τ))) :
    ((cfg0.win w).arr.view.loc (c.tc : Thread nD τ) ↦[(cfg0.win w).arr.view.set]{dat.share w} G : sProp 𝕄)
      = (((c.tc : Thread nD τ).loc (Pipeline.arrRef spec0 w)) ↦{fullShare} G) := by
  rw [(arr_whole0 w).set_eq_univ]; unfold Dat.share; rw [if_pos hw]

/-- The pipeline's arrays at contents `G`: the two cast arguments each as a left half and a right half, the four
    row-norm arrays and the three result arrays whole. -/
theorem arrays_chain {c : Dev nD} (dat : Dat τ (Elt F) Unit ℕ (UR sig nD τ) ℕ cfg0 c) (hq : ∀ w, dat.q w = qOf w)
    (G : (w : Fin cfg0.W) → Buf (Elt F) ((cfg0.win w).arr.view.loc (c.tc : Thread nD τ))) :
    (dat.arrays G : sProp 𝕄)
      = iprop((((c.tc : Thread nD τ).loc main_v0) ↦{fullShare.left} G 0)
          ∗ (((c.tc : Thread nD τ).loc main_v0) ↦{fullShare.right} G 1)
          ∗ (((c.tc : Thread nD τ).loc main_v1) ↦{fullShare.left} G 2)
          ∗ (((c.tc : Thread nD τ).loc main_v1) ↦{fullShare.right} G 3)
          ∗ (((c.tc : Thread nD τ).loc main_v5) ↦{fullShare} G 4)
          ∗ (((c.tc : Thread nD τ).loc main_v10) ↦{fullShare} G 5)
          ∗ (((c.tc : Thread nD τ).loc main_v9) ↦{fullShare} G 6)
          ∗ (((c.tc : Thread nD τ).loc main_v11) ↦{fullShare} G 7)
          ∗ (((c.tc : Thread nD τ).loc main_v12_0) ↦{fullShare} G 8)
          ∗ (((c.tc : Thread nD τ).loc main_v12_1) ↦{fullShare} G 9)
          ∗ (((c.tc : Thread nD τ).loc main_v12_2) ↦{fullShare} G 10)) := by
  unfold Dat.arrays
  rw [bigSep_W0]
  exact sep_congr ((pt_in dat 0 rfl (G 0)).trans (by rw [hq 0]; rfl))
    (sep_congr ((pt_in dat 1 rfl (G 1)).trans (by rw [hq 1]; rfl))
    (sep_congr ((pt_in dat 2 rfl (G 2)).trans (by rw [hq 2]; rfl))
    (sep_congr ((pt_in dat 3 rfl (G 3)).trans (by rw [hq 3]; rfl))
    (sep_congr ((pt_in dat 4 rfl (G 4)).trans (by rw [hq 4]; rfl))
    (sep_congr ((pt_in dat 5 rfl (G 5)).trans (by rw [hq 5]; rfl))
    (sep_congr ((pt_in dat 6 rfl (G 6)).trans (by rw [hq 6]; rfl))
    (sep_congr ((pt_in dat 7 rfl (G 7)).trans (by rw [hq 7]; rfl))
    (sep_congr (pt_out dat 8 rfl (G 8))
    (sep_congr (pt_out dat 9 rfl (G 9))
    ((pt_out dat 10 rfl (G 10))))))))))))

/-- The distinct buffers behind the arrays, whole. -/
theorem arrBufs_chain (c : Dev nD) (Vc : (b : Ref sig .tc) → Buf (Elt F) ((c.tc : Thread nD τ).loc b)) :
    (Pipeline.arrBufs spec0 c Vc : sProp 𝕄)
      = iprop((((c.tc : Thread nD τ).loc main_v0) ↦{fullShare} Vc main_v0)
          ∗ (((c.tc : Thread nD τ).loc main_v1) ↦{fullShare} Vc main_v1)
          ∗ (((c.tc : Thread nD τ).loc main_v5) ↦{fullShare} Vc main_v5)
          ∗ (((c.tc : Thread nD τ).loc main_v10) ↦{fullShare} Vc main_v10)
          ∗ (((c.tc : Thread nD τ).loc main_v9) ↦{fullShare} Vc main_v9)
          ∗ (((c.tc : Thread nD τ).loc main_v11) ↦{fullShare} Vc main_v11)
          ∗ (((c.tc : Thread nD τ).loc main_v12_0) ↦{fullShare} Vc main_v12_0)
          ∗ (((c.tc : Thread nD τ).loc main_v12_1) ↦{fullShare} Vc main_v12_1)
          ∗ (((c.tc : Thread nD τ).loc main_v12_2) ↦{fullShare} Vc main_v12_2)) := by
  unfold Pipeline.arrBufs
  exact bigSep_eq_bigSepL_of_eq [main_v0, main_v1, main_v5, main_v10, main_v9, main_v11, main_v12_0, main_v12_1, main_v12_2] (by decide) (by decide) _

/-! ## The lines after the region -/

theorem exit_rest (c : Dev nD) :
    (Pipeline.unscopedRest (Ix := Unit) (Name := ℕ) (U := UR sig nD τ) (Lvl := ℕ) spec0 c (fun b => exitVal m dats c (Proc.devRef .tc b)) : sProp 𝕄)
      = Pipeline.unscopedRest spec0 c (V m c) := by
  unfold Pipeline.unscopedRest
  exact bigSep_congr fun b hb => by
    beta_reduce
    rw [exitVal_of_ne m dats c b
      (fun e => (Finset.mem_sdiff.mp hb).2 (Finset.mem_image.mpr ⟨8, Finset.mem_univ _, e.symm⟩))
      (fun e => (Finset.mem_sdiff.mp hb).2 (Finset.mem_image.mpr ⟨9, Finset.mem_univ _, e.symm⟩))
      (fun e => (Finset.mem_sdiff.mp hb).2 (Finset.mem_image.mpr ⟨10, Finset.mem_univ _, e.symm⟩))]

/-- What the lines after the region run within, at the region's exit. -/
theorem held_exit (c : Dev nD) :
    (StableHlo.held (c.tc : Thread nD τ) tailS (exitVal m dats c) : sProp 𝕄)
      = iprop(Pipeline.unscopedRest spec0 c (V m c)
          ∗ (((c.tc : Thread nD τ).loc main_v12_0) ↦{fullShare} (dats 0 c).arrAt 8 cfg0.N)
          ∗ (((c.tc : Thread nD τ).loc main_v12_1) ↦{fullShare} (dats 0 c).arrAt 9 cfg0.N)
          ∗ (((c.tc : Thread nD τ).loc main_v12_2) ↦{fullShare} (dats 0 c).arrAt 10 cfg0.N)) := by
  rw [held_tailS, exit_rest, exitVal_out0, exitVal_out1, exitVal_out2]

/-- The same after the lines: they write none of the three result arrays. -/
theorem held_after (c : Dev nD) :
    (StableHlo.held (c.tc : Thread nD τ) tailS (StableHlo.after (List.flatten [hostOps1 (F := F)]) (exitVal m dats c)) : sProp 𝕄)
      = iprop(Pipeline.unscopedRest spec0 c (fun b => StableHlo.after (hostOps1 (F := F)) (exitVal m dats c) (Proc.devRef .tc b))
          ∗ (((c.tc : Thread nD τ).loc main_v12_0) ↦{fullShare} (dats 0 c).arrAt 8 cfg0.N)
          ∗ (((c.tc : Thread nD τ).loc main_v12_1) ↦{fullShare} (dats 0 c).arrAt 9 cfg0.N)
          ∗ (((c.tc : Thread nD τ).loc main_v12_2) ↦{fullShare} (dats 0 c).arrAt 10 cfg0.N)) := by
  rw [show List.flatten [hostOps1 (F := F)] = hostOps1 from by simp only [List.flatten_cons, List.flatten_nil, List.append_nil],
    held_tailS, after1_keep _ main_v12_0 (by decide), after1_keep _ main_v12_1 (by decide), after1_keep _ main_v12_2 (by decide),
    exitVal_out0, exitVal_out1, exitVal_out2]

set_option backward.isDefEq.respectTransparency.types false in
/-- The lines after the region: they read the three result arrays and the buffers that bypass the region, write only such
    buffers, and hand the arrays back as they found them. -/
theorem htail0 (hq : ∀ c w, (dats 0 c).q w = qOf w) (c : Dev nD) (Q' : PUnit → sProp 𝕄) :
    iprop((iprop((dats 0 c).arrays ((dats 0 c).arrAt · cfg0.N)
              ∗ Pipeline.unscopedRest spec0 c (fun b => StableHlo.after (hostOps1 (F := F)) (exitVal m dats c) (Proc.devRef .tc b))) -∗ Q' ⟨⟩)
        ∗ boundary (c.tc : Thread nD τ) ∗ (dats 0 c).arrays ((dats 0 c).arrAt · cfg0.N) ∗ Pipeline.unscopedRest spec0 c (V m c))
      ⊢ wp frame (wpE (Pipeline.defs (pcfgs (F := F)) defs₀) (Variants.lift Variants.none) (c.tc : Thread nD τ) none) Set.univ
          (Pipeline.chain ([hostOps1 (F := F)].map StableHlo.seq)) Q' := by
  rw [arrays_chain (dats 0 c) (hq c), ← List.append_nil ([hostOps1 (F := F)].map StableHlo.seq)]
  iintro ⟨Hk, Hb, ⟨H0, H1, H2, H3, H4, H5, H6, H7, H8, H9, H10⟩, HZ⟩
  ihave Hh := (Entails.of_eq (held_exit m dats c).symm) $$ [HZ H8 H9 H10]
  · isplitl [HZ]; · iexact HZ
    isplitl [H8]; · iexact H8
    isplitl [H9]; · iexact H9
    iexact H10
  iapply (Pipeline.wp_seqs_then (pcfgs (F := F)) defs₀ Variants.none c tailS [] [hostOps1 (F := F)]
    (fun ops ho op h => by rw [List.mem_singleton.mp ho] at h; exact List.forall_iff_forall_mem.mp hsub1 op h)
    (fun ops ho op h => by rw [List.mem_singleton.mp ho] at h; exact List.forall_iff_forall_mem.mp hfresh1 op h)
    (exitVal m dats c)) $$ [Hb Hh]
  · isplitl [Hb]; · iexact Hb
    iexact Hh
  iintro ⟨Hb, Hh⟩
  rw [Pipeline.chain_nil, wp_pure]
  imodintro
  iapply Hk
  ihave Hh := (Entails.of_eq (held_after m dats c)) $$ Hh
  icases Hh with ⟨HZ, H8, H9, H10⟩
  isplitr [HZ]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · iexact HZ

/-! ## The launch -/

/-- The arrays as the region takes them: the two cast arguments split into halves for the two windows each goes through. -/
theorem hsplit0 (hA : ∀ c w, (dats 0 c).A w = V m c (Pipeline.arrRef spec0 w)) (hq : ∀ c w, (dats 0 c).q w = qOf w) (c : Dev nD) :
    (Pipeline.arrBufs spec0 c (V m c) : sProp 𝕄) ⊢ (dats 0 c).arrays ((dats 0 c).arrAt · 0) := by
  rw [arrBufs_chain, arrays_chain (dats 0 c) (hq c)]
  have hA' : ∀ w, (dats 0 c).arrAt w 0 = V m c (Pipeline.arrRef spec0 w) := fun w => hA c w
  rw [hA' 0, hA' 1, hA' 2, hA' 3, hA' 4, hA' 5, hA' 6, hA' 7, hA' 8, hA' 9, hA' 10]
  iintro ⟨Hv0, Hv1, Hv5, Hv10, Hv9, Hv11, Ho0, Ho1, Ho2⟩
  ihave Hv0 := (pointsTo_share (PosShare.mem_left_op_right fullShare)).1 $$ Hv0
  icases Hv0 with ⟨Hv0l, Hv0r⟩
  ihave Hv1 := (pointsTo_share (PosShare.mem_left_op_right fullShare)).1 $$ Hv1
  icases Hv1 with ⟨Hv1l, Hv1r⟩
  isplitl [Hv0l]; · iexact Hv0l
  isplitl [Hv0r]; · iexact Hv0r
  isplitl [Hv1l]; · iexact Hv1l
  isplitl [Hv1r]; · iexact Hv1r
  isplitl [Hv5]; · iexact Hv5
  isplitl [Hv10]; · iexact Hv10
  isplitl [Hv9]; · iexact Hv9
  isplitl [Hv11]; · iexact Hv11
  isplitl [Ho0]; · iexact Ho0
  isplitl [Ho1]; · iexact Ho1
  iexact Ho2

-- a rule stated for any thread is used at the TensorCore thread: unification may unfold plain definitions in a
-- metavariable's type
set_option backward.isDefEq.respectTransparency.types false in
/-- THE LAUNCH: @main runs — the fourteen host operations, the region, the twenty-eight host operations — given the
    pipeline's proof data and its body obligation, and ends with the result buffer at what the last lines compute from
    the three result arrays the write-backs left, and the two arguments untouched. -/
theorem run_of_dats
    (hA : ∀ c w, (dats 0 c).A w = V m c (Pipeline.arrRef spec0 w))
    (hq : ∀ c w, (dats 0 c).q w = qOf w)
    (hΦ : ∀ c t, (dats 0 c).Φ t = Pipeline.ΦA spec0 c)
    (howed : ∀ c t, (dats 0 c).owed t = 0)
    (hbody : ∀ c, Pipeline.BodyObligationLoose (dats 0 c) (defs₀ (F := F)) Variants.none () Set.univ) :
    θ_run defs (onTc (τ := τ) (main (F := F))) ⟨m, fun _ => 0, ρ⟩ (fun r => ∀ c : Dev nD,
      r.2.mem ((c.tc : Thread nD τ).loc main_v27) = StableHlo.after (hostOps1 (F := F)) (exitVal m dats c) (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  show θ_run (Pipeline.defs (pcfgs (F := F)) defs₀) _ _ _
  exact Pipeline.θ_run_region_pf_tail (pcfgs (F := F)) (fun p => (cfgs p).toPCfg_adm) dats () cellOf_inj 0 winFacts₀0
    (Pipeline.OwnSemFacts.none spec0) (Pipeline.PreFacts.none _) emb₁ defs₀ Variants.none m ρ main
    (fun _ => Pipeline.chain ([hostOps1 (F := F)].map StableHlo.seq)) hbody
    block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m)
    (hmain := Pipeline.hmainP_around (Ix := Unit) (Name := ℕ) (U := UR sig nD τ) (Lvl := ℕ) (pcfgs (F := F)) 0 defs₀ Variants.none m main
      [hostOps0] [hostOps1] hostOps0_sub hfresh0 (fun c => main_chain c))
    (hsplit := hsplit0 m dats hA hq)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c
      (fun b => StableHlo.after (hostOps1 (F := F)) (exitVal m dats c) (Proc.devRef .tc b)))
    (hX := fun c => by
      iintro ⟨HU, -, -, -, Hp, -⟩; imodintro
      isplitl [Hp]; · iexists _; iexact Hp
      iapply (Entails.of_eq (Pipeline.unscopedRestP_none (Ix := Unit) (Name := ℕ) (U := UR sig nD τ) (Lvl := ℕ) spec0 c (V m c)))
      iexact HU)
    (hin := fun c => by
      rw [hΦ c 0]; unfold Pipeline.ΦA
      iintro ⟨Hp, -, Hr⟩
      isplitl [Hr] <;> iassumption)
    (hout := fun c => by
      rw [hΦ c (Fin.last _), Pipeline.ownSems0_none]; unfold Pipeline.ΦA
      iintro ⟨Hr, Hp⟩
      isplitl [Hp]; · iexact Hp
      isplitr; · iempintro
      iexact Hr)
    (htail := htail0 m dats hq)
    (QY := fun c s => ∀ b ∈ Pipeline.restRefs sig spec0, s.mem ((c.tc : Thread nD τ).loc b) = StableHlo.after (hostOps1 (F := F)) (exitVal m dats c) (Proc.devRef .tc b))
    (hY := fun c s' => by
      iintro ⟨-, HU, HSI⟩
      unfold Pipeline.unscopedRest
      imodintro
      iapply (pointsTo_read_all (Pipeline.restRefs sig spec0) (fun b => (c.tc : Thread nD τ).loc b)
        (fun b => StableHlo.after (hostOps1 (F := F)) (exitVal m dats c) (Proc.devRef .tc b)) s')
      isplitl [HU] <;> iassumption)
    (hQ := fun s h c =>
      ⟨(h c).2.2 main_v27 (Pipeline.mem_restRefs_of _ rfl (by decide)),
        ((h c).2.2 main_arg0 (Pipeline.mem_restRefs_of _ rfl (by decide))).trans
          ((after1_keep _ main_arg0 (by decide)).trans
            ((exitVal_of_ne m dats c main_arg0 (by decide) (by decide) (by decide)).trans (V_arg0 m c))),
        ((h c).2.2 main_arg1 (Pipeline.mem_restRefs_of _ rfl (by decide))).trans
          ((after1_keep _ main_arg1 (by decide)).trans
            ((exitVal_of_ne m dats c main_arg1 (by decide) (by decide) (by decide)).trans (V_arg1 m c)))⟩)

end Cert.Kernel.Frm

end
-- ==== Proof.K.Runs.lean ====
/-
  The kernel body of the program as printed run once per case of its one condition. The body takes eleven staging
  memrefs: eight inputs (the row blocks `i` and `j` of the two cast arguments, and of their squared row norms as a column
  and as a row) and three 8 × 128 accumulators, one per Gram sum. At the first point of a row of the 8 × 8 grid it
  stores zeros into the three accumulators; at every point it adds the point's tile sum to each. The two runs below
  say what the body leaves in the accumulators as the list of stores it made, found by symbolic execution over the
  body's skeleton; the inputs come back untouched. Stated for every float instance.
-/
import proofs.«104702_j27968827031704_2_alg».proof.Proof.K.Base

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs at a point -/

/-- One staging buffer of each accumulator's window, through which its contents are stated: by the cover lemma the
    choice does not matter. -/
abbrev VO0_8 : View sig .tc .vmem S8x128 .f32 := (Memref.whole cc0_stg8_0 : Memref sig .tc .vmem S8x128 .f32).view
abbrev VO0_9 : View sig .tc .vmem S8x128 .f32 := (Memref.whole cc0_stg9_0 : Memref sig .tc .vmem S8x128 .f32).view
abbrev VO0_10 : View sig .tc .vmem S8x128 .f32 := (Memref.whole cc0_stg10_0 : Memref sig .tc .vmem S8x128 .f32).view

/-- Each window's current staging memref at point `t`, spelt as the pipeline passes it to the body, and its wholeness. -/
abbrev ms0_0 (t : Fin cfg0.N) : Memref sig .tc .vmem S512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S8x128 .f32 := win0_10.stage (cfg0.slots t 10)
abbrev hs0_10 (t : Fin cfg0.N) : (ms0_10 t).IsWhole := hstage0_10 ((cfg0.slots t 10).cast nbuf0_10)

/-! ## The body, case by case -/

set_option maxHeartbeats 4000000 in
/-- The body at the first point of a row of the grid (the condition holds: the three accumulators are reset to zero
    before anything of them is used). On whole staging memrefs — the eight inputs at contents `x0 … x7`, the three
    accumulators at anything — the body runs to a continuation that holds the inputs as they were and each accumulator
    with the stores the body made into it written over what it held (the lists `L8 L9 L10`, last store first, which the
    run finds). -/
noncomputable def kernelRun0_A (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (hc0 : cond0_0 i)
    (x0 : Vec F S512x1024 .bf16) (x1 : Vec F S512x1024 .bf16) (x2 : Vec F S512x1024 .bf16) (x3 : Vec F S512x1024 .bf16) (x4 : Vec F S512x1 .f32) (x5 : Vec F S1x512 .f32) (x6 : Vec F S512x1 .f32) (x7 : Vec F S1x512 .f32) :
    Σ' (L8 : List (View.Piece (Elt F) S8x128 .f32)) (L9 : List (View.Piece (Elt F) S8x128 .f32)), { L10 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10)) -∗ K ⟨⟩))
          ⊢ wp frame (wpE (defs₀ (F := F)) Variants.none c none) E (cc0__mmd_fused_kernel i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__mmd_fused_kernel_eq_skeleton]; unfold cc0__mmd_fused_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    iexists _; iexact H10

set_option maxHeartbeats 4000000 in
/-- The body at a point that is not the first of its row of the grid (the condition fails: no reset). On whole staging
    memrefs — the eight inputs at contents `x0 … x7`, the three accumulators at the running contents `xo8 xo9 xo10` the
    point before left — the body runs to a continuation that holds the inputs as they were and each accumulator with the
    stores the body made into it written over what it held (the lists `L8 L9 L10`, last store first, which the run finds). -/
noncomputable def kernelRun0_B (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (hc0 : ¬cond0_0 i)
    (x0 : Vec F S512x1024 .bf16) (x1 : Vec F S512x1024 .bf16) (x2 : Vec F S512x1024 .bf16) (x3 : Vec F S512x1024 .bf16) (x4 : Vec F S512x1 .f32) (x5 : Vec F S1x512 .f32) (x6 : Vec F S512x1 .f32) (x7 : Vec F S1x512 .f32) (xo8 : Vec F S8x128 .f32) (xo9 : Vec F S8x128 .f32) (xo10 : Vec F S8x128 .f32) :
    Σ' (L8 : List (View.Piece (Elt F) S8x128 .f32)) (L9 : List (View.Piece (Elt F) S8x128 .f32)), { L10 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo8 ∗ owns (c : Thread nD τ) arg11 fullShare xo9 ∗ owns (c : Thread nD τ) arg12 fullShare xo10
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10)) -∗ K ⟨⟩))
          ⊢ wp frame (wpE (defs₀ (F := F)) Variants.none c none) E (cc0__mmd_fused_kernel i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__mmd_fused_kernel_eq_skeleton]; unfold cc0__mmd_fused_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    iexists _; iexact H10

end Cert.Kernel.Frm

end
-- ==== Proof.K.Body.lean ====
/-
  What the kernel body of the program as printed leaves in its three accumulators, case by case and then point by point
  over the 8 × 8 grid, and the proof data of the pipeline with its body obligation. At the first point of a row of the
  grid each accumulator ends at the point's tile sum added to zeros; at any other point at the tile sum added to what
  the point before left, the accumulators not being written back until the row's last point. The inputs' staging
  buffers hold their windows' blocks at every point. Stated for every float instance.
-/
import proofs.«104702_j27968827031704_2_alg».proof.Proof.K.Runs
import Idealize.ShloMosaic.Lib.Pipeline.Value
import Idealize.ShloMosaic.Lib.Ring

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the accumulators -/

/-- The zero offset of a whole-block load or store. -/
theorem hz : (![0, 0] : Fin 2 → Nat) = fun _ => 0 := funext fun a => by fin_cases a <;> rfl

/-- The stores case A makes into the first (the x–x Gram sum) accumulator cover its 8 × 128 block. -/
theorem cover0_A_8 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (hc0 : cond0_0 i)
    (x0 : Vec F S512x1024 .bf16) (x1 : Vec F S512x1024 .bf16) (x2 : Vec F S512x1024 .bf16) (x3 : Vec F S512x1024 .bf16) (x4 : Vec F S512x1 .f32) (x5 : Vec F S1x512 .f32) (x6 : Vec F S512x1 .f32) (x7 : Vec F S1x512 .f32) (y : S8x128.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).1 S8x128.size (by sl_kernel_rfl) y

/-- What case A leaves in the first (the x–x Gram sum) accumulator: its stores read back over arbitrary prior contents. -/
def out0_A_8 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (hc0 : cond0_0 i)
    (x0 : Vec F S512x1024 .bf16) (x1 : Vec F S512x1024 .bf16) (x2 : Vec F S512x1024 .bf16) (x3 : Vec F S512x1024 .bf16) (x4 : Vec F S512x1 .f32) (x5 : Vec F S1x512 .f32) (x6 : Vec F S512x1 .f32) (x7 : Vec F S1x512 .f32) : Vec F S8x128 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).1)

/-- Its value: the tile's sum added to the zeros the reset stored. -/
theorem out0_A_8_eq (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (hc0 : cond0_0 i)
    (x0 : Vec F S512x1024 .bf16) (x1 : Vec F S512x1024 .bf16) (x2 : Vec F S512x1024 .bf16) (x3 : Vec F S512x1024 .bf16) (x4 : Vec F S512x1 .f32) (x5 : Vec F S1x512 .f32) (x6 : Vec F S512x1 .f32) (x7 : Vec F S1x512 .f32) :
    out0_A_8 c i arg2 harg2 arg3 harg3 arg4 harg4 arg5 harg5 arg6 harg6 arg7 harg7 arg8 harg8 arg9 harg9 arg10 harg10 arg11 harg11 arg12 harg12 hc0 x0 x1 x2 x3 x4 x5 x6 x7 = k0_pay12 (k0_pay11 x0 x1 x4 x5) k0_pay2 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  rw [View.canon_cons_unit_zero (S := S8x128) hz, View.readCov_unit_zero (S := S8x128) _ hz]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S512x1024) hz, View.ld_unit_zero (S := S512x1) hz, View.ld_unit_zero (S := S1x512) hz, View.ld_unit_zero (S := S8x128) hz]

/-- The same through any view of the block and over any prior contents: the stores cover the block. -/
theorem leaves0_A_8 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (hc0 : cond0_0 i)
    (x0 : Vec F S512x1024 .bf16) (x1 : Vec F S512x1024 .bf16) (x2 : Vec F S512x1024 .bf16) (x3 : Vec F S512x1024 .bf16) (x4 : Vec F S512x1 .f32) (x5 : Vec F S1x512 .f32) (x6 : Vec F S512x1 .f32) (x7 : Vec F S1x512 .f32)
    {κ' : Kind} {sp' : Space} {sig' : RefSig} (v : View sig' κ' sp' S8x128 .f32) (f : v.ty.Contents (Elt F)) :
    v.read (Elt F) (v.writes (Elt F) f (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).1) = k0_pay12 (k0_pay11 x0 x1 x4 x5) k0_pay2 :=
  (View.read_writes_of_cover _ _ VO0_8 VO0_8.junk _ (cover0_A_8 c i arg2 harg2 arg3 harg3 arg4 harg4 arg5 harg5 arg6 harg6 arg7 harg7 arg8 harg8 arg9 harg9 arg10 harg10 arg11 harg11 arg12 harg12 hc0 x0 x1 x2 x3 x4 x5 x6 x7)).trans (out0_A_8_eq c i arg2 harg2 arg3 harg3 arg4 harg4 arg5 harg5 arg6 harg6 arg7 harg7 arg8 harg8 arg9 harg9 arg10 harg10 arg11 harg11 arg12 harg12 hc0 x0 x1 x2 x3 x4 x5 x6 x7)

/-- The stores case A makes into the second (the y–y Gram sum) accumulator cover its 8 × 128 block. -/
theorem cover0_A_9 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (hc0 : cond0_0 i)
    (x0 : Vec F S512x1024 .bf16) (x1 : Vec F S512x1024 .bf16) (x2 : Vec F S512x1024 .bf16) (x3 : Vec F S512x1024 .bf16) (x4 : Vec F S512x1 .f32) (x5 : Vec F S1x512 .f32) (x6 : Vec F S512x1 .f32) (x7 : Vec F S1x512 .f32) (y : S8x128.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).2.1 S8x128.size (by sl_kernel_rfl) y

/-- What case A leaves in the second (the y–y Gram sum) accumulator: its stores read back over arbitrary prior contents. -/
def out0_A_9 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (hc0 : cond0_0 i)
    (x0 : Vec F S512x1024 .bf16) (x1 : Vec F S512x1024 .bf16) (x2 : Vec F S512x1024 .bf16) (x3 : Vec F S512x1024 .bf16) (x4 : Vec F S512x1 .f32) (x5 : Vec F S1x512 .f32) (x6 : Vec F S512x1 .f32) (x7 : Vec F S1x512 .f32) : Vec F S8x128 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).2.1)

/-- Its value: the tile's sum added to the zeros the reset stored. -/
theorem out0_A_9_eq (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (hc0 : cond0_0 i)
    (x0 : Vec F S512x1024 .bf16) (x1 : Vec F S512x1024 .bf16) (x2 : Vec F S512x1024 .bf16) (x3 : Vec F S512x1024 .bf16) (x4 : Vec F S512x1 .f32) (x5 : Vec F S1x512 .f32) (x6 : Vec F S512x1 .f32) (x7 : Vec F S1x512 .f32) :
    out0_A_9 c i arg2 harg2 arg3 harg3 arg4 harg4 arg5 harg5 arg6 harg6 arg7 harg7 arg8 harg8 arg9 harg9 arg10 harg10 arg11 harg11 arg12 harg12 hc0 x0 x1 x2 x3 x4 x5 x6 x7 = k0_pay13 (k0_pay6 x2) (k0_pay7 x3) (k0_pay9 x6) (k0_pay10 x7) k0_pay3 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  rw [View.canon_cons_unit_zero (S := S8x128) hz, View.readCov_unit_zero (S := S8x128) _ hz]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S512x1024) hz, View.ld_unit_zero (S := S512x1) hz, View.ld_unit_zero (S := S1x512) hz, View.ld_unit_zero (S := S8x128) hz]

/-- The same through any view of the block and over any prior contents: the stores cover the block. -/
theorem leaves0_A_9 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (hc0 : cond0_0 i)
    (x0 : Vec F S512x1024 .bf16) (x1 : Vec F S512x1024 .bf16) (x2 : Vec F S512x1024 .bf16) (x3 : Vec F S512x1024 .bf16) (x4 : Vec F S512x1 .f32) (x5 : Vec F S1x512 .f32) (x6 : Vec F S512x1 .f32) (x7 : Vec F S1x512 .f32)
    {κ' : Kind} {sp' : Space} {sig' : RefSig} (v : View sig' κ' sp' S8x128 .f32) (f : v.ty.Contents (Elt F)) :
    v.read (Elt F) (v.writes (Elt F) f (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).2.1) = k0_pay13 (k0_pay6 x2) (k0_pay7 x3) (k0_pay9 x6) (k0_pay10 x7) k0_pay3 :=
  (View.read_writes_of_cover _ _ VO0_9 VO0_9.junk _ (cover0_A_9 c i arg2 harg2 arg3 harg3 arg4 harg4 arg5 harg5 arg6 harg6 arg7 harg7 arg8 harg8 arg9 harg9 arg10 harg10 arg11 harg11 arg12 harg12 hc0 x0 x1 x2 x3 x4 x5 x6 x7)).trans (out0_A_9_eq c i arg2 harg2 arg3 harg3 arg4 harg4 arg5 harg5 arg6 harg6 arg7 harg7 arg8 harg8 arg9 harg9 arg10 harg10 arg11 harg11 arg12 harg12 hc0 x0 x1 x2 x3 x4 x5 x6 x7)

/-- The stores case A makes into the third (the x–y Gram sum) accumulator cover its 8 × 128 block. -/
theorem cover0_A_10 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (hc0 : cond0_0 i)
    (x0 : Vec F S512x1024 .bf16) (x1 : Vec F S512x1024 .bf16) (x2 : Vec F S512x1024 .bf16) (x3 : Vec F S512x1024 .bf16) (x4 : Vec F S512x1 .f32) (x5 : Vec F S1x512 .f32) (x6 : Vec F S512x1 .f32) (x7 : Vec F S1x512 .f32) (y : S8x128.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).2.2.1 S8x128.size (by sl_kernel_rfl) y

/-- What case A leaves in the third (the x–y Gram sum) accumulator: its stores read back over arbitrary prior contents. -/
def out0_A_10 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (hc0 : cond0_0 i)
    (x0 : Vec F S512x1024 .bf16) (x1 : Vec F S512x1024 .bf16) (x2 : Vec F S512x1024 .bf16) (x3 : Vec F S512x1024 .bf16) (x4 : Vec F S512x1 .f32) (x5 : Vec F S1x512 .f32) (x6 : Vec F S512x1 .f32) (x7 : Vec F S1x512 .f32) : Vec F S8x128 .f32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).2.2.1)

/-- Its value: the tile's sum added to the zeros the reset stored. -/
theorem out0_A_10_eq (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (hc0 : cond0_0 i)
    (x0 : Vec F S512x1024 .bf16) (x1 : Vec F S512x1024 .bf16) (x2 : Vec F S512x1024 .bf16) (x3 : Vec F S512x1024 .bf16) (x4 : Vec F S512x1 .f32) (x5 : Vec F S1x512 .f32) (x6 : Vec F S512x1 .f32) (x7 : Vec F S1x512 .f32) :
    out0_A_10 c i arg2 harg2 arg3 harg3 arg4 harg4 arg5 harg5 arg6 harg6 arg7 harg7 arg8 harg8 arg9 harg9 arg10 harg10 arg11 harg11 arg12 harg12 hc0 x0 x1 x2 x3 x4 x5 x6 x7 = k0_pay1 (k0_pay14 (k0_pay5 x0) (k0_pay7 x3) (k0_pay8 x4) (k0_pay10 x7)) k0_pay4 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  rw [View.canon_cons_unit_zero (S := S8x128) hz, View.readCov_unit_zero (S := S8x128) _ hz]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S512x1024) hz, View.ld_unit_zero (S := S512x1) hz, View.ld_unit_zero (S := S1x512) hz, View.ld_unit_zero (S := S8x128) hz]

/-- The same through any view of the block and over any prior contents: the stores cover the block. -/
theorem leaves0_A_10 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (hc0 : cond0_0 i)
    (x0 : Vec F S512x1024 .bf16) (x1 : Vec F S512x1024 .bf16) (x2 : Vec F S512x1024 .bf16) (x3 : Vec F S512x1024 .bf16) (x4 : Vec F S512x1 .f32) (x5 : Vec F S1x512 .f32) (x6 : Vec F S512x1 .f32) (x7 : Vec F S1x512 .f32)
    {κ' : Kind} {sp' : Space} {sig' : RefSig} (v : View sig' κ' sp' S8x128 .f32) (f : v.ty.Contents (Elt F)) :
    v.read (Elt F) (v.writes (Elt F) f (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).2.2.1) = k0_pay1 (k0_pay14 (k0_pay5 x0) (k0_pay7 x3) (k0_pay8 x4) (k0_pay10 x7)) k0_pay4 :=
  (View.read_writes_of_cover _ _ VO0_10 VO0_10.junk _ (cover0_A_10 c i arg2 harg2 arg3 harg3 arg4 harg4 arg5 harg5 arg6 harg6 arg7 harg7 arg8 harg8 arg9 harg9 arg10 harg10 arg11 harg11 arg12 harg12 hc0 x0 x1 x2 x3 x4 x5 x6 x7)).trans (out0_A_10_eq c i arg2 harg2 arg3 harg3 arg4 harg4 arg5 harg5 arg6 harg6 arg7 harg7 arg8 harg8 arg9 harg9 arg10 harg10 arg11 harg11 arg12 harg12 hc0 x0 x1 x2 x3 x4 x5 x6 x7)

/-- The stores case B makes into the first (the x–x Gram sum) accumulator cover its 8 × 128 block. -/
theorem cover0_B_8 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (hc0 : ¬cond0_0 i)
    (x0 : Vec F S512x1024 .bf16) (x1 : Vec F S512x1024 .bf16) (x2 : Vec F S512x1024 .bf16) (x3 : Vec F S512x1024 .bf16) (x4 : Vec F S512x1 .f32) (x5 : Vec F S1x512 .f32) (x6 : Vec F S512x1 .f32) (x7 : Vec F S1x512 .f32) (xo8 : Vec F S8x128 .f32) (xo9 : Vec F S8x128 .f32) (xo10 : Vec F S8x128 .f32) (y : S8x128.Idx) :
    ∃ pc ∈ (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10).1 S8x128.size (by sl_kernel_rfl) y

/-- What case B leaves in the first (the x–x Gram sum) accumulator: its stores read back over arbitrary prior contents. -/
def out0_B_8 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (hc0 : ¬cond0_0 i)
    (x0 : Vec F S512x1024 .bf16) (x1 : Vec F S512x1024 .bf16) (x2 : Vec F S512x1024 .bf16) (x3 : Vec F S512x1024 .bf16) (x4 : Vec F S512x1 .f32) (x5 : Vec F S1x512 .f32) (x6 : Vec F S512x1 .f32) (x7 : Vec F S1x512 .f32) (xo8 : Vec F S8x128 .f32) (xo9 : Vec F S8x128 .f32) (xo10 : Vec F S8x128 .f32) : Vec F S8x128 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10).1)

/-- Its value: the tile's sum added to what the accumulator held. -/
theorem out0_B_8_eq (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (hc0 : ¬cond0_0 i)
    (x0 : Vec F S512x1024 .bf16) (x1 : Vec F S512x1024 .bf16) (x2 : Vec F S512x1024 .bf16) (x3 : Vec F S512x1024 .bf16) (x4 : Vec F S512x1 .f32) (x5 : Vec F S1x512 .f32) (x6 : Vec F S512x1 .f32) (x7 : Vec F S1x512 .f32) (xo8 : Vec F S8x128 .f32) (xo9 : Vec F S8x128 .f32) (xo10 : Vec F S8x128 .f32) :
    out0_B_8 c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10 = k0_pay12 (k0_pay11 x0 x1 x4 x5) xo8 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S512x1024) hz, View.ld_unit_zero (S := S512x1) hz, View.ld_unit_zero (S := S1x512) hz, View.ld_unit_zero (S := S8x128) hz]

/-- The same through any view of the block and over any prior contents: the stores cover the block. -/
theorem leaves0_B_8 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (hc0 : ¬cond0_0 i)
    (x0 : Vec F S512x1024 .bf16) (x1 : Vec F S512x1024 .bf16) (x2 : Vec F S512x1024 .bf16) (x3 : Vec F S512x1024 .bf16) (x4 : Vec F S512x1 .f32) (x5 : Vec F S1x512 .f32) (x6 : Vec F S512x1 .f32) (x7 : Vec F S1x512 .f32) (xo8 : Vec F S8x128 .f32) (xo9 : Vec F S8x128 .f32) (xo10 : Vec F S8x128 .f32)
    {κ' : Kind} {sp' : Space} {sig' : RefSig} (v : View sig' κ' sp' S8x128 .f32) (f : v.ty.Contents (Elt F)) :
    v.read (Elt F) (v.writes (Elt F) f (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10).1) = k0_pay12 (k0_pay11 x0 x1 x4 x5) xo8 :=
  (View.read_writes_of_cover _ _ VO0_8 VO0_8.junk _ (cover0_B_8 c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10)).trans (out0_B_8_eq c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10)

/-- The stores case B makes into the second (the y–y Gram sum) accumulator cover its 8 × 128 block. -/
theorem cover0_B_9 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (hc0 : ¬cond0_0 i)
    (x0 : Vec F S512x1024 .bf16) (x1 : Vec F S512x1024 .bf16) (x2 : Vec F S512x1024 .bf16) (x3 : Vec F S512x1024 .bf16) (x4 : Vec F S512x1 .f32) (x5 : Vec F S1x512 .f32) (x6 : Vec F S512x1 .f32) (x7 : Vec F S1x512 .f32) (xo8 : Vec F S8x128 .f32) (xo9 : Vec F S8x128 .f32) (xo10 : Vec F S8x128 .f32) (y : S8x128.Idx) :
    ∃ pc ∈ (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10).2.1 S8x128.size (by sl_kernel_rfl) y

/-- What case B leaves in the second (the y–y Gram sum) accumulator: its stores read back over arbitrary prior contents. -/
def out0_B_9 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (hc0 : ¬cond0_0 i)
    (x0 : Vec F S512x1024 .bf16) (x1 : Vec F S512x1024 .bf16) (x2 : Vec F S512x1024 .bf16) (x3 : Vec F S512x1024 .bf16) (x4 : Vec F S512x1 .f32) (x5 : Vec F S1x512 .f32) (x6 : Vec F S512x1 .f32) (x7 : Vec F S1x512 .f32) (xo8 : Vec F S8x128 .f32) (xo9 : Vec F S8x128 .f32) (xo10 : Vec F S8x128 .f32) : Vec F S8x128 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10).2.1)

/-- Its value: the tile's sum added to what the accumulator held. -/
theorem out0_B_9_eq (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (hc0 : ¬cond0_0 i)
    (x0 : Vec F S512x1024 .bf16) (x1 : Vec F S512x1024 .bf16) (x2 : Vec F S512x1024 .bf16) (x3 : Vec F S512x1024 .bf16) (x4 : Vec F S512x1 .f32) (x5 : Vec F S1x512 .f32) (x6 : Vec F S512x1 .f32) (x7 : Vec F S1x512 .f32) (xo8 : Vec F S8x128 .f32) (xo9 : Vec F S8x128 .f32) (xo10 : Vec F S8x128 .f32) :
    out0_B_9 c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10 = k0_pay13 (k0_pay6 x2) (k0_pay7 x3) (k0_pay9 x6) (k0_pay10 x7) xo9 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S512x1024) hz, View.ld_unit_zero (S := S512x1) hz, View.ld_unit_zero (S := S1x512) hz, View.ld_unit_zero (S := S8x128) hz]

/-- The same through any view of the block and over any prior contents: the stores cover the block. -/
theorem leaves0_B_9 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (hc0 : ¬cond0_0 i)
    (x0 : Vec F S512x1024 .bf16) (x1 : Vec F S512x1024 .bf16) (x2 : Vec F S512x1024 .bf16) (x3 : Vec F S512x1024 .bf16) (x4 : Vec F S512x1 .f32) (x5 : Vec F S1x512 .f32) (x6 : Vec F S512x1 .f32) (x7 : Vec F S1x512 .f32) (xo8 : Vec F S8x128 .f32) (xo9 : Vec F S8x128 .f32) (xo10 : Vec F S8x128 .f32)
    {κ' : Kind} {sp' : Space} {sig' : RefSig} (v : View sig' κ' sp' S8x128 .f32) (f : v.ty.Contents (Elt F)) :
    v.read (Elt F) (v.writes (Elt F) f (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10).2.1) = k0_pay13 (k0_pay6 x2) (k0_pay7 x3) (k0_pay9 x6) (k0_pay10 x7) xo9 :=
  (View.read_writes_of_cover _ _ VO0_9 VO0_9.junk _ (cover0_B_9 c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10)).trans (out0_B_9_eq c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10)

/-- The stores case B makes into the third (the x–y Gram sum) accumulator cover its 8 × 128 block. -/
theorem cover0_B_10 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (hc0 : ¬cond0_0 i)
    (x0 : Vec F S512x1024 .bf16) (x1 : Vec F S512x1024 .bf16) (x2 : Vec F S512x1024 .bf16) (x3 : Vec F S512x1024 .bf16) (x4 : Vec F S512x1 .f32) (x5 : Vec F S1x512 .f32) (x6 : Vec F S512x1 .f32) (x7 : Vec F S1x512 .f32) (xo8 : Vec F S8x128 .f32) (xo9 : Vec F S8x128 .f32) (xo10 : Vec F S8x128 .f32) (y : S8x128.Idx) :
    ∃ pc ∈ (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10).2.2.1 S8x128.size (by sl_kernel_rfl) y

/-- What case B leaves in the third (the x–y Gram sum) accumulator: its stores read back over arbitrary prior contents. -/
def out0_B_10 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (hc0 : ¬cond0_0 i)
    (x0 : Vec F S512x1024 .bf16) (x1 : Vec F S512x1024 .bf16) (x2 : Vec F S512x1024 .bf16) (x3 : Vec F S512x1024 .bf16) (x4 : Vec F S512x1 .f32) (x5 : Vec F S1x512 .f32) (x6 : Vec F S512x1 .f32) (x7 : Vec F S1x512 .f32) (xo8 : Vec F S8x128 .f32) (xo9 : Vec F S8x128 .f32) (xo10 : Vec F S8x128 .f32) : Vec F S8x128 .f32 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10).2.2.1)

/-- Its value: the tile's sum added to what the accumulator held. -/
theorem out0_B_10_eq (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (hc0 : ¬cond0_0 i)
    (x0 : Vec F S512x1024 .bf16) (x1 : Vec F S512x1024 .bf16) (x2 : Vec F S512x1024 .bf16) (x3 : Vec F S512x1024 .bf16) (x4 : Vec F S512x1 .f32) (x5 : Vec F S1x512 .f32) (x6 : Vec F S512x1 .f32) (x7 : Vec F S1x512 .f32) (xo8 : Vec F S8x128 .f32) (xo9 : Vec F S8x128 .f32) (xo10 : Vec F S8x128 .f32) :
    out0_B_10 c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10 = k0_pay1 (k0_pay14 (k0_pay5 x0) (k0_pay7 x3) (k0_pay8 x4) (k0_pay10 x7)) xo10 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S512x1024) hz, View.ld_unit_zero (S := S512x1) hz, View.ld_unit_zero (S := S1x512) hz, View.ld_unit_zero (S := S8x128) hz]

/-- The same through any view of the block and over any prior contents: the stores cover the block. -/
theorem leaves0_B_10 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (hc0 : ¬cond0_0 i)
    (x0 : Vec F S512x1024 .bf16) (x1 : Vec F S512x1024 .bf16) (x2 : Vec F S512x1024 .bf16) (x3 : Vec F S512x1024 .bf16) (x4 : Vec F S512x1 .f32) (x5 : Vec F S1x512 .f32) (x6 : Vec F S512x1 .f32) (x7 : Vec F S1x512 .f32) (xo8 : Vec F S8x128 .f32) (xo9 : Vec F S8x128 .f32) (xo10 : Vec F S8x128 .f32)
    {κ' : Kind} {sp' : Space} {sig' : RefSig} (v : View sig' κ' sp' S8x128 .f32) (f : v.ty.Contents (Elt F)) :
    v.read (Elt F) (v.writes (Elt F) f (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10).2.2.1) = k0_pay1 (k0_pay14 (k0_pay5 x0) (k0_pay7 x3) (k0_pay8 x4) (k0_pay10 x7)) xo10 :=
  (View.read_writes_of_cover _ _ VO0_10 VO0_10.junk _ (cover0_B_10 c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10)).trans (out0_B_10_eq c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10)

/-! ## What the accumulators hold after each point -/

/-- The first (the x–x Gram sum) accumulator's staging buffer after the body at position `n`: at the first point of a row of the grid
    the point's tile sum added to zeros, at any other point added to what the point before left. -/
def outsAt8 (c : Dev nD) : (n : ℕ) → n < cfg0.N → Vec F S8x128 .f32
  | 0, hn => k0_pay12 (k0_pay11 (iblk m c 0 ⟨0, hn⟩) (iblk m c 1 ⟨0, hn⟩) (iblk m c 4 ⟨0, hn⟩) (iblk m c 5 ⟨0, hn⟩)) k0_pay2
  | n + 1, hn =>
    if h0 : (n + 1) % 8 = 0 then k0_pay12 (k0_pay11 (iblk m c 0 ⟨n + 1, hn⟩) (iblk m c 1 ⟨n + 1, hn⟩) (iblk m c 4 ⟨n + 1, hn⟩) (iblk m c 5 ⟨n + 1, hn⟩)) k0_pay2
    else k0_pay12 (k0_pay11 (iblk m c 0 ⟨n + 1, hn⟩) (iblk m c 1 ⟨n + 1, hn⟩) (iblk m c 4 ⟨n + 1, hn⟩) (iblk m c 5 ⟨n + 1, hn⟩)) (outsAt8 c n (Nat.lt_of_succ_lt hn))

/-- At the first point of a row. -/
theorem outsAt8_A (c : Dev nD) (t : Fin cfg0.N) (h0 : t.val % 8 = 0) :
    outsAt8 m c t.val t.isLt = k0_pay12 (k0_pay11 (iblk m c 0 t) (iblk m c 1 t) (iblk m c 4 t) (iblk m c 5 t)) k0_pay2 := by
  obtain ⟨n, hn⟩ := t
  cases n with
  | zero => exact rfl
  | succ n => exact (dif_pos h0).trans rfl

/-- At any other point. -/
theorem outsAt8_B (c : Dev nD) (t : Fin cfg0.N) (h0 : ¬t.val % 8 = 0) :
    outsAt8 m c t.val t.isLt = k0_pay12 (k0_pay11 (iblk m c 0 t) (iblk m c 1 t) (iblk m c 4 t) (iblk m c 5 t)) (outsAt8 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The second (the y–y Gram sum) accumulator's staging buffer after the body at position `n`: at the first point of a row of the grid
    the point's tile sum added to zeros, at any other point added to what the point before left. -/
def outsAt9 (c : Dev nD) : (n : ℕ) → n < cfg0.N → Vec F S8x128 .f32
  | 0, hn => k0_pay13 (k0_pay6 (iblk m c 2 ⟨0, hn⟩)) (k0_pay7 (iblk m c 3 ⟨0, hn⟩)) (k0_pay9 (iblk m c 6 ⟨0, hn⟩)) (k0_pay10 (iblk m c 7 ⟨0, hn⟩)) k0_pay3
  | n + 1, hn =>
    if h0 : (n + 1) % 8 = 0 then k0_pay13 (k0_pay6 (iblk m c 2 ⟨n + 1, hn⟩)) (k0_pay7 (iblk m c 3 ⟨n + 1, hn⟩)) (k0_pay9 (iblk m c 6 ⟨n + 1, hn⟩)) (k0_pay10 (iblk m c 7 ⟨n + 1, hn⟩)) k0_pay3
    else k0_pay13 (k0_pay6 (iblk m c 2 ⟨n + 1, hn⟩)) (k0_pay7 (iblk m c 3 ⟨n + 1, hn⟩)) (k0_pay9 (iblk m c 6 ⟨n + 1, hn⟩)) (k0_pay10 (iblk m c 7 ⟨n + 1, hn⟩)) (outsAt9 c n (Nat.lt_of_succ_lt hn))

/-- At the first point of a row. -/
theorem outsAt9_A (c : Dev nD) (t : Fin cfg0.N) (h0 : t.val % 8 = 0) :
    outsAt9 m c t.val t.isLt = k0_pay13 (k0_pay6 (iblk m c 2 t)) (k0_pay7 (iblk m c 3 t)) (k0_pay9 (iblk m c 6 t)) (k0_pay10 (iblk m c 7 t)) k0_pay3 := by
  obtain ⟨n, hn⟩ := t
  cases n with
  | zero => exact rfl
  | succ n => exact (dif_pos h0).trans rfl

/-- At any other point. -/
theorem outsAt9_B (c : Dev nD) (t : Fin cfg0.N) (h0 : ¬t.val % 8 = 0) :
    outsAt9 m c t.val t.isLt = k0_pay13 (k0_pay6 (iblk m c 2 t)) (k0_pay7 (iblk m c 3 t)) (k0_pay9 (iblk m c 6 t)) (k0_pay10 (iblk m c 7 t)) (outsAt9 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The third (the x–y Gram sum) accumulator's staging buffer after the body at position `n`: at the first point of a row of the grid
    the point's tile sum added to zeros, at any other point added to what the point before left. -/
def outsAt10 (c : Dev nD) : (n : ℕ) → n < cfg0.N → Vec F S8x128 .f32
  | 0, hn => k0_pay1 (k0_pay14 (k0_pay5 (iblk m c 0 ⟨0, hn⟩)) (k0_pay7 (iblk m c 3 ⟨0, hn⟩)) (k0_pay8 (iblk m c 4 ⟨0, hn⟩)) (k0_pay10 (iblk m c 7 ⟨0, hn⟩))) k0_pay4
  | n + 1, hn =>
    if h0 : (n + 1) % 8 = 0 then k0_pay1 (k0_pay14 (k0_pay5 (iblk m c 0 ⟨n + 1, hn⟩)) (k0_pay7 (iblk m c 3 ⟨n + 1, hn⟩)) (k0_pay8 (iblk m c 4 ⟨n + 1, hn⟩)) (k0_pay10 (iblk m c 7 ⟨n + 1, hn⟩))) k0_pay4
    else k0_pay1 (k0_pay14 (k0_pay5 (iblk m c 0 ⟨n + 1, hn⟩)) (k0_pay7 (iblk m c 3 ⟨n + 1, hn⟩)) (k0_pay8 (iblk m c 4 ⟨n + 1, hn⟩)) (k0_pay10 (iblk m c 7 ⟨n + 1, hn⟩))) (outsAt10 c n (Nat.lt_of_succ_lt hn))

/-- At the first point of a row. -/
theorem outsAt10_A (c : Dev nD) (t : Fin cfg0.N) (h0 : t.val % 8 = 0) :
    outsAt10 m c t.val t.isLt = k0_pay1 (k0_pay14 (k0_pay5 (iblk m c 0 t)) (k0_pay7 (iblk m c 3 t)) (k0_pay8 (iblk m c 4 t)) (k0_pay10 (iblk m c 7 t))) k0_pay4 := by
  obtain ⟨n, hn⟩ := t
  cases n with
  | zero => exact rfl
  | succ n => exact (dif_pos h0).trans rfl

/-- At any other point. -/
theorem outsAt10_B (c : Dev nD) (t : Fin cfg0.N) (h0 : ¬t.val % 8 = 0) :
    outsAt10 m c t.val t.isLt = k0_pay1 (k0_pay14 (k0_pay5 (iblk m c 0 t)) (k0_pay7 (iblk m c 3 t)) (k0_pay8 (iblk m c 4 t)) (k0_pay10 (iblk m c 7 t))) (outsAt10 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t` each
    input's buffer at its window's block and each accumulator's at its running contents; the invariant the scoped
    rest and the generator register; nothing owed; of an array two windows stage, half a share to each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outsAt8 m c t.val t.isLt
    | ⟨9, _⟩ => outsAt9 m c t.val t.isLt
    | ⟨10, _⟩ => outsAt10 m c t.val t.isLt
  Φ _ := Pipeline.ΦA spec0 c
  q := qOf
  owed _ := 0

/-- The proof data's arrays are the region-entry contents. -/
theorem A_eq (c : Dev nD) (w : Fin cfg0.W) : (dats m 0 c).A w = V m c (Pipeline.arrRef spec0 w) := by
  dsimp only [dats]

/-- The proof data's shares. -/
theorem q_eq (c : Dev nD) (w : Fin cfg0.W) : (dats m 0 c).q w = qOf w := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outsAt8 m c t.val t.isLt := by dsimp only [dats]
theorem after0_9 (c : Dev nD) (t : Fin cfg0.N) : (dats m 0 c).after 9 t = outsAt9 m c t.val t.isLt := by dsimp only [dats]
theorem after0_10 (c : Dev nD) (t : Fin cfg0.N) : (dats m 0 c).after 10 t = outsAt10 m c t.val t.isLt := by dsimp only [dats]

/-- Each input's current staging buffer holds its window's block at every point, fetched there or not: unfetched, the
    block index has not moved since the point before. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl)
    (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl)
    (fun t => by rw [after0_7]; unfold Dat.blockOf iblk; rw [A_eq]; try rfl) t d).trans
    (by unfold Dat.fetched Dat.blockOf iblk; rw [A_eq]; try rfl)

/-- At a point that is not the first of its row an accumulator's staging buffer holds what the body left at the point
    before: the buffer is written back at the row's last point only, so not between the two. -/
theorem before0_8_B (c : Dev nD) (t : Fin cfg0.N) (h0 : ¬t.val % 8 = 0) (d) :
    (dats m 0 c).before 8 t d = outsAt8 m c (t.val - 1) (Nat.lt_of_le_of_lt (Nat.sub_le _ _) t.isLt) := by
  have hN : t.val < 64 := lt_of_lt_of_eq t.isLt (show cfg0.N = 64 from N_0)
  rw [Dat.before_out_kept _ 8 rfl t (by omega) (Bool.eq_false_iff.mpr fun h => by have := (flush0_8 _).mp h; dsimp only at this; omega)
    (fun _ => rfl) (fun _ _ => rfl)]
  dsimp only [dats]
theorem before0_9_B (c : Dev nD) (t : Fin cfg0.N) (h0 : ¬t.val % 8 = 0) (d) :
    (dats m 0 c).before 9 t d = outsAt9 m c (t.val - 1) (Nat.lt_of_le_of_lt (Nat.sub_le _ _) t.isLt) := by
  have hN : t.val < 64 := lt_of_lt_of_eq t.isLt (show cfg0.N = 64 from N_0)
  rw [Dat.before_out_kept _ 9 rfl t (by omega) (Bool.eq_false_iff.mpr fun h => by have := (flush0_9 _).mp h; dsimp only at this; omega)
    (fun _ => rfl) (fun _ _ => rfl)]
  dsimp only [dats]
theorem before0_10_B (c : Dev nD) (t : Fin cfg0.N) (h0 : ¬t.val % 8 = 0) (d) :
    (dats m 0 c).before 10 t d = outsAt10 m c (t.val - 1) (Nat.lt_of_le_of_lt (Nat.sub_le _ _) t.isLt) := by
  have hN : t.val < 64 := lt_of_lt_of_eq t.isLt (show cfg0.N = 64 from N_0)
  rw [Dat.before_out_kept _ 10 rfl t (by omega) (Bool.eq_false_iff.mpr fun h => by have := (flush0_10 _).mp h; dsimp only at this; omega)
    (fun _ => rfl) (fun _ _ => rfl)]
  dsimp only [dats]

/-! ## The body obligation -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 1600000 in
/-- The body at any point: the inputs' buffers hold their blocks; the point is the first of its row or not; in the
    second case each accumulator holds what the point before left; so the case's run applies, the invariant passes
    through unread, and each accumulator is left at its stores read back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  have hN : t.val < 64 := lt_of_lt_of_eq t.isLt (show cfg0.N = 64 from N_0)
  by_cases h0 : t.val % 8 = 0
  · rw [outsAt8_A m c t h0, outsAt9_A m c t h0, outsAt10_A m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_A c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    iintro ⟨H0, H1, H2, H3, H4, H5, H6, H7, ⟨%e8, H8⟩, ⟨%e9, H9⟩, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact leaves0_A_8 c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) _ _
    isplitl [H9]
    · unfold owns; iexists _; isplitr
      swap; · iexact H9
      ipureintro; exact leaves0_A_9 c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) _ _
    unfold owns; iexists _; isplitr
    swap; · iexact H10
    ipureintro; exact leaves0_A_10 c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) _ _
  · rw [outsAt8_B m c t h0, outsAt9_B m c t h0, outsAt10_B m c t h0]
    simp only [before0_8_B m c t h0, before0_9_B m c t h0, before0_10_B m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_B c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (outsAt8 m c (t.val - 1) (Nat.lt_of_le_of_lt (Nat.sub_le _ _) t.isLt)) (outsAt9 m c (t.val - 1) (Nat.lt_of_le_of_lt (Nat.sub_le _ _) t.isLt)) (outsAt10 m c (t.val - 1) (Nat.lt_of_le_of_lt (Nat.sub_le _ _) t.isLt))).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iintro ⟨H0, H1, H2, H3, H4, H5, H6, H7, ⟨%e8, H8⟩, ⟨%e9, H9⟩, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact leaves0_B_8 c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _ _ _ _ _
    isplitl [H9]
    · unfold owns; iexists _; isplitr
      swap; · iexact H9
      ipureintro; exact leaves0_B_9 c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _ _ _ _ _
    unfold owns; iexists _; isplitr
    swap; · iexact H10
    ipureintro; exact leaves0_B_10 c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _ _ _ _ _

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Frm

end
-- ==== Proof.K.Frame.lean ====
/-
  The frame run assembled: the launch of the one region between the host lines before and after it, on the pipeline's
  proof data and the body's obligation at every grid point. Every weakly fair execution of @main terminates without a
  fault, the result buffer ends at the lines-after-the-region's term of the three result arrays, and both argument
  arrays end as they were. Stated for every float instance; dropping the first clause gives the frame claim.
-/
import proofs.«104702_j27968827031704_2_alg».proof.Proof.K.Launch
import proofs.«104702_j27968827031704_2_alg».proof.Proof.K.Body

set_option maxRecDepth 16384

noncomputable section

namespace Cert.Kernel.Frm

open Cert.Kernel Cert.Kernel.Gen
open Idealize.ShloMosaic Idealize.ShloMosaic.TcCoe
open Idealize.SL Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- The run, with the result buffer named. -/
theorem run_main : θ_run defs (onTc (τ := τ) (main (F := F))) ⟨m, fun _ => 0, ρ⟩ (fun r => ∀ c : Dev nD,
      r.2.mem ((c.tc : Thread nD τ).loc main_v27) = StableHlo.after (hostOps1 (F := F)) (exitVal m (dats m) c) (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_of_dats m ρ (dats m) (A_eq m) (q_eq m) (fun _ _ => rfl) (fun _ _ => rfl) (fun c => (body_obligation m c).loose)

/-- The frame: the program runs to the end and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.Kernel.Frm

end
-- ==== Proof.KI.Base.lean ====
/-
  What the frame run of the idealized kernel program and its value leg share: the contents of the core's buffers when
  the region is entered (the fourteen host operations before it have run: the two casts, the squares, the row sums of
  squares as a column and as a row), each window's block of its array at a grid point, and the share of an array
  each input window holds. Two arrays are handed to the kernel twice — the cast first argument through windows 0
  and 1 (its row block `i` and its row block `j` of the 8 × 8 grid), the cast second argument through windows 2 and
  3 — so each of those four windows holds half of its array; every other window holds its array whole.
  Stated for every float instance.
-/
import proofs.«104702_j27968827031704_2_alg».proof.Proof.Gen.KernelIdeal.Launch
import proofs.«104702_j27968827031704_2_alg».proof.Proof.Gen.KernelIdeal.Skeleton
import proofs.«104702_j27968827031704_2_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers when the region is entered: the host operations before it have run from the launch contents. -/
abbrev V0 (c : Dev nD) : Valuation τ sig (Elt F) := StableHlo.after (List.flatten [hostOps0 (F := F)]) (fun b => m (c, b))
/-- The same, at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The share of its array each input window holds: a half for the four windows that come in pairs on one array. -/
def qOf : Fin cfg0.W → PosShare TreeShare
  | ⟨0, _⟩ => fullShare.left
  | ⟨1, _⟩ => fullShare.right
  | ⟨2, _⟩ => fullShare.left
  | ⟨3, _⟩ => fullShare.right
  | _ => fullShare

/-- The body's condition "second grid coordinate is zero", from the grid coordinates. -/
abbrev cond0_0 (i : grid0.Coords) : Prop := (Scalar.cmpi .ne (Scalar.extui (Scalar.cmpi .eq (BitVec.ofNat 32 (i 1).val) 0#32)) 0#32) = 1#1
/-- It holds at the first point of each row of the grid. -/
theorem hcond0_0 : ∀ t : Fin cfg0.N, cond0_0 (grid0.coords t) ↔ t.val % 8 = 0 :=
  (by decide +kernel : ∀ t : Fin grid0.N, cond0_0 (grid0.coords t) ↔ t.val % 8 = 0)

end Cert.KernelIdeal.Frm

end
-- ==== Proof.KI.Launch.lean ====
/-
  The frame run of the idealized kernel program: its fourteen host operations, its one region on the 8 × 8 grid, and
  the twenty-eight host operations that reduce the three result arrays to the loss. Two arrays are handed to the region
  twice, so the buffers behind the windows' arrays are nine where the windows are eleven. At the region's entry each of
  the two cast arguments is split into a left half and a right half, one for each window it goes through. At its exit
  the lines that follow take the three result arrays, which the region returns whole, together with the buffers that
  bypass the region; they run within those, write none of the three, and give them back as they found them. The
  conclusion reads the result buffer and the two arguments off the final memory: the result is what the last lines
  compute from the three result arrays as the write-backs left them, the arguments are untouched.
  Stated for every float instance.
-/
import proofs.«104702_j27968827031704_2_alg».proof.Proof.KI.Base

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ (UR sig nD τ) ℕ

/-! ## The contents the lines after the region start from -/

/-- The buffers as the lines after the region find them: the region-entry contents, the three result arrays at what the
    write-backs left. -/
def exitVal (dats : (p : Fin 1) → (c : Dev nD) → Dat τ (Elt F) Unit ℕ (UR sig nD τ) ℕ (cfgs p) c) (c : Dev nD) : Valuation τ sig (Elt F) :=
  Function.update (Function.update (Function.update (V0 m c) (Proc.devRef .tc main_v12_0) ((dats 0 c).arrAt 8 cfg0.N)) (Proc.devRef .tc main_v12_1) ((dats 0 c).arrAt 9 cfg0.N)) (Proc.devRef .tc main_v12_2) ((dats 0 c).arrAt 10 cfg0.N)

variable (dats : (p : Fin 1) → (c : Dev nD) → Dat τ (Elt F) Unit ℕ (UR sig nD τ) ℕ (cfgs p) c)

theorem exitVal_out0 (c : Dev nD) : exitVal m dats c (Proc.devRef .tc main_v12_0) = (dats 0 c).arrAt 8 cfg0.N := by
  unfold exitVal
  rw [Function.update_of_ne (StableHlo.devRef_ne_of_ne (by decide : main_v12_0 ≠ main_v12_2)),
    Function.update_of_ne (StableHlo.devRef_ne_of_ne (by decide : main_v12_0 ≠ main_v12_1)), Function.update_self]

theorem exitVal_out1 (c : Dev nD) : exitVal m dats c (Proc.devRef .tc main_v12_1) = (dats 0 c).arrAt 9 cfg0.N := by
  unfold exitVal
  rw [Function.update_of_ne (StableHlo.devRef_ne_of_ne (by decide : main_v12_1 ≠ main_v12_2)), Function.update_self]

theorem exitVal_out2 (c : Dev nD) : exitVal m dats c (Proc.devRef .tc main_v12_2) = (dats 0 c).arrAt 10 cfg0.N := by
  unfold exitVal
  rw [Function.update_self]

theorem exitVal_of_ne (c : Dev nD) (b : Ref sig .tc) (h0 : b ≠ main_v12_0) (h1 : b ≠ main_v12_1) (h2 : b ≠ main_v12_2) :
    exitVal m dats c (Proc.devRef .tc b) = V m c b := by
  unfold exitVal
  rw [Function.update_of_ne (StableHlo.devRef_ne_of_ne h2), Function.update_of_ne (StableHlo.devRef_ne_of_ne h1),
    Function.update_of_ne (StableHlo.devRef_ne_of_ne h0)]

/-! ## What the host operations leave alone -/

/-- The buffers the operations before the region write. -/
def wr0 : List (Ref sig .tc) := [main_v0, main_v1, main_v2, main_v3, main_cst, main_v4, main_v5, main_v6, main_v7, main_cst_0, main_v8, main_v9, main_v10, main_v11]
/-- The buffers the operations after the region write. -/
def wr1 : List (Ref sig .tc) := [main_cst_1, main_v13, main_cst_2, main_v14, main_cst_3, main_v15, main_cst_4, main_v16, main_cst_5, main_v17, main_cst_6, main_v18, main_cst_7, main_cst_8, main_v19, main_v20, main_cst_9, main_cst_10, main_v21, main_v22, main_cst_11, main_cst_12, main_v23, main_v24, main_v25, main_cst_13, main_v26, main_v27]

theorem writes_in {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

theorem hW0 : (hostOps0 (F := F)).Forall fun op => op.writes ⊆ (wr0.map (Proc.devRef (τ := τ) .tc)).toFinset :=
  ⟨writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide)⟩

theorem hW1 : (hostOps1 (F := F)).Forall fun op => op.writes ⊆ (wr1.map (Proc.devRef (τ := τ) .tc)).toFinset :=
  ⟨writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide), writes_in (by decide)⟩

/-- A buffer the operations before the region do not write keeps its contents. -/
theorem after0_keep (W : Valuation τ sig (Elt F)) (r : Ref sig .tc) (hr : r ∉ wr0) :
    StableHlo.after (List.flatten [hostOps0 (F := F)]) W (Proc.devRef .tc r) = W (Proc.devRef .tc r) := by
  rw [show List.flatten [hostOps0 (F := F)] = hostOps0 from by simp only [List.flatten_cons, List.flatten_nil, List.append_nil]]
  exact StableHlo.after_of_writes_sub _ W hW0 hr

/-- A buffer the operations after the region do not write keeps its contents. -/
theorem after1_keep (W : Valuation τ sig (Elt F)) (r : Ref sig .tc) (hr : r ∉ wr1) :
    StableHlo.after (hostOps1 (F := F)) W (Proc.devRef .tc r) = W (Proc.devRef .tc r) :=
  StableHlo.after_of_writes_sub _ W hW1 hr

theorem V_arg0 (c : Dev nD) : V m c main_arg0 = m ((c.tc : Thread nD τ).loc main_arg0) :=
  after0_keep (fun b => m (c, b)) main_arg0 (by decide)
theorem V_arg1 (c : Dev nD) : V m c main_arg1 = m ((c.tc : Thread nD τ).loc main_arg1) :=
  after0_keep (fun b => m (c, b)) main_arg1 (by decide)

/-! ## The buffers the lines after the region run within -/

/-- The three result arrays. -/
def outR : Finset (Ref sig .tc) := {main_v12_0, main_v12_1, main_v12_2}
/-- The buffers that bypass the region, and the three result arrays: every buffer a line after the region touches. -/
def tailR : Finset (Ref sig .tc) := Pipeline.restRefs sig spec0 ∪ outR
/-- The same, as device buffers. -/
def tailS : Finset (DevRef τ sig) := tailR.map ⟨Proc.devRef (sig := sig) .tc, Proc.devRef_injective _⟩

theorem mem_tailR {b : Ref sig .tc} (h : b.isScoped = false ∧ ((∀ w, (spec0 w).arr.view.ref ≠ b) ∨ b ∈ outR)) : b ∈ tailR :=
  h.2.elim (fun ha => Finset.mem_union_left _ (Pipeline.mem_restRefs_of b h.1 ha)) (Finset.mem_union_right _)

theorem bufs1_in {a : Ref sig .tc} (ha : a ∈ tailR) : ({Proc.devRef (τ := τ) .tc a} : Finset (DevRef τ sig)) ⊆ tailS :=
  Finset.singleton_subset_iff.mpr (Finset.mem_map_of_mem _ ha)
theorem bufs3_in {a b y : Ref sig .tc} (ha : a ∈ tailR) (hb : b ∈ tailR) (hy : y ∈ tailR) :
    ({Proc.devRef (τ := τ) .tc a, Proc.devRef .tc b, Proc.devRef .tc y} : Finset (DevRef τ sig)) ⊆ tailS :=
  Finset.insert_subset (Finset.mem_map_of_mem _ ha) (Finset.insert_subset (Finset.mem_map_of_mem _ hb) (bufs1_in hy))

/-- Every line after the region stays within them. -/
theorem hsub1 : (hostOps1 (F := F)).Forall fun op => op.bufs ⊆ tailS :=
  ⟨bufs1_in (mem_tailR (by decide)),
   bufs3_in (mem_tailR (by decide)) (mem_tailR (by decide)) (mem_tailR (by decide)),
   bufs1_in (mem_tailR (by decide)),
   bufs3_in (mem_tailR (by decide)) (mem_tailR (by decide)) (mem_tailR (by decide)),
   bufs1_in (mem_tailR (by decide)),
   bufs3_in (mem_tailR (by decide)) (mem_tailR (by decide)) (mem_tailR (by decide)),
   bufs1_in (mem_tailR (by decide)),
   bufs3_in (mem_tailR (by decide)) (mem_tailR (by decide)) (mem_tailR (by decide)),
   bufs1_in (mem_tailR (by decide)),
   bufs3_in (mem_tailR (by decide)) (mem_tailR (by decide)) (mem_tailR (by decide)),
   bufs1_in (mem_tailR (by decide)),
   bufs3_in (mem_tailR (by decide)) (mem_tailR (by decide)) (mem_tailR (by decide)),
   bufs1_in (mem_tailR (by decide)),
   bufs1_in (mem_tailR (by decide)),
   bufs3_in (mem_tailR (by decide)) (mem_tailR (by decide)) (mem_tailR (by decide)),
   bufs3_in (mem_tailR (by decide)) (mem_tailR (by decide)) (mem_tailR (by decide)),
   bufs1_in (mem_tailR (by decide)),
   bufs1_in (mem_tailR (by decide)),
   bufs3_in (mem_tailR (by decide)) (mem_tailR (by decide)) (mem_tailR (by decide)),
   bufs3_in (mem_tailR (by decide)) (mem_tailR (by decide)) (mem_tailR (by decide)),
   bufs1_in (mem_tailR (by decide)),
   bufs1_in (mem_tailR (by decide)),
   bufs3_in (mem_tailR (by decide)) (mem_tailR (by decide)) (mem_tailR (by decide)),
   bufs3_in (mem_tailR (by decide)) (mem_tailR (by decide)) (mem_tailR (by decide)),
   bufs3_in (mem_tailR (by decide)) (mem_tailR (by decide)) (mem_tailR (by decide)),
   bufs1_in (mem_tailR (by decide)),
   bufs3_in (mem_tailR (by decide)) (mem_tailR (by decide)) (mem_tailR (by decide)),
   bufs3_in (mem_tailR (by decide)) (mem_tailR (by decide)) (mem_tailR (by decide))⟩

theorem hfresh0 : (hostOps0 (F := F)).Forall fun op => op.fresh = ∅ := ⟨rfl, rfl, rfl, rfl, rfl, rfl, rfl, rfl, rfl, rfl, rfl, rfl, rfl, rfl⟩
theorem hfresh1 : (hostOps1 (F := F)).Forall fun op => op.fresh = ∅ := ⟨rfl, rfl, rfl, rfl, rfl, rfl, rfl, rfl, rfl, rfl, rfl, rfl, rfl, rfl, rfl, rfl, rfl, rfl, rfl, rfl, rfl, rfl, rfl, rfl, rfl, rfl, rfl, rfl⟩

theorem rest_disj_out : Disjoint (Pipeline.restRefs sig spec0) outR :=
  Finset.disjoint_left.mpr fun b hb ho => (Finset.mem_sdiff.mp hb).2 (by
    unfold outR at ho
    simp only [Finset.mem_insert, Finset.mem_singleton] at ho
    rcases ho with rfl | rfl | rfl
    · exact Finset.mem_image.mpr ⟨8, Finset.mem_univ _, rfl⟩
    · exact Finset.mem_image.mpr ⟨9, Finset.mem_univ _, rfl⟩
    · exact Finset.mem_image.mpr ⟨10, Finset.mem_univ _, rfl⟩)

/-- Those buffers held whole at contents `W`: the bypassing buffers and the three result arrays. -/
theorem held_tailS (c : Dev nD) (W : Valuation τ sig (Elt F)) :
    (StableHlo.held (c.tc : Thread nD τ) tailS W : sProp 𝕄)
      = iprop(Pipeline.unscopedRest spec0 c (fun b => W (Proc.devRef .tc b))
          ∗ (((c.tc : Thread nD τ).loc main_v12_0) ↦{fullShare} W (Proc.devRef .tc main_v12_0))
          ∗ (((c.tc : Thread nD τ).loc main_v12_1) ↦{fullShare} W (Proc.devRef .tc main_v12_1))
          ∗ (((c.tc : Thread nD τ).loc main_v12_2) ↦{fullShare} W (Proc.devRef .tc main_v12_2))) := by
  classical
  unfold StableHlo.held tailS tailR outR
  rw [bigSep_map, bigSep_union (by exact rest_disj_out), bigSep_insert (by decide), bigSep_insert (by decide), bigSep_singleton]
  rfl

/-! ## The windows' arrays one by one -/

theorem sep_congr {P P' Q Q' : sProp 𝕄} (h₁ : P = P') (h₂ : Q = Q') : (iprop(P ∗ Q) : sProp 𝕄) = iprop(P' ∗ Q') := by rw [h₁, h₂]

theorem pt_in {c : Dev nD} (dat : Dat τ (Elt F) Unit ℕ (UR sig nD τ) ℕ cfg0 c) (w : Fin cfg0.W) (hw : (cfg0.win w).isOut = false)
    (G : Buf (Elt F) ((cfg0.win w).arr.view.loc (c.tc : Thread nD τ))) :
    ((cfg0.win w).arr.view.loc (c.tc : Thread nD τ) ↦[(cfg0.win w).arr.view.set]{dat.share w} G : sProp 𝕄)
      = (((c.tc : Thread nD τ).loc (Pipeline.arrRef spec0 w)) ↦{dat.q w} G) := by
  rw [(arr_whole0 w).set_eq_univ]; unfold Dat.share; rw [if_neg (by rw [hw]; exact Bool.false_ne_true)]

theorem pt_out {c : Dev nD} (dat : Dat τ (Elt F) Unit ℕ (UR sig nD τ) ℕ cfg0 c) (w : Fin cfg0.W) (hw : (cfg0.win w).isOut = true)
    (G : Buf (Elt F) ((cfg0.win w).arr.view.loc (c.tc : Thread nD τ))) :
    ((cfg0.win w).arr.view.loc (c.tc : Thread nD τ) ↦[(cfg0.win w).arr.view.set]{dat.share w} G : sProp 𝕄)
      = (((c.tc : Thread nD τ).loc (Pipeline.arrRef spec0 w)) ↦{fullShare} G) := by
  rw [(arr_whole0 w).set_eq_univ]; unfold Dat.share; rw [if_pos hw]

/-- The pipeline's arrays at contents `G`: the two cast arguments each as a left half and a right half, the four
    row-norm arrays and the three result arrays whole. -/
theorem arrays_chain {c : Dev nD} (dat : Dat τ (Elt F) Unit ℕ (UR sig nD τ) ℕ cfg0 c) (hq : ∀ w, dat.q w = qOf w)
    (G : (w : Fin cfg0.W) → Buf (Elt F) ((cfg0.win w).arr.view.loc (c.tc : Thread nD τ))) :
    (dat.arrays G : sProp 𝕄)
      = iprop((((c.tc : Thread nD τ).loc main_v0) ↦{fullShare.left} G 0)
          ∗ (((c.tc : Thread nD τ).loc main_v0) ↦{fullShare.right} G 1)
          ∗ (((c.tc : Thread nD τ).loc main_v1) ↦{fullShare.left} G 2)
          ∗ (((c.tc : Thread nD τ).loc main_v1) ↦{fullShare.right} G 3)
          ∗ (((c.tc : Thread nD τ).loc main_v5) ↦{fullShare} G 4)
          ∗ (((c.tc : Thread nD τ).loc main_v10) ↦{fullShare} G 5)
          ∗ (((c.tc : Thread nD τ).loc main_v9) ↦{fullShare} G 6)
          ∗ (((c.tc : Thread nD τ).loc main_v11) ↦{fullShare} G 7)
          ∗ (((c.tc : Thread nD τ).loc main_v12_0) ↦{fullShare} G 8)
          ∗ (((c.tc : Thread nD τ).loc main_v12_1) ↦{fullShare} G 9)
          ∗ (((c.tc : Thread nD τ).loc main_v12_2) ↦{fullShare} G 10)) := by
  unfold Dat.arrays
  rw [bigSep_W0]
  exact sep_congr ((pt_in dat 0 rfl (G 0)).trans (by rw [hq 0]; rfl))
    (sep_congr ((pt_in dat 1 rfl (G 1)).trans (by rw [hq 1]; rfl))
    (sep_congr ((pt_in dat 2 rfl (G 2)).trans (by rw [hq 2]; rfl))
    (sep_congr ((pt_in dat 3 rfl (G 3)).trans (by rw [hq 3]; rfl))
    (sep_congr ((pt_in dat 4 rfl (G 4)).trans (by rw [hq 4]; rfl))
    (sep_congr ((pt_in dat 5 rfl (G 5)).trans (by rw [hq 5]; rfl))
    (sep_congr ((pt_in dat 6 rfl (G 6)).trans (by rw [hq 6]; rfl))
    (sep_congr ((pt_in dat 7 rfl (G 7)).trans (by rw [hq 7]; rfl))
    (sep_congr (pt_out dat 8 rfl (G 8))
    (sep_congr (pt_out dat 9 rfl (G 9))
    ((pt_out dat 10 rfl (G 10))))))))))))

/-- The distinct buffers behind the arrays, whole. -/
theorem arrBufs_chain (c : Dev nD) (Vc : (b : Ref sig .tc) → Buf (Elt F) ((c.tc : Thread nD τ).loc b)) :
    (Pipeline.arrBufs spec0 c Vc : sProp 𝕄)
      = iprop((((c.tc : Thread nD τ).loc main_v0) ↦{fullShare} Vc main_v0)
          ∗ (((c.tc : Thread nD τ).loc main_v1) ↦{fullShare} Vc main_v1)
          ∗ (((c.tc : Thread nD τ).loc main_v5) ↦{fullShare} Vc main_v5)
          ∗ (((c.tc : Thread nD τ).loc main_v10) ↦{fullShare} Vc main_v10)
          ∗ (((c.tc : Thread nD τ).loc main_v9) ↦{fullShare} Vc main_v9)
          ∗ (((c.tc : Thread nD τ).loc main_v11) ↦{fullShare} Vc main_v11)
          ∗ (((c.tc : Thread nD τ).loc main_v12_0) ↦{fullShare} Vc main_v12_0)
          ∗ (((c.tc : Thread nD τ).loc main_v12_1) ↦{fullShare} Vc main_v12_1)
          ∗ (((c.tc : Thread nD τ).loc main_v12_2) ↦{fullShare} Vc main_v12_2)) := by
  unfold Pipeline.arrBufs
  exact bigSep_eq_bigSepL_of_eq [main_v0, main_v1, main_v5, main_v10, main_v9, main_v11, main_v12_0, main_v12_1, main_v12_2] (by decide) (by decide) _

/-! ## The lines after the region -/

theorem exit_rest (c : Dev nD) :
    (Pipeline.unscopedRest (Ix := Unit) (Name := ℕ) (U := UR sig nD τ) (Lvl := ℕ) spec0 c (fun b => exitVal m dats c (Proc.devRef .tc b)) : sProp 𝕄)
      = Pipeline.unscopedRest spec0 c (V m c) := by
  unfold Pipeline.unscopedRest
  exact bigSep_congr fun b hb => by
    beta_reduce
    rw [exitVal_of_ne m dats c b
      (fun e => (Finset.mem_sdiff.mp hb).2 (Finset.mem_image.mpr ⟨8, Finset.mem_univ _, e.symm⟩))
      (fun e => (Finset.mem_sdiff.mp hb).2 (Finset.mem_image.mpr ⟨9, Finset.mem_univ _, e.symm⟩))
      (fun e => (Finset.mem_sdiff.mp hb).2 (Finset.mem_image.mpr ⟨10, Finset.mem_univ _, e.symm⟩))]

/-- What the lines after the region run within, at the region's exit. -/
theorem held_exit (c : Dev nD) :
    (StableHlo.held (c.tc : Thread nD τ) tailS (exitVal m dats c) : sProp 𝕄)
      = iprop(Pipeline.unscopedRest spec0 c (V m c)
          ∗ (((c.tc : Thread nD τ).loc main_v12_0) ↦{fullShare} (dats 0 c).arrAt 8 cfg0.N)
          ∗ (((c.tc : Thread nD τ).loc main_v12_1) ↦{fullShare} (dats 0 c).arrAt 9 cfg0.N)
          ∗ (((c.tc : Thread nD τ).loc main_v12_2) ↦{fullShare} (dats 0 c).arrAt 10 cfg0.N)) := by
  rw [held_tailS, exit_rest, exitVal_out0, exitVal_out1, exitVal_out2]

/-- The same after the lines: they write none of the three result arrays. -/
theorem held_after (c : Dev nD) :
    (StableHlo.held (c.tc : Thread nD τ) tailS (StableHlo.after (List.flatten [hostOps1 (F := F)]) (exitVal m dats c)) : sProp 𝕄)
      = iprop(Pipeline.unscopedRest spec0 c (fun b => StableHlo.after (hostOps1 (F := F)) (exitVal m dats c) (Proc.devRef .tc b))
          ∗ (((c.tc : Thread nD τ).loc main_v12_0) ↦{fullShare} (dats 0 c).arrAt 8 cfg0.N)
          ∗ (((c.tc : Thread nD τ).loc main_v12_1) ↦{fullShare} (dats 0 c).arrAt 9 cfg0.N)
          ∗ (((c.tc : Thread nD τ).loc main_v12_2) ↦{fullShare} (dats 0 c).arrAt 10 cfg0.N)) := by
  rw [show List.flatten [hostOps1 (F := F)] = hostOps1 from by simp only [List.flatten_cons, List.flatten_nil, List.append_nil],
    held_tailS, after1_keep _ main_v12_0 (by decide), after1_keep _ main_v12_1 (by decide), after1_keep _ main_v12_2 (by decide),
    exitVal_out0, exitVal_out1, exitVal_out2]

set_option backward.isDefEq.respectTransparency.types false in
/-- The lines after the region: they read the three result arrays and the buffers that bypass the region, write only such
    buffers, and hand the arrays back as they found them. -/
theorem htail0 (hq : ∀ c w, (dats 0 c).q w = qOf w) (c : Dev nD) (Q' : PUnit → sProp 𝕄) :
    iprop((iprop((dats 0 c).arrays ((dats 0 c).arrAt · cfg0.N)
              ∗ Pipeline.unscopedRest spec0 c (fun b => StableHlo.after (hostOps1 (F := F)) (exitVal m dats c) (Proc.devRef .tc b))) -∗ Q' ⟨⟩)
        ∗ boundary (c.tc : Thread nD τ) ∗ (dats 0 c).arrays ((dats 0 c).arrAt · cfg0.N) ∗ Pipeline.unscopedRest spec0 c (V m c))
      ⊢ wp frame (wpE (Pipeline.defs (pcfgs (F := F)) defs₀) (Variants.lift Variants.none) (c.tc : Thread nD τ) none) Set.univ
          (Pipeline.chain ([hostOps1 (F := F)].map StableHlo.seq)) Q' := by
  rw [arrays_chain (dats 0 c) (hq c), ← List.append_nil ([hostOps1 (F := F)].map StableHlo.seq)]
  iintro ⟨Hk, Hb, ⟨H0, H1, H2, H3, H4, H5, H6, H7, H8, H9, H10⟩, HZ⟩
  ihave Hh := (Entails.of_eq (held_exit m dats c).symm) $$ [HZ H8 H9 H10]
  · isplitl [HZ]; · iexact HZ
    isplitl [H8]; · iexact H8
    isplitl [H9]; · iexact H9
    iexact H10
  iapply (Pipeline.wp_seqs_then (pcfgs (F := F)) defs₀ Variants.none c tailS [] [hostOps1 (F := F)]
    (fun ops ho op h => by rw [List.mem_singleton.mp ho] at h; exact List.forall_iff_forall_mem.mp hsub1 op h)
    (fun ops ho op h => by rw [List.mem_singleton.mp ho] at h; exact List.forall_iff_forall_mem.mp hfresh1 op h)
    (exitVal m dats c)) $$ [Hb Hh]
  · isplitl [Hb]; · iexact Hb
    iexact Hh
  iintro ⟨Hb, Hh⟩
  rw [Pipeline.chain_nil, wp_pure]
  imodintro
  iapply Hk
  ihave Hh := (Entails.of_eq (held_after m dats c)) $$ Hh
  icases Hh with ⟨HZ, H8, H9, H10⟩
  isplitr [HZ]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · iexact HZ

/-! ## The launch -/

/-- The arrays as the region takes them: the two cast arguments split into halves for the two windows each goes through. -/
theorem hsplit0 (hA : ∀ c w, (dats 0 c).A w = V m c (Pipeline.arrRef spec0 w)) (hq : ∀ c w, (dats 0 c).q w = qOf w) (c : Dev nD) :
    (Pipeline.arrBufs spec0 c (V m c) : sProp 𝕄) ⊢ (dats 0 c).arrays ((dats 0 c).arrAt · 0) := by
  rw [arrBufs_chain, arrays_chain (dats 0 c) (hq c)]
  have hA' : ∀ w, (dats 0 c).arrAt w 0 = V m c (Pipeline.arrRef spec0 w) := fun w => hA c w
  rw [hA' 0, hA' 1, hA' 2, hA' 3, hA' 4, hA' 5, hA' 6, hA' 7, hA' 8, hA' 9, hA' 10]
  iintro ⟨Hv0, Hv1, Hv5, Hv10, Hv9, Hv11, Ho0, Ho1, Ho2⟩
  ihave Hv0 := (pointsTo_share (PosShare.mem_left_op_right fullShare)).1 $$ Hv0
  icases Hv0 with ⟨Hv0l, Hv0r⟩
  ihave Hv1 := (pointsTo_share (PosShare.mem_left_op_right fullShare)).1 $$ Hv1
  icases Hv1 with ⟨Hv1l, Hv1r⟩
  isplitl [Hv0l]; · iexact Hv0l
  isplitl [Hv0r]; · iexact Hv0r
  isplitl [Hv1l]; · iexact Hv1l
  isplitl [Hv1r]; · iexact Hv1r
  isplitl [Hv5]; · iexact Hv5
  isplitl [Hv10]; · iexact Hv10
  isplitl [Hv9]; · iexact Hv9
  isplitl [Hv11]; · iexact Hv11
  isplitl [Ho0]; · iexact Ho0
  isplitl [Ho1]; · iexact Ho1
  iexact Ho2

-- a rule stated for any thread is used at the TensorCore thread: unification may unfold plain definitions in a
-- metavariable's type
set_option backward.isDefEq.respectTransparency.types false in
/-- THE LAUNCH: @main runs — the fourteen host operations, the region, the twenty-eight host operations — given the
    pipeline's proof data and its body obligation, and ends with the result buffer at what the last lines compute from
    the three result arrays the write-backs left, and the two arguments untouched. -/
theorem run_of_dats
    (hA : ∀ c w, (dats 0 c).A w = V m c (Pipeline.arrRef spec0 w))
    (hq : ∀ c w, (dats 0 c).q w = qOf w)
    (hΦ : ∀ c t, (dats 0 c).Φ t = Pipeline.ΦA spec0 c)
    (howed : ∀ c t, (dats 0 c).owed t = 0)
    (hbody : ∀ c, Pipeline.BodyObligationLoose (dats 0 c) (defs₀ (F := F)) Variants.none () Set.univ) :
    θ_run defs (onTc (τ := τ) (main (F := F))) ⟨m, fun _ => 0, ρ⟩ (fun r => ∀ c : Dev nD,
      r.2.mem ((c.tc : Thread nD τ).loc main_v27) = StableHlo.after (hostOps1 (F := F)) (exitVal m dats c) (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  show θ_run (Pipeline.defs (pcfgs (F := F)) defs₀) _ _ _
  exact Pipeline.θ_run_region_pf_tail (pcfgs (F := F)) (fun p => (cfgs p).toPCfg_adm) dats () cellOf_inj 0 winFacts₀0
    (Pipeline.OwnSemFacts.none spec0) (Pipeline.PreFacts.none _) emb₁ defs₀ Variants.none m ρ main
    (fun _ => Pipeline.chain ([hostOps1 (F := F)].map StableHlo.seq)) hbody
    block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m)
    (hmain := Pipeline.hmainP_around (Ix := Unit) (Name := ℕ) (U := UR sig nD τ) (Lvl := ℕ) (pcfgs (F := F)) 0 defs₀ Variants.none m main
      [hostOps0] [hostOps1] hostOps0_sub hfresh0 (fun c => main_chain c))
    (hsplit := hsplit0 m dats hA hq)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c
      (fun b => StableHlo.after (hostOps1 (F := F)) (exitVal m dats c) (Proc.devRef .tc b)))
    (hX := fun c => by
      iintro ⟨HU, -, -, -, Hp, -⟩; imodintro
      isplitl [Hp]; · iexists _; iexact Hp
      iapply (Entails.of_eq (Pipeline.unscopedRestP_none (Ix := Unit) (Name := ℕ) (U := UR sig nD τ) (Lvl := ℕ) spec0 c (V m c)))
      iexact HU)
    (hin := fun c => by
      rw [hΦ c 0]; unfold Pipeline.ΦA
      iintro ⟨Hp, -, Hr⟩
      isplitl [Hr] <;> iassumption)
    (hout := fun c => by
      rw [hΦ c (Fin.last _), Pipeline.ownSems0_none]; unfold Pipeline.ΦA
      iintro ⟨Hr, Hp⟩
      isplitl [Hp]; · iexact Hp
      isplitr; · iempintro
      iexact Hr)
    (htail := htail0 m dats hq)
    (QY := fun c s => ∀ b ∈ Pipeline.restRefs sig spec0, s.mem ((c.tc : Thread nD τ).loc b) = StableHlo.after (hostOps1 (F := F)) (exitVal m dats c) (Proc.devRef .tc b))
    (hY := fun c s' => by
      iintro ⟨-, HU, HSI⟩
      unfold Pipeline.unscopedRest
      imodintro
      iapply (pointsTo_read_all (Pipeline.restRefs sig spec0) (fun b => (c.tc : Thread nD τ).loc b)
        (fun b => StableHlo.after (hostOps1 (F := F)) (exitVal m dats c) (Proc.devRef .tc b)) s')
      isplitl [HU] <;> iassumption)
    (hQ := fun s h c =>
      ⟨(h c).2.2 main_v27 (Pipeline.mem_restRefs_of _ rfl (by decide)),
        ((h c).2.2 main_arg0 (Pipeline.mem_restRefs_of _ rfl (by decide))).trans
          ((after1_keep _ main_arg0 (by decide)).trans
            ((exitVal_of_ne m dats c main_arg0 (by decide) (by decide) (by decide)).trans (V_arg0 m c))),
        ((h c).2.2 main_arg1 (Pipeline.mem_restRefs_of _ rfl (by decide))).trans
          ((after1_keep _ main_arg1 (by decide)).trans
            ((exitVal_of_ne m dats c main_arg1 (by decide) (by decide) (by decide)).trans (V_arg1 m c)))⟩)

end Cert.KernelIdeal.Frm

end
-- ==== Proof.KI.Runs.lean ====
/-
  The kernel body of the idealized program run once per case of its one condition. The body takes eleven staging
  memrefs: eight inputs (the row blocks `i` and `j` of the two cast arguments, and of their squared row norms as a column
  and as a row) and three 8 × 128 accumulators, one per Gram sum. At the first point of a row of the 8 × 8 grid it
  stores zeros into the three accumulators; at every point it adds the point's tile sum to each. The two runs below
  say what the body leaves in the accumulators as the list of stores it made, found by symbolic execution over the
  body's skeleton; the inputs come back untouched. Stated for every float instance.
-/
import proofs.«104702_j27968827031704_2_alg».proof.Proof.KI.Base

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs at a point -/

/-- One staging buffer of each accumulator's window, through which its contents are stated: by the cover lemma the
    choice does not matter. -/
abbrev VO0_8 : View sig .tc .vmem S8x128 .f32 := (Memref.whole cc0_stg8_0 : Memref sig .tc .vmem S8x128 .f32).view
abbrev VO0_9 : View sig .tc .vmem S8x128 .f32 := (Memref.whole cc0_stg9_0 : Memref sig .tc .vmem S8x128 .f32).view
abbrev VO0_10 : View sig .tc .vmem S8x128 .f32 := (Memref.whole cc0_stg10_0 : Memref sig .tc .vmem S8x128 .f32).view

/-- Each window's current staging memref at point `t`, spelt as the pipeline passes it to the body, and its wholeness. -/
abbrev ms0_0 (t : Fin cfg0.N) : Memref sig .tc .vmem S512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S8x128 .f32 := win0_10.stage (cfg0.slots t 10)
abbrev hs0_10 (t : Fin cfg0.N) : (ms0_10 t).IsWhole := hstage0_10 ((cfg0.slots t 10).cast nbuf0_10)

/-! ## The body, case by case -/

set_option maxHeartbeats 4000000 in
/-- The body at the first point of a row of the grid (the condition holds: the three accumulators are reset to zero
    before anything of them is used). On whole staging memrefs — the eight inputs at contents `x0 … x7`, the three
    accumulators at anything — the body runs to a continuation that holds the inputs as they were and each accumulator
    with the stores the body made into it written over what it held (the lists `L8 L9 L10`, last store first, which the
    run finds). -/
noncomputable def kernelRun0_A (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (hc0 : cond0_0 i)
    (x0 : Vec F S512x1024 .bf16) (x1 : Vec F S512x1024 .bf16) (x2 : Vec F S512x1024 .bf16) (x3 : Vec F S512x1024 .bf16) (x4 : Vec F S512x1 .f32) (x5 : Vec F S1x512 .f32) (x6 : Vec F S512x1 .f32) (x7 : Vec F S1x512 .f32) :
    Σ' (L8 : List (View.Piece (Elt F) S8x128 .f32)) (L9 : List (View.Piece (Elt F) S8x128 .f32)), { L10 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10)) -∗ K ⟨⟩))
          ⊢ wp frame (wpE (defs₀ (F := F)) Variants.none c none) E (cc0__mmd_fused_kernel i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__mmd_fused_kernel_eq_skeleton]; unfold cc0__mmd_fused_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    iexists _; iexact H10

set_option maxHeartbeats 4000000 in
/-- The body at a point that is not the first of its row of the grid (the condition fails: no reset). On whole staging
    memrefs — the eight inputs at contents `x0 … x7`, the three accumulators at the running contents `xo8 xo9 xo10` the
    point before left — the body runs to a continuation that holds the inputs as they were and each accumulator with the
    stores the body made into it written over what it held (the lists `L8 L9 L10`, last store first, which the run finds). -/
noncomputable def kernelRun0_B (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (hc0 : ¬cond0_0 i)
    (x0 : Vec F S512x1024 .bf16) (x1 : Vec F S512x1024 .bf16) (x2 : Vec F S512x1024 .bf16) (x3 : Vec F S512x1024 .bf16) (x4 : Vec F S512x1 .f32) (x5 : Vec F S1x512 .f32) (x6 : Vec F S512x1 .f32) (x7 : Vec F S1x512 .f32) (xo8 : Vec F S8x128 .f32) (xo9 : Vec F S8x128 .f32) (xo10 : Vec F S8x128 .f32) :
    Σ' (L8 : List (View.Piece (Elt F) S8x128 .f32)) (L9 : List (View.Piece (Elt F) S8x128 .f32)), { L10 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo8 ∗ owns (c : Thread nD τ) arg11 fullShare xo9 ∗ owns (c : Thread nD τ) arg12 fullShare xo10
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10)) -∗ K ⟨⟩))
          ⊢ wp frame (wpE (defs₀ (F := F)) Variants.none c none) E (cc0__mmd_fused_kernel i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__mmd_fused_kernel_eq_skeleton]; unfold cc0__mmd_fused_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    iexists _; iexact H10

end Cert.KernelIdeal.Frm

end
-- ==== Proof.KI.Body.lean ====
/-
  What the kernel body of the idealized program leaves in its three accumulators, case by case and then point by point
  over the 8 × 8 grid, and the proof data of the pipeline with its body obligation. At the first point of a row of the
  grid each accumulator ends at the point's tile sum added to zeros; at any other point at the tile sum added to what
  the point before left, the accumulators not being written back until the row's last point. The inputs' staging
  buffers hold their windows' blocks at every point. Stated for every float instance.
-/
import proofs.«104702_j27968827031704_2_alg».proof.Proof.KI.Runs
import Idealize.ShloMosaic.Lib.Pipeline.Value
import Idealize.ShloMosaic.Lib.Ring

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the accumulators -/

/-- The zero offset of a whole-block load or store. -/
theorem hz : (![0, 0] : Fin 2 → Nat) = fun _ => 0 := funext fun a => by fin_cases a <;> rfl

/-- The stores case A makes into the first (the x–x Gram sum) accumulator cover its 8 × 128 block. -/
theorem cover0_A_8 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (hc0 : cond0_0 i)
    (x0 : Vec F S512x1024 .bf16) (x1 : Vec F S512x1024 .bf16) (x2 : Vec F S512x1024 .bf16) (x3 : Vec F S512x1024 .bf16) (x4 : Vec F S512x1 .f32) (x5 : Vec F S1x512 .f32) (x6 : Vec F S512x1 .f32) (x7 : Vec F S1x512 .f32) (y : S8x128.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).1 S8x128.size (by sl_kernel_rfl) y

/-- What case A leaves in the first (the x–x Gram sum) accumulator: its stores read back over arbitrary prior contents. -/
def out0_A_8 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (hc0 : cond0_0 i)
    (x0 : Vec F S512x1024 .bf16) (x1 : Vec F S512x1024 .bf16) (x2 : Vec F S512x1024 .bf16) (x3 : Vec F S512x1024 .bf16) (x4 : Vec F S512x1 .f32) (x5 : Vec F S1x512 .f32) (x6 : Vec F S512x1 .f32) (x7 : Vec F S1x512 .f32) : Vec F S8x128 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).1)

/-- Its value: the tile's sum added to the zeros the reset stored. -/
theorem out0_A_8_eq (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (hc0 : cond0_0 i)
    (x0 : Vec F S512x1024 .bf16) (x1 : Vec F S512x1024 .bf16) (x2 : Vec F S512x1024 .bf16) (x3 : Vec F S512x1024 .bf16) (x4 : Vec F S512x1 .f32) (x5 : Vec F S1x512 .f32) (x6 : Vec F S512x1 .f32) (x7 : Vec F S1x512 .f32) :
    out0_A_8 c i arg2 harg2 arg3 harg3 arg4 harg4 arg5 harg5 arg6 harg6 arg7 harg7 arg8 harg8 arg9 harg9 arg10 harg10 arg11 harg11 arg12 harg12 hc0 x0 x1 x2 x3 x4 x5 x6 x7 = k0_pay12 (k0_pay11 x0 x1 x4 x5) k0_pay2 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  rw [View.canon_cons_unit_zero (S := S8x128) hz, View.readCov_unit_zero (S := S8x128) _ hz]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S512x1024) hz, View.ld_unit_zero (S := S512x1) hz, View.ld_unit_zero (S := S1x512) hz, View.ld_unit_zero (S := S8x128) hz]

/-- The same through any view of the block and over any prior contents: the stores cover the block. -/
theorem leaves0_A_8 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (hc0 : cond0_0 i)
    (x0 : Vec F S512x1024 .bf16) (x1 : Vec F S512x1024 .bf16) (x2 : Vec F S512x1024 .bf16) (x3 : Vec F S512x1024 .bf16) (x4 : Vec F S512x1 .f32) (x5 : Vec F S1x512 .f32) (x6 : Vec F S512x1 .f32) (x7 : Vec F S1x512 .f32)
    {κ' : Kind} {sp' : Space} {sig' : RefSig} (v : View sig' κ' sp' S8x128 .f32) (f : v.ty.Contents (Elt F)) :
    v.read (Elt F) (v.writes (Elt F) f (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).1) = k0_pay12 (k0_pay11 x0 x1 x4 x5) k0_pay2 :=
  (View.read_writes_of_cover _ _ VO0_8 VO0_8.junk _ (cover0_A_8 c i arg2 harg2 arg3 harg3 arg4 harg4 arg5 harg5 arg6 harg6 arg7 harg7 arg8 harg8 arg9 harg9 arg10 harg10 arg11 harg11 arg12 harg12 hc0 x0 x1 x2 x3 x4 x5 x6 x7)).trans (out0_A_8_eq c i arg2 harg2 arg3 harg3 arg4 harg4 arg5 harg5 arg6 harg6 arg7 harg7 arg8 harg8 arg9 harg9 arg10 harg10 arg11 harg11 arg12 harg12 hc0 x0 x1 x2 x3 x4 x5 x6 x7)

/-- The stores case A makes into the second (the y–y Gram sum) accumulator cover its 8 × 128 block. -/
theorem cover0_A_9 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (hc0 : cond0_0 i)
    (x0 : Vec F S512x1024 .bf16) (x1 : Vec F S512x1024 .bf16) (x2 : Vec F S512x1024 .bf16) (x3 : Vec F S512x1024 .bf16) (x4 : Vec F S512x1 .f32) (x5 : Vec F S1x512 .f32) (x6 : Vec F S512x1 .f32) (x7 : Vec F S1x512 .f32) (y : S8x128.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).2.1 S8x128.size (by sl_kernel_rfl) y

/-- What case A leaves in the second (the y–y Gram sum) accumulator: its stores read back over arbitrary prior contents. -/
def out0_A_9 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (hc0 : cond0_0 i)
    (x0 : Vec F S512x1024 .bf16) (x1 : Vec F S512x1024 .bf16) (x2 : Vec F S512x1024 .bf16) (x3 : Vec F S512x1024 .bf16) (x4 : Vec F S512x1 .f32) (x5 : Vec F S1x512 .f32) (x6 : Vec F S512x1 .f32) (x7 : Vec F S1x512 .f32) : Vec F S8x128 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).2.1)

/-- Its value: the tile's sum added to the zeros the reset stored. -/
theorem out0_A_9_eq (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (hc0 : cond0_0 i)
    (x0 : Vec F S512x1024 .bf16) (x1 : Vec F S512x1024 .bf16) (x2 : Vec F S512x1024 .bf16) (x3 : Vec F S512x1024 .bf16) (x4 : Vec F S512x1 .f32) (x5 : Vec F S1x512 .f32) (x6 : Vec F S512x1 .f32) (x7 : Vec F S1x512 .f32) :
    out0_A_9 c i arg2 harg2 arg3 harg3 arg4 harg4 arg5 harg5 arg6 harg6 arg7 harg7 arg8 harg8 arg9 harg9 arg10 harg10 arg11 harg11 arg12 harg12 hc0 x0 x1 x2 x3 x4 x5 x6 x7 = k0_pay13 (k0_pay6 x2) (k0_pay7 x3) (k0_pay9 x6) (k0_pay10 x7) k0_pay3 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  rw [View.canon_cons_unit_zero (S := S8x128) hz, View.readCov_unit_zero (S := S8x128) _ hz]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S512x1024) hz, View.ld_unit_zero (S := S512x1) hz, View.ld_unit_zero (S := S1x512) hz, View.ld_unit_zero (S := S8x128) hz]

/-- The same through any view of the block and over any prior contents: the stores cover the block. -/
theorem leaves0_A_9 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (hc0 : cond0_0 i)
    (x0 : Vec F S512x1024 .bf16) (x1 : Vec F S512x1024 .bf16) (x2 : Vec F S512x1024 .bf16) (x3 : Vec F S512x1024 .bf16) (x4 : Vec F S512x1 .f32) (x5 : Vec F S1x512 .f32) (x6 : Vec F S512x1 .f32) (x7 : Vec F S1x512 .f32)
    {κ' : Kind} {sp' : Space} {sig' : RefSig} (v : View sig' κ' sp' S8x128 .f32) (f : v.ty.Contents (Elt F)) :
    v.read (Elt F) (v.writes (Elt F) f (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).2.1) = k0_pay13 (k0_pay6 x2) (k0_pay7 x3) (k0_pay9 x6) (k0_pay10 x7) k0_pay3 :=
  (View.read_writes_of_cover _ _ VO0_9 VO0_9.junk _ (cover0_A_9 c i arg2 harg2 arg3 harg3 arg4 harg4 arg5 harg5 arg6 harg6 arg7 harg7 arg8 harg8 arg9 harg9 arg10 harg10 arg11 harg11 arg12 harg12 hc0 x0 x1 x2 x3 x4 x5 x6 x7)).trans (out0_A_9_eq c i arg2 harg2 arg3 harg3 arg4 harg4 arg5 harg5 arg6 harg6 arg7 harg7 arg8 harg8 arg9 harg9 arg10 harg10 arg11 harg11 arg12 harg12 hc0 x0 x1 x2 x3 x4 x5 x6 x7)

/-- The stores case A makes into the third (the x–y Gram sum) accumulator cover its 8 × 128 block. -/
theorem cover0_A_10 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (hc0 : cond0_0 i)
    (x0 : Vec F S512x1024 .bf16) (x1 : Vec F S512x1024 .bf16) (x2 : Vec F S512x1024 .bf16) (x3 : Vec F S512x1024 .bf16) (x4 : Vec F S512x1 .f32) (x5 : Vec F S1x512 .f32) (x6 : Vec F S512x1 .f32) (x7 : Vec F S1x512 .f32) (y : S8x128.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).2.2.1 S8x128.size (by sl_kernel_rfl) y

/-- What case A leaves in the third (the x–y Gram sum) accumulator: its stores read back over arbitrary prior contents. -/
def out0_A_10 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (hc0 : cond0_0 i)
    (x0 : Vec F S512x1024 .bf16) (x1 : Vec F S512x1024 .bf16) (x2 : Vec F S512x1024 .bf16) (x3 : Vec F S512x1024 .bf16) (x4 : Vec F S512x1 .f32) (x5 : Vec F S1x512 .f32) (x6 : Vec F S512x1 .f32) (x7 : Vec F S1x512 .f32) : Vec F S8x128 .f32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).2.2.1)

/-- Its value: the tile's sum added to the zeros the reset stored. -/
theorem out0_A_10_eq (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (hc0 : cond0_0 i)
    (x0 : Vec F S512x1024 .bf16) (x1 : Vec F S512x1024 .bf16) (x2 : Vec F S512x1024 .bf16) (x3 : Vec F S512x1024 .bf16) (x4 : Vec F S512x1 .f32) (x5 : Vec F S1x512 .f32) (x6 : Vec F S512x1 .f32) (x7 : Vec F S1x512 .f32) :
    out0_A_10 c i arg2 harg2 arg3 harg3 arg4 harg4 arg5 harg5 arg6 harg6 arg7 harg7 arg8 harg8 arg9 harg9 arg10 harg10 arg11 harg11 arg12 harg12 hc0 x0 x1 x2 x3 x4 x5 x6 x7 = k0_pay1 (k0_pay14 (k0_pay5 x0) (k0_pay7 x3) (k0_pay8 x4) (k0_pay10 x7)) k0_pay4 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  rw [View.canon_cons_unit_zero (S := S8x128) hz, View.readCov_unit_zero (S := S8x128) _ hz]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S512x1024) hz, View.ld_unit_zero (S := S512x1) hz, View.ld_unit_zero (S := S1x512) hz, View.ld_unit_zero (S := S8x128) hz]

/-- The same through any view of the block and over any prior contents: the stores cover the block. -/
theorem leaves0_A_10 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (hc0 : cond0_0 i)
    (x0 : Vec F S512x1024 .bf16) (x1 : Vec F S512x1024 .bf16) (x2 : Vec F S512x1024 .bf16) (x3 : Vec F S512x1024 .bf16) (x4 : Vec F S512x1 .f32) (x5 : Vec F S1x512 .f32) (x6 : Vec F S512x1 .f32) (x7 : Vec F S1x512 .f32)
    {κ' : Kind} {sp' : Space} {sig' : RefSig} (v : View sig' κ' sp' S8x128 .f32) (f : v.ty.Contents (Elt F)) :
    v.read (Elt F) (v.writes (Elt F) f (kernelRun0_A c i arg2 harg2 arg3 harg3 arg4 harg4 arg5 harg5 arg6 harg6 arg7 harg7 arg8 harg8 arg9 harg9 arg10 harg10 arg11 harg11 arg12 harg12 hc0 x0 x1 x2 x3 x4 x5 x6 x7).2.2.1) = k0_pay1 (k0_pay14 (k0_pay5 x0) (k0_pay7 x3) (k0_pay8 x4) (k0_pay10 x7)) k0_pay4 :=
  (View.read_writes_of_cover _ _ VO0_10 VO0_10.junk _ (cover0_A_10 c i arg2 harg2 arg3 harg3 arg4 harg4 arg5 harg5 arg6 harg6 arg7 harg7 arg8 harg8 arg9 harg9 arg10 harg10 arg11 harg11 arg12 harg12 hc0 x0 x1 x2 x3 x4 x5 x6 x7)).trans (out0_A_10_eq c i arg2 harg2 arg3 harg3 arg4 harg4 arg5 harg5 arg6 harg6 arg7 harg7 arg8 harg8 arg9 harg9 arg10 harg10 arg11 harg11 arg12 harg12 hc0 x0 x1 x2 x3 x4 x5 x6 x7)

/-- The stores case B makes into the first (the x–x Gram sum) accumulator cover its 8 × 128 block. -/
theorem cover0_B_8 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (hc0 : ¬cond0_0 i)
    (x0 : Vec F S512x1024 .bf16) (x1 : Vec F S512x1024 .bf16) (x2 : Vec F S512x1024 .bf16) (x3 : Vec F S512x1024 .bf16) (x4 : Vec F S512x1 .f32) (x5 : Vec F S1x512 .f32) (x6 : Vec F S512x1 .f32) (x7 : Vec F S1x512 .f32) (xo8 : Vec F S8x128 .f32) (xo9 : Vec F S8x128 .f32) (xo10 : Vec F S8x128 .f32) (y : S8x128.Idx) :
    ∃ pc ∈ (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10).1 S8x128.size (by sl_kernel_rfl) y

/-- What case B leaves in the first (the x–x Gram sum) accumulator: its stores read back over arbitrary prior contents. -/
def out0_B_8 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (hc0 : ¬cond0_0 i)
    (x0 : Vec F S512x1024 .bf16) (x1 : Vec F S512x1024 .bf16) (x2 : Vec F S512x1024 .bf16) (x3 : Vec F S512x1024 .bf16) (x4 : Vec F S512x1 .f32) (x5 : Vec F S1x512 .f32) (x6 : Vec F S512x1 .f32) (x7 : Vec F S1x512 .f32) (xo8 : Vec F S8x128 .f32) (xo9 : Vec F S8x128 .f32) (xo10 : Vec F S8x128 .f32) : Vec F S8x128 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10).1)

/-- Its value: the tile's sum added to what the accumulator held. -/
theorem out0_B_8_eq (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (hc0 : ¬cond0_0 i)
    (x0 : Vec F S512x1024 .bf16) (x1 : Vec F S512x1024 .bf16) (x2 : Vec F S512x1024 .bf16) (x3 : Vec F S512x1024 .bf16) (x4 : Vec F S512x1 .f32) (x5 : Vec F S1x512 .f32) (x6 : Vec F S512x1 .f32) (x7 : Vec F S1x512 .f32) (xo8 : Vec F S8x128 .f32) (xo9 : Vec F S8x128 .f32) (xo10 : Vec F S8x128 .f32) :
    out0_B_8 c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10 = k0_pay12 (k0_pay11 x0 x1 x4 x5) xo8 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S512x1024) hz, View.ld_unit_zero (S := S512x1) hz, View.ld_unit_zero (S := S1x512) hz, View.ld_unit_zero (S := S8x128) hz]

/-- The same through any view of the block and over any prior contents: the stores cover the block. -/
theorem leaves0_B_8 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (hc0 : ¬cond0_0 i)
    (x0 : Vec F S512x1024 .bf16) (x1 : Vec F S512x1024 .bf16) (x2 : Vec F S512x1024 .bf16) (x3 : Vec F S512x1024 .bf16) (x4 : Vec F S512x1 .f32) (x5 : Vec F S1x512 .f32) (x6 : Vec F S512x1 .f32) (x7 : Vec F S1x512 .f32) (xo8 : Vec F S8x128 .f32) (xo9 : Vec F S8x128 .f32) (xo10 : Vec F S8x128 .f32)
    {κ' : Kind} {sp' : Space} {sig' : RefSig} (v : View sig' κ' sp' S8x128 .f32) (f : v.ty.Contents (Elt F)) :
    v.read (Elt F) (v.writes (Elt F) f (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10).1) = k0_pay12 (k0_pay11 x0 x1 x4 x5) xo8 :=
  (View.read_writes_of_cover _ _ VO0_8 VO0_8.junk _ (cover0_B_8 c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10)).trans (out0_B_8_eq c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10)

/-- The stores case B makes into the second (the y–y Gram sum) accumulator cover its 8 × 128 block. -/
theorem cover0_B_9 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (hc0 : ¬cond0_0 i)
    (x0 : Vec F S512x1024 .bf16) (x1 : Vec F S512x1024 .bf16) (x2 : Vec F S512x1024 .bf16) (x3 : Vec F S512x1024 .bf16) (x4 : Vec F S512x1 .f32) (x5 : Vec F S1x512 .f32) (x6 : Vec F S512x1 .f32) (x7 : Vec F S1x512 .f32) (xo8 : Vec F S8x128 .f32) (xo9 : Vec F S8x128 .f32) (xo10 : Vec F S8x128 .f32) (y : S8x128.Idx) :
    ∃ pc ∈ (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10).2.1 S8x128.size (by sl_kernel_rfl) y

/-- What case B leaves in the second (the y–y Gram sum) accumulator: its stores read back over arbitrary prior contents. -/
def out0_B_9 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (hc0 : ¬cond0_0 i)
    (x0 : Vec F S512x1024 .bf16) (x1 : Vec F S512x1024 .bf16) (x2 : Vec F S512x1024 .bf16) (x3 : Vec F S512x1024 .bf16) (x4 : Vec F S512x1 .f32) (x5 : Vec F S1x512 .f32) (x6 : Vec F S512x1 .f32) (x7 : Vec F S1x512 .f32) (xo8 : Vec F S8x128 .f32) (xo9 : Vec F S8x128 .f32) (xo10 : Vec F S8x128 .f32) : Vec F S8x128 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10).2.1)

/-- Its value: the tile's sum added to what the accumulator held. -/
theorem out0_B_9_eq (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (hc0 : ¬cond0_0 i)
    (x0 : Vec F S512x1024 .bf16) (x1 : Vec F S512x1024 .bf16) (x2 : Vec F S512x1024 .bf16) (x3 : Vec F S512x1024 .bf16) (x4 : Vec F S512x1 .f32) (x5 : Vec F S1x512 .f32) (x6 : Vec F S512x1 .f32) (x7 : Vec F S1x512 .f32) (xo8 : Vec F S8x128 .f32) (xo9 : Vec F S8x128 .f32) (xo10 : Vec F S8x128 .f32) :
    out0_B_9 c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10 = k0_pay13 (k0_pay6 x2) (k0_pay7 x3) (k0_pay9 x6) (k0_pay10 x7) xo9 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S512x1024) hz, View.ld_unit_zero (S := S512x1) hz, View.ld_unit_zero (S := S1x512) hz, View.ld_unit_zero (S := S8x128) hz]

/-- The same through any view of the block and over any prior contents: the stores cover the block. -/
theorem leaves0_B_9 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (hc0 : ¬cond0_0 i)
    (x0 : Vec F S512x1024 .bf16) (x1 : Vec F S512x1024 .bf16) (x2 : Vec F S512x1024 .bf16) (x3 : Vec F S512x1024 .bf16) (x4 : Vec F S512x1 .f32) (x5 : Vec F S1x512 .f32) (x6 : Vec F S512x1 .f32) (x7 : Vec F S1x512 .f32) (xo8 : Vec F S8x128 .f32) (xo9 : Vec F S8x128 .f32) (xo10 : Vec F S8x128 .f32)
    {κ' : Kind} {sp' : Space} {sig' : RefSig} (v : View sig' κ' sp' S8x128 .f32) (f : v.ty.Contents (Elt F)) :
    v.read (Elt F) (v.writes (Elt F) f (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10).2.1) = k0_pay13 (k0_pay6 x2) (k0_pay7 x3) (k0_pay9 x6) (k0_pay10 x7) xo9 :=
  (View.read_writes_of_cover _ _ VO0_9 VO0_9.junk _ (cover0_B_9 c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10)).trans (out0_B_9_eq c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10)

/-- The stores case B makes into the third (the x–y Gram sum) accumulator cover its 8 × 128 block. -/
theorem cover0_B_10 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (hc0 : ¬cond0_0 i)
    (x0 : Vec F S512x1024 .bf16) (x1 : Vec F S512x1024 .bf16) (x2 : Vec F S512x1024 .bf16) (x3 : Vec F S512x1024 .bf16) (x4 : Vec F S512x1 .f32) (x5 : Vec F S1x512 .f32) (x6 : Vec F S512x1 .f32) (x7 : Vec F S1x512 .f32) (xo8 : Vec F S8x128 .f32) (xo9 : Vec F S8x128 .f32) (xo10 : Vec F S8x128 .f32) (y : S8x128.Idx) :
    ∃ pc ∈ (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10).2.2.1 S8x128.size (by sl_kernel_rfl) y

/-- What case B leaves in the third (the x–y Gram sum) accumulator: its stores read back over arbitrary prior contents. -/
def out0_B_10 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (hc0 : ¬cond0_0 i)
    (x0 : Vec F S512x1024 .bf16) (x1 : Vec F S512x1024 .bf16) (x2 : Vec F S512x1024 .bf16) (x3 : Vec F S512x1024 .bf16) (x4 : Vec F S512x1 .f32) (x5 : Vec F S1x512 .f32) (x6 : Vec F S512x1 .f32) (x7 : Vec F S1x512 .f32) (xo8 : Vec F S8x128 .f32) (xo9 : Vec F S8x128 .f32) (xo10 : Vec F S8x128 .f32) : Vec F S8x128 .f32 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10).2.2.1)

/-- Its value: the tile's sum added to what the accumulator held. -/
theorem out0_B_10_eq (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (hc0 : ¬cond0_0 i)
    (x0 : Vec F S512x1024 .bf16) (x1 : Vec F S512x1024 .bf16) (x2 : Vec F S512x1024 .bf16) (x3 : Vec F S512x1024 .bf16) (x4 : Vec F S512x1 .f32) (x5 : Vec F S1x512 .f32) (x6 : Vec F S512x1 .f32) (x7 : Vec F S1x512 .f32) (xo8 : Vec F S8x128 .f32) (xo9 : Vec F S8x128 .f32) (xo10 : Vec F S8x128 .f32) :
    out0_B_10 c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10 = k0_pay1 (k0_pay14 (k0_pay5 x0) (k0_pay7 x3) (k0_pay8 x4) (k0_pay10 x7)) xo10 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S512x1024) hz, View.ld_unit_zero (S := S512x1) hz, View.ld_unit_zero (S := S1x512) hz, View.ld_unit_zero (S := S8x128) hz]

/-- The same through any view of the block and over any prior contents: the stores cover the block. -/
theorem leaves0_B_10 (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S8x128 .f32) (harg12 : arg12.IsWhole) (hc0 : ¬cond0_0 i)
    (x0 : Vec F S512x1024 .bf16) (x1 : Vec F S512x1024 .bf16) (x2 : Vec F S512x1024 .bf16) (x3 : Vec F S512x1024 .bf16) (x4 : Vec F S512x1 .f32) (x5 : Vec F S1x512 .f32) (x6 : Vec F S512x1 .f32) (x7 : Vec F S1x512 .f32) (xo8 : Vec F S8x128 .f32) (xo9 : Vec F S8x128 .f32) (xo10 : Vec F S8x128 .f32)
    {κ' : Kind} {sp' : Space} {sig' : RefSig} (v : View sig' κ' sp' S8x128 .f32) (f : v.ty.Contents (Elt F)) :
    v.read (Elt F) (v.writes (Elt F) f (kernelRun0_B c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10).2.2.1) = k0_pay1 (k0_pay14 (k0_pay5 x0) (k0_pay7 x3) (k0_pay8 x4) (k0_pay10 x7)) xo10 :=
  (View.read_writes_of_cover _ _ VO0_10 VO0_10.junk _ (cover0_B_10 c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10)).trans (out0_B_10_eq c i arg2 harg2 arg3 harg3 arg4 harg4 arg5 harg5 arg6 harg6 arg7 harg7 arg8 harg8 arg9 harg9 arg10 harg10 arg11 harg11 arg12 harg12 hc0 x0 x1 x2 x3 x4 x5 x6 x7 xo8 xo9 xo10)

/-! ## What the accumulators hold after each point -/

/-- The first (the x–x Gram sum) accumulator's staging buffer after the body at position `n`: at the first point of a row of the grid
    the point's tile sum added to zeros, at any other point added to what the point before left. -/
def outsAt8 (c : Dev nD) : (n : ℕ) → n < cfg0.N → Vec F S8x128 .f32
  | 0, hn => k0_pay12 (k0_pay11 (iblk m c 0 ⟨0, hn⟩) (iblk m c 1 ⟨0, hn⟩) (iblk m c 4 ⟨0, hn⟩) (iblk m c 5 ⟨0, hn⟩)) k0_pay2
  | n + 1, hn =>
    if h0 : (n + 1) % 8 = 0 then k0_pay12 (k0_pay11 (iblk m c 0 ⟨n + 1, hn⟩) (iblk m c 1 ⟨n + 1, hn⟩) (iblk m c 4 ⟨n + 1, hn⟩) (iblk m c 5 ⟨n + 1, hn⟩)) k0_pay2
    else k0_pay12 (k0_pay11 (iblk m c 0 ⟨n + 1, hn⟩) (iblk m c 1 ⟨n + 1, hn⟩) (iblk m c 4 ⟨n + 1, hn⟩) (iblk m c 5 ⟨n + 1, hn⟩)) (outsAt8 c n (Nat.lt_of_succ_lt hn))

/-- At the first point of a row. -/
theorem outsAt8_A (c : Dev nD) (t : Fin cfg0.N) (h0 : t.val % 8 = 0) :
    outsAt8 m c t.val t.isLt = k0_pay12 (k0_pay11 (iblk m c 0 t) (iblk m c 1 t) (iblk m c 4 t) (iblk m c 5 t)) k0_pay2 := by
  obtain ⟨n, hn⟩ := t
  cases n with
  | zero => exact rfl
  | succ n => exact (dif_pos h0).trans rfl

/-- At any other point. -/
theorem outsAt8_B (c : Dev nD) (t : Fin cfg0.N) (h0 : ¬t.val % 8 = 0) :
    outsAt8 m c t.val t.isLt = k0_pay12 (k0_pay11 (iblk m c 0 t) (iblk m c 1 t) (iblk m c 4 t) (iblk m c 5 t)) (outsAt8 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The second (the y–y Gram sum) accumulator's staging buffer after the body at position `n`: at the first point of a row of the grid
    the point's tile sum added to zeros, at any other point added to what the point before left. -/
def outsAt9 (c : Dev nD) : (n : ℕ) → n < cfg0.N → Vec F S8x128 .f32
  | 0, hn => k0_pay13 (k0_pay6 (iblk m c 2 ⟨0, hn⟩)) (k0_pay7 (iblk m c 3 ⟨0, hn⟩)) (k0_pay9 (iblk m c 6 ⟨0, hn⟩)) (k0_pay10 (iblk m c 7 ⟨0, hn⟩)) k0_pay3
  | n + 1, hn =>
    if h0 : (n + 1) % 8 = 0 then k0_pay13 (k0_pay6 (iblk m c 2 ⟨n + 1, hn⟩)) (k0_pay7 (iblk m c 3 ⟨n + 1, hn⟩)) (k0_pay9 (iblk m c 6 ⟨n + 1, hn⟩)) (k0_pay10 (iblk m c 7 ⟨n + 1, hn⟩)) k0_pay3
    else k0_pay13 (k0_pay6 (iblk m c 2 ⟨n + 1, hn⟩)) (k0_pay7 (iblk m c 3 ⟨n + 1, hn⟩)) (k0_pay9 (iblk m c 6 ⟨n + 1, hn⟩)) (k0_pay10 (iblk m c 7 ⟨n + 1, hn⟩)) (outsAt9 c n (Nat.lt_of_succ_lt hn))

/-- At the first point of a row. -/
theorem outsAt9_A (c : Dev nD) (t : Fin cfg0.N) (h0 : t.val % 8 = 0) :
    outsAt9 m c t.val t.isLt = k0_pay13 (k0_pay6 (iblk m c 2 t)) (k0_pay7 (iblk m c 3 t)) (k0_pay9 (iblk m c 6 t)) (k0_pay10 (iblk m c 7 t)) k0_pay3 := by
  obtain ⟨n, hn⟩ := t
  cases n with
  | zero => exact rfl
  | succ n => exact (dif_pos h0).trans rfl

/-- At any other point. -/
theorem outsAt9_B (c : Dev nD) (t : Fin cfg0.N) (h0 : ¬t.val % 8 = 0) :
    outsAt9 m c t.val t.isLt = k0_pay13 (k0_pay6 (iblk m c 2 t)) (k0_pay7 (iblk m c 3 t)) (k0_pay9 (iblk m c 6 t)) (k0_pay10 (iblk m c 7 t)) (outsAt9 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The third (the x–y Gram sum) accumulator's staging buffer after the body at position `n`: at the first point of a row of the grid
    the point's tile sum added to zeros, at any other point added to what the point before left. -/
def outsAt10 (c : Dev nD) : (n : ℕ) → n < cfg0.N → Vec F S8x128 .f32
  | 0, hn => k0_pay1 (k0_pay14 (k0_pay5 (iblk m c 0 ⟨0, hn⟩)) (k0_pay7 (iblk m c 3 ⟨0, hn⟩)) (k0_pay8 (iblk m c 4 ⟨0, hn⟩)) (k0_pay10 (iblk m c 7 ⟨0, hn⟩))) k0_pay4
  | n + 1, hn =>
    if h0 : (n + 1) % 8 = 0 then k0_pay1 (k0_pay14 (k0_pay5 (iblk m c 0 ⟨n + 1, hn⟩)) (k0_pay7 (iblk m c 3 ⟨n + 1, hn⟩)) (k0_pay8 (iblk m c 4 ⟨n + 1, hn⟩)) (k0_pay10 (iblk m c 7 ⟨n + 1, hn⟩))) k0_pay4
    else k0_pay1 (k0_pay14 (k0_pay5 (iblk m c 0 ⟨n + 1, hn⟩)) (k0_pay7 (iblk m c 3 ⟨n + 1, hn⟩)) (k0_pay8 (iblk m c 4 ⟨n + 1, hn⟩)) (k0_pay10 (iblk m c 7 ⟨n + 1, hn⟩))) (outsAt10 c n (Nat.lt_of_succ_lt hn))

/-- At the first point of a row. -/
theorem outsAt10_A (c : Dev nD) (t : Fin cfg0.N) (h0 : t.val % 8 = 0) :
    outsAt10 m c t.val t.isLt = k0_pay1 (k0_pay14 (k0_pay5 (iblk m c 0 t)) (k0_pay7 (iblk m c 3 t)) (k0_pay8 (iblk m c 4 t)) (k0_pay10 (iblk m c 7 t))) k0_pay4 := by
  obtain ⟨n, hn⟩ := t
  cases n with
  | zero => exact rfl
  | succ n => exact (dif_pos h0).trans rfl

/-- At any other point. -/
theorem outsAt10_B (c : Dev nD) (t : Fin cfg0.N) (h0 : ¬t.val % 8 = 0) :
    outsAt10 m c t.val t.isLt = k0_pay1 (k0_pay14 (k0_pay5 (iblk m c 0 t)) (k0_pay7 (iblk m c 3 t)) (k0_pay8 (iblk m c 4 t)) (k0_pay10 (iblk m c 7 t))) (outsAt10 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t` each
    input's buffer at its window's block and each accumulator's at its running contents; the invariant the scoped
    rest and the generator register; nothing owed; of an array two windows stage, half a share to each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outsAt8 m c t.val t.isLt
    | ⟨9, _⟩ => outsAt9 m c t.val t.isLt
    | ⟨10, _⟩ => outsAt10 m c t.val t.isLt
  Φ _ := Pipeline.ΦA spec0 c
  q := qOf
  owed _ := 0

/-- The proof data's arrays are the region-entry contents. -/
theorem A_eq (c : Dev nD) (w : Fin cfg0.W) : (dats m 0 c).A w = V m c (Pipeline.arrRef spec0 w) := by
  dsimp only [dats]

/-- The proof data's shares. -/
theorem q_eq (c : Dev nD) (w : Fin cfg0.W) : (dats m 0 c).q w = qOf w := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outsAt8 m c t.val t.isLt := by dsimp only [dats]
theorem after0_9 (c : Dev nD) (t : Fin cfg0.N) : (dats m 0 c).after 9 t = outsAt9 m c t.val t.isLt := by dsimp only [dats]
theorem after0_10 (c : Dev nD) (t : Fin cfg0.N) : (dats m 0 c).after 10 t = outsAt10 m c t.val t.isLt := by dsimp only [dats]

/-- Each input's current staging buffer holds its window's block at every point, fetched there or not: unfetched, the
    block index has not moved since the point before. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl)
    (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl)
    (fun t => by rw [after0_7]; unfold Dat.blockOf iblk; rw [A_eq]; try rfl) t d).trans
    (by unfold Dat.fetched Dat.blockOf iblk; rw [A_eq]; try rfl)

/-- At a point that is not the first of its row an accumulator's staging buffer holds what the body left at the point
    before: the buffer is written back at the row's last point only, so not between the two. -/
theorem before0_8_B (c : Dev nD) (t : Fin cfg0.N) (h0 : ¬t.val % 8 = 0) (d) :
    (dats m 0 c).before 8 t d = outsAt8 m c (t.val - 1) (Nat.lt_of_le_of_lt (Nat.sub_le _ _) t.isLt) := by
  have hN : t.val < 64 := lt_of_lt_of_eq t.isLt (show cfg0.N = 64 from N_0)
  rw [Dat.before_out_kept _ 8 rfl t (by omega) (Bool.eq_false_iff.mpr fun h => by have := (flush0_8 _).mp h; dsimp only at this; omega)
    (fun _ => rfl) (fun _ _ => rfl)]
  dsimp only [dats]
theorem before0_9_B (c : Dev nD) (t : Fin cfg0.N) (h0 : ¬t.val % 8 = 0) (d) :
    (dats m 0 c).before 9 t d = outsAt9 m c (t.val - 1) (Nat.lt_of_le_of_lt (Nat.sub_le _ _) t.isLt) := by
  have hN : t.val < 64 := lt_of_lt_of_eq t.isLt (show cfg0.N = 64 from N_0)
  rw [Dat.before_out_kept _ 9 rfl t (by omega) (Bool.eq_false_iff.mpr fun h => by have := (flush0_9 _).mp h; dsimp only at this; omega)
    (fun _ => rfl) (fun _ _ => rfl)]
  dsimp only [dats]
theorem before0_10_B (c : Dev nD) (t : Fin cfg0.N) (h0 : ¬t.val % 8 = 0) (d) :
    (dats m 0 c).before 10 t d = outsAt10 m c (t.val - 1) (Nat.lt_of_le_of_lt (Nat.sub_le _ _) t.isLt) := by
  have hN : t.val < 64 := lt_of_lt_of_eq t.isLt (show cfg0.N = 64 from N_0)
  rw [Dat.before_out_kept _ 10 rfl t (by omega) (Bool.eq_false_iff.mpr fun h => by have := (flush0_10 _).mp h; dsimp only at this; omega)
    (fun _ => rfl) (fun _ _ => rfl)]
  dsimp only [dats]

/-! ## The body obligation -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 1600000 in
/-- The body at any point: the inputs' buffers hold their blocks; the point is the first of its row or not; in the
    second case each accumulator holds what the point before left; so the case's run applies, the invariant passes
    through unread, and each accumulator is left at its stores read back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  have hN : t.val < 64 := lt_of_lt_of_eq t.isLt (show cfg0.N = 64 from N_0)
  by_cases h0 : t.val % 8 = 0
  · rw [outsAt8_A m c t h0, outsAt9_A m c t h0, outsAt10_A m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_A c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    iintro ⟨H0, H1, H2, H3, H4, H5, H6, H7, ⟨%e8, H8⟩, ⟨%e9, H9⟩, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact leaves0_A_8 c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) _ _
    isplitl [H9]
    · unfold owns; iexists _; isplitr
      swap; · iexact H9
      ipureintro; exact leaves0_A_9 c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) _ _
    unfold owns; iexists _; isplitr
    swap; · iexact H10
    ipureintro; exact leaves0_A_10 c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) _ _
  · rw [outsAt8_B m c t h0, outsAt9_B m c t h0, outsAt10_B m c t h0]
    simp only [before0_8_B m c t h0, before0_9_B m c t h0, before0_10_B m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_B c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (outsAt8 m c (t.val - 1) (Nat.lt_of_le_of_lt (Nat.sub_le _ _) t.isLt)) (outsAt9 m c (t.val - 1) (Nat.lt_of_le_of_lt (Nat.sub_le _ _) t.isLt)) (outsAt10 m c (t.val - 1) (Nat.lt_of_le_of_lt (Nat.sub_le _ _) t.isLt))).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iintro ⟨H0, H1, H2, H3, H4, H5, H6, H7, ⟨%e8, H8⟩, ⟨%e9, H9⟩, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact leaves0_B_8 c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _ _ _ _ _
    isplitl [H9]
    · unfold owns; iexists _; isplitr
      swap; · iexact H9
      ipureintro; exact leaves0_B_9 c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _ _ _ _ _
    unfold owns; iexists _; isplitr
    swap; · iexact H10
    ipureintro; exact leaves0_B_10 c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _ _ _ _ _

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Frm

end
-- ==== Proof.KI.Frame.lean ====
/-
  The frame run assembled: the launch of the one region between the host lines before and after it, on the pipeline's
  proof data and the body's obligation at every grid point. Every weakly fair execution of @main terminates without a
  fault, the result buffer ends at the lines-after-the-region's term of the three result arrays, and both argument
  arrays end as they were. Stated for every float instance; dropping the first clause gives the frame claim.
-/
import proofs.«104702_j27968827031704_2_alg».proof.Proof.KI.Launch
import proofs.«104702_j27968827031704_2_alg».proof.Proof.KI.Body

set_option maxRecDepth 16384

noncomputable section

namespace Cert.KernelIdeal.Frm

open Cert.KernelIdeal Cert.KernelIdeal.Gen
open Idealize.ShloMosaic Idealize.ShloMosaic.TcCoe
open Idealize.SL Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- The run, with the result buffer named. -/
theorem run_main : θ_run defs (onTc (τ := τ) (main (F := F))) ⟨m, fun _ => 0, ρ⟩ (fun r => ∀ c : Dev nD,
      r.2.mem ((c.tc : Thread nD τ).loc main_v27) = StableHlo.after (hostOps1 (F := F)) (exitVal m (dats m) c) (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_of_dats m ρ (dats m) (A_eq m) (q_eq m) (fun _ _ => rfl) (fun _ _ => rfl) (fun c => (body_obligation m c).loose)

/-- The frame: the program runs to the end and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.KernelIdeal.Frm

end
-- ==== Proof.KI.TileValue.lean ====
/-
  The body's arithmetic read at an index, at the ideal float instance (an element is an extended real). Each of the
  three accumulating stores adds, to every cell of the loaded 8 × 128 accumulator, ONE number: the sum over a 512 × 512
  tile of `exp` of minus a thirty-second of `s p + r q − 2 ⟨a_p, b_q⟩`, where `a`, `b` are the two 512 × 1024 row
  blocks, `s` the column of squared norms of `a`'s rows and `r` the row of squared norms of `b`'s rows. The tile entry
  is a matrix product against the transposed second block (so both blocks are read by rows), two broadcasts, and the
  two literals `2` and `−1/32`; the tile's sum is a reduction along each row, then down the column of row sums, and
  the one number left is broadcast over the accumulator's shape.
-/
import proofs.«104702_j27968827031704_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Val

open Cert.KernelIdeal Cert.KernelIdeal.Gen
open Idealize.ShloMosaic Idealize.ShloMosaic.ValueIdx

/-! ## The two literals -/

/-- The word `0x40000000` denotes the real `2`. -/
theorem ofBits_two : Ideal.ofBits .f32 0x40000000#32 = ((2 : ℝ) : EReal) := by
  simp [Ideal.ofBits, Ideal.ieee, -EReal.coe_mul]; norm_num

/-- The word `0xBD000000` denotes the real `−1/32`. -/
theorem ofBits_neg_thirtysecond : Ideal.ofBits .f32 0xBD000000#32 = ((-(1 / 32) : ℝ) : EReal) := by
  simp [Ideal.ofBits, Ideal.ieee, -EReal.coe_mul]; norm_num

/-! ## Layout operations read at an index given by coordinates -/

section Layout
variable {α : Type}

/-- A column `[a, 1]` broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1]` array broadcast to `[a, b]` reads its one element everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## The two sums read at an index -/

/-- A sum along the rows (`[a, b] → [a]` over axis 1) reads, at `p`, the sum of row `p`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ q : Fin b, src (ix2 p q) := by
  refine (Ideal.multiReduction_add_single src acc h hφ hacc (ix1 p)).trans ?_
  refine Finset.sum_congr rfl fun q _ => congrArg src (funext fun c => Fin.ext ?_)
  match c with
  | ⟨0, _⟩ => rfl
  | ⟨1, _⟩ => rfl

/-- A sum down a column (`[a, 1] → [1]` over axis 0) reads the sum of the column's entries. -/
theorem colSum_apply {a : ℕ} {φ : FTy} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ)
    (u : Fin 1) :
    multiReduction .add [0] ⟨1, ![1]⟩ src acc h hφ hacc (ix1 u) = ∑ p : Fin a, src (ix2 p u) := by
  refine (Ideal.multiReduction_add_single src acc h hφ hacc (ix1 u)).trans ?_
  refine Finset.sum_congr rfl fun p _ => congrArg src (funext fun c => Fin.ext ?_)
  match c with
  | ⟨0, _⟩ => rfl
  | ⟨1, _⟩ => rfl

/-! ## The Gram tile at an entry -/

/-- The product's left operand is read on its row axis at the result's row. -/
theorem gram_lhs0 (i : S512x512.Idx) (k : dot_S512x1024_S1024x512_S512x512_1_0_0_1_n_n.contr.Idx) :
    (dot_S512x1024_S1024x512_S512x512_1_0_0_1_n_n.lhsIdx i k 0).val = (i 0).val := by
  unfold DotDims.lhsIdx
  rw [dif_neg (show ¬(0 : Fin S512x1024.rank) ∈ dot_S512x1024_S1024x512_S512x512_1_0_0_1_n_n.lhsBatch by decide),
    dif_pos (show (0 : Fin S512x1024.rank) ∈ dot_S512x1024_S1024x512_S512x512_1_0_0_1_n_n.lhsNonContracting by decide)]
  rfl

/-- The product's right operand is read on its column axis at the result's column. -/
theorem gram_rhs1 (i : S512x512.Idx) (k : dot_S512x1024_S1024x512_S512x512_1_0_0_1_n_n.contr.Idx) :
    (dot_S512x1024_S1024x512_S512x512_1_0_0_1_n_n.rhsIdx i k 1).val = (i 1).val := by
  unfold DotDims.rhsIdx
  rw [dif_neg (show ¬(1 : Fin S1024x512.rank) ∈ dot_S512x1024_S1024x512_S512x512_1_0_0_1_n_n.rhsBatch by decide),
    dif_pos (show (1 : Fin S1024x512.rank) ∈ dot_S512x1024_S1024x512_S512x512_1_0_0_1_n_n.rhsNonContracting by decide)]
  rfl

/-- The product of a row block with the transposed second row block, into the zero accumulator, reads at `(p, q)` the
    inner product of row `p` of the first block with row `q` of the second. -/
theorem gram_apply (x y : FVec Ideal S512x1024 .bf16) (p q : Fin 512) :
    matmul dot_S512x1024_S1024x512_S512x512_1_0_0_1_n_n none x
        (transpose S1024x512 [1, 0] y transposes_S512x1024_p1_0_S1024x512)
        (constant (F := Ideal) S512x512 .f32 0x00000000#32) (ix2 p q)
      = ∑ d : Fin 1024, x (ix2 p d) * y (ix2 q d) := by
  simp only [matmul]
  rw [Ideal.matmul_constant_zero_apply,
    ← Equiv.sum_comp (contrEquiv1 dot_S512x1024_S1024x512_S512x512_1_0_0_1_n_n 1024 rfl rfl).symm]
  refine Finset.sum_congr rfl fun k _ => ?_
  have hk := contrEquiv1_symm_val dot_S512x1024_S1024x512_S512x512_1_0_0_1_n_n 1024 rfl rfl k
  have el : dot_S512x1024_S1024x512_S512x512_1_0_0_1_n_n.lhsIdx (ix2 p q) ((contrEquiv1 dot_S512x1024_S1024x512_S512x512_1_0_0_1_n_n 1024 rfl rfl).symm k) = ix2 p k :=
    funext fun a => Fin.ext (by
      match a with
      | ⟨0, _⟩ => exact gram_lhs0 _ _
      | ⟨1, _⟩ => exact (dot_S512x1024_S1024x512_S512x512_1_0_0_1_n_n.lhsIdx_val_of_single rfl _ _).trans hk)
  have er : dot_S512x1024_S1024x512_S512x512_1_0_0_1_n_n.rhsIdx (ix2 p q) ((contrEquiv1 dot_S512x1024_S1024x512_S512x512_1_0_0_1_n_n 1024 rfl rfl).symm k) = ix2 k q :=
    funext fun a => Fin.ext (by
      match a with
      | ⟨0, _⟩ => exact (dot_S512x1024_S1024x512_S512x512_1_0_0_1_n_n.rhsIdx_val_of_single rfl _ _).trans hk
      | ⟨1, _⟩ => exact gram_rhs1 _ _)
  rw [el, er, transpose_ix2_apply]

/-- The tile's entries as the body computes them from two row blocks, a column and a row. -/
def entries (a b : FVec Ideal S512x1024 .bf16) (s : FVec Ideal S512x1 .f32) (r : FVec Ideal S1x512 .f32) :
    FVec Ideal S512x512 .f32 :=
  exp (mulf
    (subf (addf (broadcastTo S512x512 s broadcasts_S512x1_S512x512) (broadcastTo S512x512 r broadcasts_S1x512_S512x512))
      (mulf (broadcast S512x512 (Scalar.ofBits .f32 0x40000000#32))
        (matmul dot_S512x1024_S1024x512_S512x512_1_0_0_1_n_n none a
          (transpose S1024x512 [1, 0] b transposes_S512x1024_p1_0_S1024x512) (constant S512x512 .f32 0x00000000#32))))
    (broadcast S512x512 (Scalar.ofBits .f32 0xBD000000#32)))

/-- Entry `(p, q)` of the tile: `exp` of `(s p + r q − 2 ⟨a_p, b_q⟩) · (−1/32)`. -/
theorem entries_apply (a b : FVec Ideal S512x1024 .bf16) (s : FVec Ideal S512x1 .f32) (r : FVec Ideal S1x512 .f32)
    (p q : Fin 512) :
    entries a b s r (ix2 p q)
      = Ideal.exp (((s (ix2 p 0) + r (ix2 0 q)) - ((2 : ℝ) : EReal) * ∑ d : Fin 1024, a (ix2 p d) * b (ix2 q d))
          * ((-(1 / 32) : ℝ) : EReal)) := by
  show Ideal.exp (((broadcastTo S512x512 s broadcasts_S512x1_S512x512 (ix2 p q)
        + broadcastTo S512x512 r broadcasts_S1x512_S512x512 (ix2 p q))
      - Ideal.ofBits .f32 0x40000000#32 * matmul dot_S512x1024_S1024x512_S512x512_1_0_0_1_n_n none a
          (transpose S1024x512 [1, 0] b transposes_S512x1024_p1_0_S1024x512)
          (constant (F := Ideal) S512x512 .f32 0x00000000#32) (ix2 p q))
      * Ideal.ofBits .f32 0xBD000000#32) = _
  rw [broadcastTo_a1_ab_apply, broadcastTo_1b_ab_apply, gram_apply, ofBits_two, ofBits_neg_thirtysecond]

/-! ## The tile's sum, spread over the accumulator's shape -/

/-- The sum of a 512 × 512 vector as the body takes it — along each row, then down the column of row sums — and the one
    number left broadcast to 8 × 128. -/
def total (v : FVec Ideal S512x512 .f32) : FVec Ideal S8x128 .f32 :=
  broadcastTo S8x128 (shapeCast S1x1 (multiReduction .add [0] S1
    (shapeCast S512x1 (multiReduction .add [1] S512 v 0x00000000#32 reduces_S512x512_S512 (.inl rfl) rfl) shapeCasts_S512_S512x1)
    0x00000000#32 reduces_S512x1_S1 (.inl rfl) rfl) shapeCasts_S1_S1x1) broadcasts_S1x1_S8x128

/-- Every cell of it holds the double sum over the tile, rows outside. -/
theorem total_apply (v : FVec Ideal S512x512 .f32) (j : S8x128.Idx) :
    total v j = ∑ p : Fin 512, ∑ q : Fin 512, v (ix2 p q) := by
  obtain ⟨i, l, rfl⟩ : ∃ (i : Fin 8) (l : Fin 128), j = ix2 i l := ⟨j 0, j 1, eq_ix2 j⟩
  unfold total
  rw [broadcastTo_11_ab_apply, shapeCast_a_1a_apply]
  refine (colSum_apply _ _ _ _ _ (0 : Fin 1)).trans ?_
  refine Finset.sum_congr rfl fun p _ => ?_
  rw [shapeCast_a_a1_apply]
  exact rowSum_apply _ _ _ _ _ p

/-! ## The stores' payloads at an index -/

/-- One tile's sum: rows first, each row's 512 entries inside. -/
def tile (a b : (⟨2, ![512, 1024]⟩ : Shape).Idx → EReal) (s : (⟨2, ![512, 1]⟩ : Shape).Idx → EReal)
    (r : (⟨2, ![1, 512]⟩ : Shape).Idx → EReal) : EReal :=
  ∑ p : Fin 512, ∑ q : Fin 512, Ideal.exp (((s (ix2 p 0) + r (ix2 0 q))
    - ((2 : ℝ) : EReal) * ∑ d : Fin 1024, a (ix2 p d) * b (ix2 q d)) * ((-(1 / 32) : ℝ) : EReal))

/-- The accumulator with a tile's sum added to every cell. -/
theorem addf_total_entries_apply (a b : FVec Ideal S512x1024 .bf16) (s : FVec Ideal S512x1 .f32) (r : FVec Ideal S1x512 .f32)
    (acc : FVec Ideal S8x128 .f32) (j : S8x128.Idx) :
    addf acc (total (entries a b s r)) j = acc j + tile a b s r := by
  show acc j + total (entries a b s r) j = _
  rw [total_apply]
  unfold tile
  exact congrArg (acc j + ·) (Finset.sum_congr rfl fun p _ => Finset.sum_congr rfl fun q _ => entries_apply a b s r p q)

/-- The zero splat the first point of a row of tiles stores into the first accumulator. -/
theorem pay2_apply (j : S8x128.Idx) : k0_pay2 (F := Ideal) j = 0 := Ideal.ofBits_zero_f32
/-- The same for the second accumulator. -/
theorem pay3_apply (j : S8x128.Idx) : k0_pay3 (F := Ideal) j = 0 := Ideal.ofBits_zero_f32
/-- The same for the third accumulator. -/
theorem pay4_apply (j : S8x128.Idx) : k0_pay4 (F := Ideal) j = 0 := Ideal.ofBits_zero_f32

/-- The first accumulator's store: the tile of the first argument's two row blocks. -/
theorem acc_xx (x0 x1 : Vec Ideal S512x1024 .bf16) (s0 : Vec Ideal S512x1 .f32) (s1 : Vec Ideal S1x512 .f32)
    (acc : Vec Ideal S8x128 .f32) (j : S8x128.Idx) :
    k0_pay12 (F := Ideal) (k0_pay11 x0 x1 s0 s1) acc j = acc j + tile x0 x1 s0 s1 := by
  have e : k0_pay12 (F := Ideal) (k0_pay11 x0 x1 s0 s1) acc = addf acc (total (entries x0 x1 s0 s1)) := by
    unfold k0_pay12 k0_pay11 k0_pay5 k0_pay8
    simp only [shapeCast_self]
    rfl
  rw [e]
  exact addf_total_entries_apply x0 x1 s0 s1 acc j

/-- The second accumulator's store: the tile of the second argument's two row blocks. -/
theorem acc_yy (y0 y1 : Vec Ideal S512x1024 .bf16) (s0 : Vec Ideal S512x1 .f32) (s1 : Vec Ideal S1x512 .f32)
    (acc : Vec Ideal S8x128 .f32) (j : S8x128.Idx) :
    k0_pay13 (F := Ideal) (k0_pay6 y0) (k0_pay7 y1) (k0_pay9 s0) (k0_pay10 s1) acc j = acc j + tile y0 y1 s0 s1 := by
  have e : k0_pay13 (F := Ideal) (k0_pay6 y0) (k0_pay7 y1) (k0_pay9 s0) (k0_pay10 s1) acc
      = addf acc (total (entries y0 y1 s0 s1)) := by
    unfold k0_pay13 k0_pay6 k0_pay7 k0_pay9 k0_pay10
    simp only [shapeCast_self]
    rfl
  rw [e]
  exact addf_total_entries_apply y0 y1 s0 s1 acc j

/-- The third accumulator's store: the tile of a row block of the first argument against one of the second. -/
theorem acc_xy (x0 y1 : Vec Ideal S512x1024 .bf16) (s0 : Vec Ideal S512x1 .f32) (s1 : Vec Ideal S1x512 .f32)
    (acc : Vec Ideal S8x128 .f32) (j : S8x128.Idx) :
    k0_pay1 (F := Ideal) (k0_pay14 (k0_pay5 x0) (k0_pay7 y1) (k0_pay8 s0) (k0_pay10 s1)) acc j = acc j + tile x0 y1 s0 s1 := by
  have e : k0_pay1 (F := Ideal) (k0_pay14 (k0_pay5 x0) (k0_pay7 y1) (k0_pay8 s0) (k0_pay10 s1)) acc
      = addf acc (total (entries x0 y1 s0 s1)) := by
    unfold k0_pay1 k0_pay14 k0_pay5 k0_pay7 k0_pay8 k0_pay10
    simp only [shapeCast_self]
    rfl
  rw [e]
  exact addf_total_entries_apply x0 y1 s0 s1 acc j

end Cert.KernelIdeal.Val

end
-- ==== Proof.Spec.lean ====
/-
  The mathematics of the claim, with no program in sight. For two matrices `a`, `b` of 4096 rows of 1024 extended
  reals, the Gaussian Gram entry of row `n` of `a` and row `m` of `b` is `exp` of minus a thirty-second of
  `|a_n|² + |b_m|² − 2 ⟨a_n, b_m⟩`. The tiled program scales by the literal `−1/32`, sums each 512 × 512 tile, adds the
  eight tile sums of a row of tiles into every cell of an 8 × 128 slab, then sums all 64 × 128 cells and divides by
  1024 and by 4096 · 4096; the plain program negates, divides by 32, sums all 4096 × 4096 entries and divides by 2²⁴.
  Both end with `(xx + yy) − 2 · xy`.
-/
import Idealize.ShloMosaic.PureOps.Ideal
import Idealize.ShloMosaic.Lib.ValueIdx

noncomputable section

open scoped BigOperators

namespace Cert.Spec

open Idealize.ShloMosaic Idealize.ShloMosaic.ValueIdx

/-- A 4096 × 1024 matrix of extended reals, indexed as the programs index their arguments. -/
abbrev Mat : Type := (⟨2, ![4096, 1024]⟩ : Shape).Idx → EReal

/-- The squared norm of row `n`. -/
def sqn (a : Mat) (n : Fin 4096) : EReal := ∑ d : Fin 1024, a (ix2 n d) * a (ix2 n d)
/-- The inner product of row `n` of `a` and row `m` of `b`. -/
def dotp (a b : Mat) (n m : Fin 4096) : EReal := ∑ d : Fin 1024, a (ix2 n d) * b (ix2 m d)
/-- The squared distance by the expansion `|a_n|² + |b_m|² − 2 ⟨a_n, b_m⟩`. -/
def sqd (a b : Mat) (n m : Fin 4096) : EReal := (sqn a n + sqn b m) - ((2 : ℝ) : EReal) * dotp a b n m
/-- The Gram entry as the tiled program computes it: the distance times the literal `−1/32`, exponentiated. -/
def gramK (a b : Mat) (n m : Fin 4096) : EReal := Ideal.exp (sqd a b n m * ((-(1 / 32) : ℝ) : EReal))
/-- The Gram entry as the plain program computes it: the distance negated, divided by `32`, exponentiated. -/
def gramR (a b : Mat) (n m : Fin 4096) : EReal := Ideal.exp (Ideal.div (-(sqd a b n m)) ((32 : ℝ) : EReal))

/-- Row `p` of row block `i` (eight blocks of 512 rows). -/
def rowOf (i : Fin 8) (p : Fin 512) : Fin 4096 := ⟨i.val * 512 + p.val, by omega⟩

/-- The sum of a Gram matrix over tile `(i, j)`: rows first, each row's 512 entries inside. -/
def tileSum (g : Fin 4096 → Fin 4096 → EReal) (i j : Fin 8) : EReal := ∑ p : Fin 512, ∑ q : Fin 512, g (rowOf i p) (rowOf j q)
/-- What every cell of row block `i`'s 8 × 128 slab holds at the end: the eight tile sums of that row of tiles. -/
def slab (g : Fin 4096 → Fin 4096 → EReal) (i : Fin 8) : EReal := ∑ j : Fin 8, tileSum g i j
/-- The tiled program's mean: all 64 × 128 slab cells summed (row `r` belongs to block `r / 8`), divided by 1024 and then
    by `4096 · 4096`. -/
def meanK (g : Fin 4096 → Fin 4096 → EReal) : EReal :=
  Ideal.div (Ideal.div (∑ r : Fin 64, ∑ _l : Fin 128, slab g ⟨r.val / 8, by omega⟩) ((1024 : ℝ) : EReal))
    (((4096 : ℝ) : EReal) * ((4096 : ℝ) : EReal))
/-- The plain program's mean: all entries summed, divided by `2²⁴`. -/
def meanR (g : Fin 4096 → Fin 4096 → EReal) : EReal :=
  Ideal.div (∑ n : Fin 4096, ∑ m : Fin 4096, g n m) ((16777216 : ℝ) : EReal)

/-- The tiled program's result. -/
def kernelForm (x y : Mat) : EReal :=
  (meanK (gramK x x) + meanK (gramK y y)) - ((2 : ℝ) : EReal) * meanK (gramK x y)
/-- The plain program's result. -/
def refForm (x y : Mat) : EReal :=
  (meanR (gramR x x) + meanR (gramR y y)) - ((2 : ℝ) : EReal) * meanR (gramR x y)

end Cert.Spec

end
-- ==== Proof.KI.EntryValue.lean ====
/-
  What the tiled program's region finds in the core's buffers, read index by index at the extended reals, and what
  each input window's block holds at a grid point. The two casts are the identity, so the cast arguments are the
  arguments X and Y themselves; the column (and, reshaped, the row) of sums of squares holds at n the squared norm of
  row n. The grid is 8 × 8; at point t, with I = t / 8 and J = t % 8, the windows on the first grid coordinate hold row
  block I (rows I · 512 + p) of their array, those on the second hold row block J: a block's coordinate on an axis is
  the block index times the block's extent plus the coordinate inside the block.
-/
import proofs.«104702_j27968827031704_2_alg».proof.Proof.KI.Base
import proofs.«104702_j27968827031704_2_alg».proof.Proof.Spec
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

set_option maxRecDepth 16384

noncomputable section

open scoped BigOperators

namespace Cert.KernelIdeal.Val

open Cert.KernelIdeal Cert.KernelIdeal.Gen Cert.KernelIdeal.Frm
open Idealize.ShloMosaic Idealize.ShloMosaic.TcCoe Idealize.ShloMosaic.Tactic Idealize.ShloMosaic.ValueIdx
open Idealize.ShloMosaic.StableHlo
open Idealize.SL.Sem
open Idealize.ShloMosaic.Pipeline (Dat Cfg Window BodyObligation cellOf)

variable (m : (ℓ : Loc nD τ sig) → Buf (Elt Ideal) ℓ) (c : Dev nD)

/-! ## The buffers at region entry -/

/-- The first argument, as launched. -/
abbrev X : Cert.Spec.Mat := (m ((c : Thread nD τ).loc main_arg0) : S4096x1024.Idx → EReal)
/-- The second argument, as launched. -/
abbrev Y : Cert.Spec.Mat := (m ((c : Thread nD τ).loc main_arg1) : S4096x1024.Idx → EReal)

/-- The column of row sums of squares as the host operations compute it from a matrix: cast down and up, square, sum each
    row from the zero word, lay the sums out as a column. -/
abbrev sqcol (x : (⟨S4096x1024, .f32⟩ : BufTy).Contents (Elt Ideal)) : (⟨S4096x1, .f32⟩ : BufTy).Contents (Elt Ideal) :=
  broadcastInDim S4096x1 ![0] bcast_S4096_S4096x1_0
    (Host.reduceAdd (F := Ideal)
      (mulf (extf FTy.f32 (truncf FTy.bf16 x bitsLt_bf16_f32) bitsLt_bf16_f32)
        (extf FTy.f32 (truncf FTy.bf16 x bitsLt_bf16_f32) bitsLt_bf16_f32))
      (constant (F := Ideal) S_ FTy.f32 0#32) reducesTo_S4096x1024_S4096_d1 h_S_)

/-- At row n the column holds the squared norm of row n: the casts are the identity, the zero word is 0, and the host's
    sum over the second axis is the sum over the row's 1024 entries. -/
theorem sqcol_apply (x : (⟨S4096x1024, .f32⟩ : BufTy).Contents (Elt Ideal)) (n : Fin 4096) :
    (sqcol x : S4096x1.Idx → EReal) (ix2 n 0) = Cert.Spec.sqn x n := by
  refine (broadcastInDim_apply _ _ _ (ix2 n 0) (ix1 n) (fun a => ?_)).trans ?_
  · match a with | ⟨0, _⟩ => rfl
  · simp only [Host.reduceAdd, Ideal.hostReduceAdd_def]
    rw [Ideal.hostReduceAdd_single reducesTo_S4096x1024_S4096_d1 (by decide)]
    rw [show (constant (F := Ideal) S_ FTy.f32 (0#32) (Shape.Idx.first h_S_) : EReal) = 0 from Ideal.ofBits_zero_f32, zero_add]
    unfold Cert.Spec.sqn
    refine Finset.sum_congr rfl fun k _ => ?_
    show x (Shape.Reduces.lift _ (ix1 n) k) * x (Shape.Reduces.lift _ (ix1 n) k) = x (ix2 n k) * x (ix2 n k)
    have hk : ∀ h : S4096x1024.Reduces [1] S4096, h.lift (ix1 n) k = ix2 n k := fun h =>
      funext fun a => Fin.ext (by match a with | ⟨0, _⟩ => rfl | ⟨1, _⟩ => rfl)
    rw [hk]; rfl

/-- The column reshaped to a row holds at (0, n) what the column holds at (n, 0): the same row-major position. -/
theorem sqrow_apply (x : (⟨S4096x1024, .f32⟩ : BufTy).Contents (Elt Ideal)) (n : Fin 4096) :
    (shapeCast S1x4096 (sqcol x) shapeCasts_S4096x1_S1x4096 : S1x4096.Idx → EReal) (ix2 0 n) = Cert.Spec.sqn x n := by
  refine (shapeCast_apply _ _ (ix2 0 n) (ix2 n 0) ?_).trans (sqcol_apply _ n)
  rw [Shape.rowMajor_val_two, Shape.rowMajor_val_two]
  show n.val * 1 + 0 = 0 * 4096 + n.val
  omega

/-- The cast first argument is the first argument. -/
theorem V_v0 : (V m c main_v0 : S4096x1024.Idx → EReal) = X m c := by
  dsimp only [V, V0]
  simp only [hostOps0, List.flatten_cons, List.flatten_nil, List.append_nil]
  after_results
  rfl

/-- The cast second argument is the second argument. -/
theorem V_v1 : (V m c main_v1 : S4096x1024.Idx → EReal) = Y m c := by
  dsimp only [V, V0]
  simp only [hostOps0, List.flatten_cons, List.flatten_nil, List.append_nil]
  after_results
  rfl

/-- The first argument's column of squared row norms. -/
theorem V_v5_apply (n : Fin 4096) : (V m c main_v5 : S4096x1.Idx → EReal) (ix2 n 0) = Cert.Spec.sqn (X m c) n := by
  have e : (V m c main_v5 : S4096x1.Idx → EReal) = sqcol (X m c) := by
    dsimp only [V, V0]
    simp only [hostOps0, List.flatten_cons, List.flatten_nil, List.append_nil]
    after_results
  rw [e]; exact sqcol_apply _ n

/-- The second argument's column of squared row norms. -/
theorem V_v9_apply (n : Fin 4096) : (V m c main_v9 : S4096x1.Idx → EReal) (ix2 n 0) = Cert.Spec.sqn (Y m c) n := by
  have e : (V m c main_v9 : S4096x1.Idx → EReal) = sqcol (Y m c) := by
    dsimp only [V, V0]
    simp only [hostOps0, List.flatten_cons, List.flatten_nil, List.append_nil]
    after_results
  rw [e]; exact sqcol_apply _ n

/-- The first argument's squared row norms as a row. -/
theorem V_v10_apply (n : Fin 4096) : (V m c main_v10 : S1x4096.Idx → EReal) (ix2 0 n) = Cert.Spec.sqn (X m c) n := by
  have e : (V m c main_v10 : S1x4096.Idx → EReal) = shapeCast S1x4096 (sqcol (X m c)) shapeCasts_S4096x1_S1x4096 := by
    dsimp only [V, V0]
    simp only [hostOps0, List.flatten_cons, List.flatten_nil, List.append_nil]
    after_results
    rfl
  rw [e]; exact sqrow_apply _ n

/-- The second argument's squared row norms as a row. -/
theorem V_v11_apply (n : Fin 4096) : (V m c main_v11 : S1x4096.Idx → EReal) (ix2 0 n) = Cert.Spec.sqn (Y m c) n := by
  have e : (V m c main_v11 : S1x4096.Idx → EReal) = shapeCast S1x4096 (sqcol (Y m c)) shapeCasts_S4096x1_S1x4096 := by
    dsimp only [V, V0]
    simp only [hostOps0, List.flatten_cons, List.flatten_nil, List.append_nil]
    after_results
    rfl
  rw [e]; exact sqrow_apply _ n

/-! ## The windows' blocks at a grid point -/

/-- The first coordinate of grid point t: its row of tiles. -/
abbrev I (t : Fin cfg0.N) : Fin 8 := ⟨t.val / 8, by have h : t.val < 64 := lt_of_lt_of_eq t.isLt N_0; omega⟩
/-- The second coordinate of grid point t: its column of tiles. -/
abbrev J (t : Fin cfg0.N) : Fin 8 := ⟨t.val % 8, by omega⟩

theorem I_val (t : Fin cfg0.N) : (I t).val = t.val / 8 := rfl
theorem J_val (t : Fin cfg0.N) : (J t).val = t.val % 8 := rfl

/-- Window 0's block indices over the grid: the first grid coordinate on axis 0, zero on the other. -/
theorem idx0 : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)

/-- Window 0's block at t sits at rows I · 512 + p of its array, all 1024 columns. -/
theorem emb0 (t : Fin cfg0.N) (p : Fin 512) (d : Fin 1024) :
    ((cfg0.win 0).blk t).view.emb (ix2 p d) = ix2 (Cert.Spec.rowOf (I t) p) d := by
  obtain ⟨e0, e1⟩ := idx0 t
  funext a; apply Fin.ext
  match a with
  | ⟨0, _⟩ => show win0_0.index t (0 : Fin 2) * 512 + 1 * p.val = (t.val / 8) * 512 + p.val; rw [e0]; omega
  | ⟨1, _⟩ => show win0_0.index t (1 : Fin 2) * 1024 + 1 * d.val = d.val; rw [e1]; omega

/-- Window 0's block at t is row block I of the first argument. -/
theorem iblk0_apply (t : Fin cfg0.N) (p : Fin 512) (d : Fin 1024) :
    (iblk m c 0 t : S512x1024.Idx → EReal) (ix2 p d) = X m c (ix2 (Cert.Spec.rowOf (I t) p) d) := by
  show V m c main_v0 (((cfg0.win 0).blk t).view.emb (ix2 p d)) = _
  rw [emb0]; exact congrFun (V_v0 m c) _

/-- Window 1's block indices over the grid: the second grid coordinate on axis 0, zero on the other. -/
theorem idx1 : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)

/-- Window 1's block at t sits at rows J · 512 + p of its array, all 1024 columns. -/
theorem emb1 (t : Fin cfg0.N) (p : Fin 512) (d : Fin 1024) :
    ((cfg0.win 1).blk t).view.emb (ix2 p d) = ix2 (Cert.Spec.rowOf (J t) p) d := by
  obtain ⟨e0, e1⟩ := idx1 t
  funext a; apply Fin.ext
  match a with
  | ⟨0, _⟩ => show win0_1.index t (0 : Fin 2) * 512 + 1 * p.val = (t.val % 8) * 512 + p.val; rw [e0]; omega
  | ⟨1, _⟩ => show win0_1.index t (1 : Fin 2) * 1024 + 1 * d.val = d.val; rw [e1]; omega

/-- Window 1's block at t is row block J of the first argument. -/
theorem iblk1_apply (t : Fin cfg0.N) (p : Fin 512) (d : Fin 1024) :
    (iblk m c 1 t : S512x1024.Idx → EReal) (ix2 p d) = X m c (ix2 (Cert.Spec.rowOf (J t) p) d) := by
  show V m c main_v0 (((cfg0.win 1).blk t).view.emb (ix2 p d)) = _
  rw [emb1]; exact congrFun (V_v0 m c) _

/-- Window 2's block indices over the grid: the first grid coordinate on axis 0, zero on the other. -/
theorem idx2 : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)

/-- Window 2's block at t sits at rows I · 512 + p of its array, all 1024 columns. -/
theorem emb2 (t : Fin cfg0.N) (p : Fin 512) (d : Fin 1024) :
    ((cfg0.win 2).blk t).view.emb (ix2 p d) = ix2 (Cert.Spec.rowOf (I t) p) d := by
  obtain ⟨e0, e1⟩ := idx2 t
  funext a; apply Fin.ext
  match a with
  | ⟨0, _⟩ => show win0_2.index t (0 : Fin 2) * 512 + 1 * p.val = (t.val / 8) * 512 + p.val; rw [e0]; omega
  | ⟨1, _⟩ => show win0_2.index t (1 : Fin 2) * 1024 + 1 * d.val = d.val; rw [e1]; omega

/-- Window 2's block at t is row block I of the second argument. -/
theorem iblk2_apply (t : Fin cfg0.N) (p : Fin 512) (d : Fin 1024) :
    (iblk m c 2 t : S512x1024.Idx → EReal) (ix2 p d) = Y m c (ix2 (Cert.Spec.rowOf (I t) p) d) := by
  show V m c main_v1 (((cfg0.win 2).blk t).view.emb (ix2 p d)) = _
  rw [emb2]; exact congrFun (V_v1 m c) _

/-- Window 3's block indices over the grid: the second grid coordinate on axis 0, zero on the other. -/
theorem idx3 : ∀ t : Fin cfg0.N, win0_3.index t (0 : Fin 2) = t.val % 8 ∧ win0_3.index t (1 : Fin 2) = 0 :=
  (by decide +kernel : ∀ t : Fin grid0.N, win0_3.index t (0 : Fin 2) = t.val % 8 ∧ win0_3.index t (1 : Fin 2) = 0)

/-- Window 3's block at t sits at rows J · 512 + p of its array, all 1024 columns. -/
theorem emb3 (t : Fin cfg0.N) (p : Fin 512) (d : Fin 1024) :
    ((cfg0.win 3).blk t).view.emb (ix2 p d) = ix2 (Cert.Spec.rowOf (J t) p) d := by
  obtain ⟨e0, e1⟩ := idx3 t
  funext a; apply Fin.ext
  match a with
  | ⟨0, _⟩ => show win0_3.index t (0 : Fin 2) * 512 + 1 * p.val = (t.val % 8) * 512 + p.val; rw [e0]; omega
  | ⟨1, _⟩ => show win0_3.index t (1 : Fin 2) * 1024 + 1 * d.val = d.val; rw [e1]; omega

/-- Window 3's block at t is row block J of the second argument. -/
theorem iblk3_apply (t : Fin cfg0.N) (p : Fin 512) (d : Fin 1024) :
    (iblk m c 3 t : S512x1024.Idx → EReal) (ix2 p d) = Y m c (ix2 (Cert.Spec.rowOf (J t) p) d) := by
  show V m c main_v1 (((cfg0.win 3).blk t).view.emb (ix2 p d)) = _
  rw [emb3]; exact congrFun (V_v1 m c) _

/-- Window 4's block indices over the grid: the first grid coordinate on axis 0, zero on the other. -/
theorem idx4 : ∀ t : Fin cfg0.N, win0_4.index t (0 : Fin 2) = t.val / 8 ∧ win0_4.index t (1 : Fin 2) = 0 :=
  (by decide +kernel : ∀ t : Fin grid0.N, win0_4.index t (0 : Fin 2) = t.val / 8 ∧ win0_4.index t (1 : Fin 2) = 0)

/-- Window 4's block at t sits at rows I · 512 + p of its column. -/
theorem emb4 (t : Fin cfg0.N) (p : Fin 512) :
    ((cfg0.win 4).blk t).view.emb (ix2 p (0 : Fin 1)) = ix2 (Cert.Spec.rowOf (I t) p) (0 : Fin 1) := by
  obtain ⟨e0, e1⟩ := idx4 t
  funext a; apply Fin.ext
  match a with
  | ⟨0, _⟩ => show win0_4.index t (0 : Fin 2) * 512 + 1 * p.val = (t.val / 8) * 512 + p.val; rw [e0]; omega
  | ⟨1, _⟩ => show win0_4.index t (1 : Fin 2) * 1 + 1 * 0 = 0; rw [e1]

/-- Window 4's block at t holds the squared norms of the rows of row block I of the first argument. -/
theorem iblk4_apply (t : Fin cfg0.N) (p : Fin 512) :
    (iblk m c 4 t : S512x1.Idx → EReal) (ix2 p 0) = Cert.Spec.sqn (X m c) (Cert.Spec.rowOf (I t) p) := by
  show V m c main_v5 (((cfg0.win 4).blk t).view.emb (ix2 p (0 : Fin 1))) = _
  rw [emb4]; exact V_v5_apply m c _

/-- Window 5's block indices over the grid: the second grid coordinate on axis 1, zero on the other. -/
theorem idx5 : ∀ t : Fin cfg0.N, win0_5.index t (0 : Fin 2) = 0 ∧ win0_5.index t (1 : Fin 2) = t.val % 8 :=
  (by decide +kernel : ∀ t : Fin grid0.N, win0_5.index t (0 : Fin 2) = 0 ∧ win0_5.index t (1 : Fin 2) = t.val % 8)

/-- Window 5's block at t sits at columns J · 512 + q of its row. -/
theorem emb5 (t : Fin cfg0.N) (q : Fin 512) :
    ((cfg0.win 5).blk t).view.emb (ix2 (0 : Fin 1) q) = ix2 (0 : Fin 1) (Cert.Spec.rowOf (J t) q) := by
  obtain ⟨e0, e1⟩ := idx5 t
  funext a; apply Fin.ext
  match a with
  | ⟨0, _⟩ => show win0_5.index t (0 : Fin 2) * 1 + 1 * 0 = 0; rw [e0]
  | ⟨1, _⟩ => show win0_5.index t (1 : Fin 2) * 512 + 1 * q.val = (t.val % 8) * 512 + q.val; rw [e1]; omega

/-- Window 5's block at t holds the squared norms of the rows of row block J of the first argument. -/
theorem iblk5_apply (t : Fin cfg0.N) (q : Fin 512) :
    (iblk m c 5 t : S1x512.Idx → EReal) (ix2 0 q) = Cert.Spec.sqn (X m c) (Cert.Spec.rowOf (J t) q) := by
  show V m c main_v10 (((cfg0.win 5).blk t).view.emb (ix2 (0 : Fin 1) q)) = _
  rw [emb5]; exact V_v10_apply m c _

/-- Window 6's block indices over the grid: the first grid coordinate on axis 0, zero on the other. -/
theorem idx6 : ∀ t : Fin cfg0.N, win0_6.index t (0 : Fin 2) = t.val / 8 ∧ win0_6.index t (1 : Fin 2) = 0 :=
  (by decide +kernel : ∀ t : Fin grid0.N, win0_6.index t (0 : Fin 2) = t.val / 8 ∧ win0_6.index t (1 : Fin 2) = 0)

/-- Window 6's block at t sits at rows I · 512 + p of its column. -/
theorem emb6 (t : Fin cfg0.N) (p : Fin 512) :
    ((cfg0.win 6).blk t).view.emb (ix2 p (0 : Fin 1)) = ix2 (Cert.Spec.rowOf (I t) p) (0 : Fin 1) := by
  obtain ⟨e0, e1⟩ := idx6 t
  funext a; apply Fin.ext
  match a with
  | ⟨0, _⟩ => show win0_6.index t (0 : Fin 2) * 512 + 1 * p.val = (t.val / 8) * 512 + p.val; rw [e0]; omega
  | ⟨1, _⟩ => show win0_6.index t (1 : Fin 2) * 1 + 1 * 0 = 0; rw [e1]

/-- Window 6's block at t holds the squared norms of the rows of row block I of the second argument. -/
theorem iblk6_apply (t : Fin cfg0.N) (p : Fin 512) :
    (iblk m c 6 t : S512x1.Idx → EReal) (ix2 p 0) = Cert.Spec.sqn (Y m c) (Cert.Spec.rowOf (I t) p) := by
  show V m c main_v9 (((cfg0.win 6).blk t).view.emb (ix2 p (0 : Fin 1))) = _
  rw [emb6]; exact V_v9_apply m c _

/-- Window 7's block indices over the grid: the second grid coordinate on axis 1, zero on the other. -/
theorem idx7 : ∀ t : Fin cfg0.N, win0_7.index t (0 : Fin 2) = 0 ∧ win0_7.index t (1 : Fin 2) = t.val % 8 :=
  (by decide +kernel : ∀ t : Fin grid0.N, win0_7.index t (0 : Fin 2) = 0 ∧ win0_7.index t (1 : Fin 2) = t.val % 8)

/-- Window 7's block at t sits at columns J · 512 + q of its row. -/
theorem emb7 (t : Fin cfg0.N) (q : Fin 512) :
    ((cfg0.win 7).blk t).view.emb (ix2 (0 : Fin 1) q) = ix2 (0 : Fin 1) (Cert.Spec.rowOf (J t) q) := by
  obtain ⟨e0, e1⟩ := idx7 t
  funext a; apply Fin.ext
  match a with
  | ⟨0, _⟩ => show win0_7.index t (0 : Fin 2) * 1 + 1 * 0 = 0; rw [e0]
  | ⟨1, _⟩ => show win0_7.index t (1 : Fin 2) * 512 + 1 * q.val = (t.val % 8) * 512 + q.val; rw [e1]; omega

/-- Window 7's block at t holds the squared norms of the rows of row block J of the second argument. -/
theorem iblk7_apply (t : Fin cfg0.N) (q : Fin 512) :
    (iblk m c 7 t : S1x512.Idx → EReal) (ix2 0 q) = Cert.Spec.sqn (Y m c) (Cert.Spec.rowOf (J t) q) := by
  show V m c main_v11 (((cfg0.win 7).blk t).view.emb (ix2 (0 : Fin 1) q)) = _
  rw [emb7]; exact V_v11_apply m c _

end Cert.KernelIdeal.Val

end
-- ==== Proof.KI.OutArrays.lean ====
/-
  From the staging buffers to the result arrays. Each of the three 64 × 128 result arrays is written back eight times,
  at the last point of each row of the 8 × 8 grid, one 8 × 128 slab per row of the grid; the slabs tile the array. So
  if at the last point of grid row `i` every cell of the staging buffer holds one value `s i`, the array ends with
  `s (r / 8)` in every cell of its row `r`.
-/
import proofs.«104702_j27968827031704_2_alg».proof.Proof.KI.Base
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx Idealize.SL.Sem
open Idealize.ShloMosaic.Pipeline (Dat Cfg Window)

variable {c : Dev nD}

/-- The result windows' block at point `t` is slab `t / 8` of its array, columns whole — decided over the grid. -/
theorem idx_out : ∀ t : Fin cfg0.N, win0_8.index t (0 : Fin 2) = t.val / 8 ∧ win0_8.index t (1 : Fin 2) = 0
    ∧ win0_9.index t (0 : Fin 2) = t.val / 8 ∧ win0_9.index t (1 : Fin 2) = 0
    ∧ win0_10.index t (0 : Fin 2) = t.val / 8 ∧ win0_10.index t (1 : Fin 2) = 0 :=
  (by decide +kernel : ∀ t : Fin grid0.N, _)

/-- An index of result array 0 lies in point `t`'s block iff each coordinate is in the block's range on its axis. -/
theorem mem_blk8 (t : Fin cfg0.N) (i : S64x128.Idx) :
    i ∈ ((cfg0.win 8).blk t).view.set ↔ ∀ a : Fin 2, win0_8.index t a * S8x128.size a ≤ (i a).val ∧ (i a).val < win0_8.index t a * S8x128.size a + S8x128.size a := by
  show i ∈ ((View.whole main_v12_0).slice (win0_8.rect t)).set ↔ _
  rw [View.set_slice_whole, Rect.mem_set_unit]
  exact Iff.rfl

/-- If at the last point of each grid row every cell of window 8's staging buffer holds `s` of that row, the result
    array ends with `s (r / 8)` in every cell of row `r`: the eight write-backs tile the array by slabs of eight rows. -/
theorem final8 (dat : Dat τ (Elt Ideal) Unit ℕ (UR sig nD τ) ℕ cfg0 c) (s : Fin 8 → EReal)
    (hafter : ∀ t : Fin cfg0.N, t.val % 8 = 7 → dat.after 8 t = fun _ => s ⟨t.val / 8, by have := t.isLt; have h : cfg0.N = 64 := N_0; omega⟩) :
    dat.arrAt 8 cfg0.N = (fun i : S64x128.Idx => s ⟨(i 0).val / 8, by have := idx2_lt0 i; omega⟩) := by
  refine dat.arrAt_eq_of_cover 8 _ (fun t hf => ?_) (fun i => ?_)
  · have h7 : t.val % 8 = 7 := (flush0_8 t).mp hf
    show (cfg0.win 8).cut (grid0.coords t) (dat.after 8 t) = _
    rw [hafter t h7]
    have e0 : win0_8.index t (0 : Fin 2) = t.val / 8 := (idx_out t).1
    funext j
    show s _ = s _
    congr 1; apply Fin.ext
    show t.val / 8 = (win0_8.index t (0 : Fin 2) * 8 + 1 * (j 0).val) / 8
    have hj : (j 0).val < 8 := (j 0).isLt
    omega
  · have hi0 : (i 0).val < 64 := idx2_lt0 i
    have hi1 : (i 1).val < 128 := idx2_lt1 i
    have hN : cfg0.N = 64 := N_0
    let t : Fin cfg0.N := ⟨8 * ((i 0).val / 8) + 7, by omega⟩
    have e0 : win0_8.index t (0 : Fin 2) = t.val / 8 := (idx_out t).1
    have e1 : win0_8.index t (1 : Fin 2) = 0 := (idx_out t).2.1
    have ht : t.val = 8 * ((i 0).val / 8) + 7 := rfl
    refine ⟨t, (flush0_8 t).mpr (by omega), ?_⟩
    rw [mem_blk8]
    intro a
    match a with
    | ⟨0, _⟩ => show win0_8.index t (0 : Fin 2) * 8 ≤ (i 0).val ∧ (i 0).val < win0_8.index t (0 : Fin 2) * 8 + 8; omega
    | ⟨1, _⟩ => show win0_8.index t (1 : Fin 2) * 128 ≤ (i 1).val ∧ (i 1).val < win0_8.index t (1 : Fin 2) * 128 + 128; omega

/-- An index of result array 1 lies in point `t`'s block iff each coordinate is in the block's range on its axis. -/
theorem mem_blk9 (t : Fin cfg0.N) (i : S64x128.Idx) :
    i ∈ ((cfg0.win 9).blk t).view.set ↔ ∀ a : Fin 2, win0_9.index t a * S8x128.size a ≤ (i a).val ∧ (i a).val < win0_9.index t a * S8x128.size a + S8x128.size a := by
  show i ∈ ((View.whole main_v12_1).slice (win0_9.rect t)).set ↔ _
  rw [View.set_slice_whole, Rect.mem_set_unit]
  exact Iff.rfl

/-- If at the last point of each grid row every cell of window 9's staging buffer holds `s` of that row, the result
    array ends with `s (r / 8)` in every cell of row `r`: the eight write-backs tile the array by slabs of eight rows. -/
theorem final9 (dat : Dat τ (Elt Ideal) Unit ℕ (UR sig nD τ) ℕ cfg0 c) (s : Fin 8 → EReal)
    (hafter : ∀ t : Fin cfg0.N, t.val % 8 = 7 → dat.after 9 t = fun _ => s ⟨t.val / 8, by have := t.isLt; have h : cfg0.N = 64 := N_0; omega⟩) :
    dat.arrAt 9 cfg0.N = (fun i : S64x128.Idx => s ⟨(i 0).val / 8, by have := idx2_lt0 i; omega⟩) := by
  refine dat.arrAt_eq_of_cover 9 _ (fun t hf => ?_) (fun i => ?_)
  · have h7 : t.val % 8 = 7 := (flush0_9 t).mp hf
    show (cfg0.win 9).cut (grid0.coords t) (dat.after 9 t) = _
    rw [hafter t h7]
    have e0 : win0_9.index t (0 : Fin 2) = t.val / 8 := (idx_out t).2.2.1
    funext j
    show s _ = s _
    congr 1; apply Fin.ext
    show t.val / 8 = (win0_9.index t (0 : Fin 2) * 8 + 1 * (j 0).val) / 8
    have hj : (j 0).val < 8 := (j 0).isLt
    omega
  · have hi0 : (i 0).val < 64 := idx2_lt0 i
    have hi1 : (i 1).val < 128 := idx2_lt1 i
    have hN : cfg0.N = 64 := N_0
    let t : Fin cfg0.N := ⟨8 * ((i 0).val / 8) + 7, by omega⟩
    have e0 : win0_9.index t (0 : Fin 2) = t.val / 8 := (idx_out t).2.2.1
    have e1 : win0_9.index t (1 : Fin 2) = 0 := (idx_out t).2.2.2.1
    have ht : t.val = 8 * ((i 0).val / 8) + 7 := rfl
    refine ⟨t, (flush0_9 t).mpr (by omega), ?_⟩
    rw [mem_blk9]
    intro a
    match a with
    | ⟨0, _⟩ => show win0_9.index t (0 : Fin 2) * 8 ≤ (i 0).val ∧ (i 0).val < win0_9.index t (0 : Fin 2) * 8 + 8; omega
    | ⟨1, _⟩ => show win0_9.index t (1 : Fin 2) * 128 ≤ (i 1).val ∧ (i 1).val < win0_9.index t (1 : Fin 2) * 128 + 128; omega

/-- An index of result array 2 lies in point `t`'s block iff each coordinate is in the block's range on its axis. -/
theorem mem_blk10 (t : Fin cfg0.N) (i : S64x128.Idx) :
    i ∈ ((cfg0.win 10).blk t).view.set ↔ ∀ a : Fin 2, win0_10.index t a * S8x128.size a ≤ (i a).val ∧ (i a).val < win0_10.index t a * S8x128.size a + S8x128.size a := by
  show i ∈ ((View.whole main_v12_2).slice (win0_10.rect t)).set ↔ _
  rw [View.set_slice_whole, Rect.mem_set_unit]
  exact Iff.rfl

/-- If at the last point of each grid row every cell of window 10's staging buffer holds `s` of that row, the result
    array ends with `s (r / 8)` in every cell of row `r`: the eight write-backs tile the array by slabs of eight rows. -/
theorem final10 (dat : Dat τ (Elt Ideal) Unit ℕ (UR sig nD τ) ℕ cfg0 c) (s : Fin 8 → EReal)
    (hafter : ∀ t : Fin cfg0.N, t.val % 8 = 7 → dat.after 10 t = fun _ => s ⟨t.val / 8, by have := t.isLt; have h : cfg0.N = 64 := N_0; omega⟩) :
    dat.arrAt 10 cfg0.N = (fun i : S64x128.Idx => s ⟨(i 0).val / 8, by have := idx2_lt0 i; omega⟩) := by
  refine dat.arrAt_eq_of_cover 10 _ (fun t hf => ?_) (fun i => ?_)
  · have h7 : t.val % 8 = 7 := (flush0_10 t).mp hf
    show (cfg0.win 10).cut (grid0.coords t) (dat.after 10 t) = _
    rw [hafter t h7]
    have e0 : win0_10.index t (0 : Fin 2) = t.val / 8 := (idx_out t).2.2.2.2.1
    funext j
    show s _ = s _
    congr 1; apply Fin.ext
    show t.val / 8 = (win0_10.index t (0 : Fin 2) * 8 + 1 * (j 0).val) / 8
    have hj : (j 0).val < 8 := (j 0).isLt
    omega
  · have hi0 : (i 0).val < 64 := idx2_lt0 i
    have hi1 : (i 1).val < 128 := idx2_lt1 i
    have hN : cfg0.N = 64 := N_0
    let t : Fin cfg0.N := ⟨8 * ((i 0).val / 8) + 7, by omega⟩
    have e0 : win0_10.index t (0 : Fin 2) = t.val / 8 := (idx_out t).2.2.2.2.1
    have e1 : win0_10.index t (1 : Fin 2) = 0 := (idx_out t).2.2.2.2.2
    have ht : t.val = 8 * ((i 0).val / 8) + 7 := rfl
    refine ⟨t, (flush0_10 t).mpr (by omega), ?_⟩
    rw [mem_blk10]
    intro a
    match a with
    | ⟨0, _⟩ => show win0_10.index t (0 : Fin 2) * 8 ≤ (i 0).val ∧ (i 0).val < win0_10.index t (0 : Fin 2) * 8 + 8; omega
    | ⟨1, _⟩ => show win0_10.index t (1 : Fin 2) * 128 ≤ (i 1).val ∧ (i 1).val < win0_10.index t (1 : Fin 2) * 128 + 128; omega

end Cert.KernelIdeal.Val

end
-- ==== Proof.LibRowAccum.lean ====
/-
  A general fact about an accumulator kept over rows of a grid walked row by row: one that restarts whenever the step
  number is a multiple of the row length and otherwise adds to what it held holds, at column `j` of row `i`, the sum of
  the summands over the columns `0 … j` of that row. Then the whole row's sum sits at the row's last column.
-/
import Idealize.ShloMosaic.Lib.ValueIdx

open scoped BigOperators

namespace Cert.LibRowAccum

/-- An accumulator `o` that restarts from `f n` when `k ∣ n` and otherwise adds `f n` to its previous value holds at step
    `k * i + j` (`j < k`) the sum of `f` over the steps `k * i, …, k * i + j`. -/
theorem accum_rows {M : Type*} [AddCommMonoid M] (k : ℕ) (o f : ℕ → M)
    (hA : ∀ n, n % k = 0 → o n = f n) (hB : ∀ n, n % k ≠ 0 → o n = o (n - 1) + f n) (i j : ℕ) (hj : j < k) :
    o (k * i + j) = ∑ l ∈ Finset.range (j + 1), f (k * i + l) := by
  induction j with
  | zero =>
    rw [Finset.sum_range_one, Nat.add_zero]
    exact hA _ (Nat.mul_mod_right k i)
  | succ j ih =>
    have h1 : (k * i + (j + 1)) % k ≠ 0 := by
      rw [Nat.mul_add_mod, Nat.mod_eq_of_lt hj]; omega
    rw [hB _ h1, Finset.sum_range_succ, show k * i + (j + 1) - 1 = k * i + j by omega, ih (by omega)]

/-- At the last column of a row the accumulator holds the whole row's sum, as a sum over `Fin k`. -/
theorem accum_row_end {M : Type*} [AddCommMonoid M] (k : ℕ) (hk : 0 < k) (o f : ℕ → M)
    (hA : ∀ n, n % k = 0 → o n = f n) (hB : ∀ n, n % k ≠ 0 → o n = o (n - 1) + f n) (i : ℕ) :
    o (k * i + (k - 1)) = ∑ l : Fin k, f (k * i + l.val) := by
  rw [accum_rows k o f hA hB i (k - 1) (by omega), show k - 1 + 1 = k by omega, Finset.sum_range]

end Cert.LibRowAccum
-- ==== Proof.KI.OutValue.lean ====
/-
  What the three result arrays hold when the region ends, at the ideal instance. At a grid point `t = 8 i + j` the body
  adds to each cell of a result's staging buffer the sum of one 512 × 512 tile of a Gaussian Gram matrix — rows of block
  `i` against rows of block `j` — after clearing the buffer when `j = 0`; read through the blocks of the region-entry
  arrays (the inputs themselves and their row norms) that tile sum is the specification's `tileSum`. So at the last point
  of grid row `i` every cell holds the eight tile sums of that row, the specification's `slab`, and the write-backs put
  it in every cell of the eight rows of slab `i` of the result array.
-/
import proofs.«104702_j27968827031704_2_alg».proof.Proof.KI.Body
import proofs.«104702_j27968827031704_2_alg».proof.Proof.KI.TileValue
import proofs.«104702_j27968827031704_2_alg».proof.Proof.KI.EntryValue
import proofs.«104702_j27968827031704_2_alg».proof.Proof.KI.OutArrays
import proofs.«104702_j27968827031704_2_alg».proof.Proof.LibRowAccum
import proofs.«104702_j27968827031704_2_alg».proof.Proof.Spec

set_option maxRecDepth 16384

noncomputable section

namespace Cert.KernelIdeal.Val

open Cert.KernelIdeal Cert.KernelIdeal.Gen Cert.KernelIdeal.Frm Cert.Spec
open Idealize.ShloMosaic Idealize.ShloMosaic.TcCoe Idealize.ShloMosaic.ValueIdx Idealize.SL.Sem
open Idealize.ShloMosaic.Pipeline (Dat Cfg Window)
open scoped BigOperators

variable (m : (ℓ : Loc nD τ sig) → Buf (Elt Ideal) ℓ) (c : Dev nD)

/-- The tile the first result accumulates at point `t`: rows of block `t / 8` of the first argument against rows of
    block `t % 8` of the same. -/
theorem tile_xx (t : Fin cfg0.N) :
    tile (iblk m c 0 t) (iblk m c 1 t) (iblk m c 4 t) (iblk m c 5 t) = tileSum (gramK (X m c) (X m c)) (I t) (J t) := by
  unfold tile tileSum gramK sqd dotp
  simp only [iblk0_apply, iblk1_apply, iblk4_apply, iblk5_apply]

/-- The second result's tile: the second argument against itself. -/
theorem tile_yy (t : Fin cfg0.N) :
    tile (iblk m c 2 t) (iblk m c 3 t) (iblk m c 6 t) (iblk m c 7 t) = tileSum (gramK (Y m c) (Y m c)) (I t) (J t) := by
  unfold tile tileSum gramK sqd dotp
  simp only [iblk2_apply, iblk3_apply, iblk6_apply, iblk7_apply]

/-- The third result's tile: rows of the first argument against rows of the second. -/
theorem tile_xy (t : Fin cfg0.N) :
    tile (iblk m c 0 t) (iblk m c 3 t) (iblk m c 4 t) (iblk m c 7 t) = tileSum (gramK (X m c) (Y m c)) (I t) (J t) := by
  unfold tile tileSum gramK sqd dotp
  simp only [iblk0_apply, iblk3_apply, iblk4_apply, iblk7_apply]

/-- An accumulator over the grid walked row by row ends each row holding that row's eight tile sums. -/
theorem row_end (g : Fin 4096 → Fin 4096 → EReal) (o : (n : ℕ) → n < cfg0.N → EReal)
    (hA : ∀ (t : Fin cfg0.N), t.val % 8 = 0 → o t.val t.isLt = tileSum g (I t) (J t))
    (hB : ∀ (t : Fin cfg0.N) (h0 : ¬ t.val % 8 = 0),
      o t.val t.isLt = o (t.val - 1) (Nat.lt_of_le_of_lt (Nat.sub_le _ _) t.isLt) + tileSum g (I t) (J t))
    (t : Fin cfg0.N) (h7 : t.val % 8 = 7) : o t.val t.isLt = slab g (I t) := by
  have hN : cfg0.N = 64 := N_0
  have hA' : ∀ n, n % 8 = 0 → (fun n => if h : n < cfg0.N then o n h else 0) n
      = (fun n => if h : n < cfg0.N then tileSum g (I ⟨n, h⟩) (J ⟨n, h⟩) else 0) n := by
    intro n hn
    by_cases h : n < cfg0.N
    · simp only [dif_pos h]; exact hA ⟨n, h⟩ hn
    · simp only [dif_neg h]
  have hB' : ∀ n, n % 8 ≠ 0 → (fun n => if h : n < cfg0.N then o n h else 0) n
      = (fun n => if h : n < cfg0.N then o n h else 0) (n - 1)
        + (fun n => if h : n < cfg0.N then tileSum g (I ⟨n, h⟩) (J ⟨n, h⟩) else 0) n := by
    intro n hn
    by_cases h : n < cfg0.N
    · have h' : n - 1 < cfg0.N := by omega
      simp only [dif_pos h, dif_pos h']; exact hB ⟨n, h⟩ hn
    · have h' : ¬ (n - 1 < cfg0.N) := by omega
      simp only [dif_neg h, dif_neg h', add_zero]
  have key := Cert.LibRowAccum.accum_row_end 8 (by norm_num) _ _ hA' hB' (t.val / 8)
  have ht : 8 * (t.val / 8) + (8 - 1) = t.val := by omega
  rw [ht] at key
  simp only [dif_pos t.isLt] at key
  rw [key]; unfold slab
  refine Finset.sum_congr rfl fun l _ => ?_
  have hl : 8 * (t.val / 8) + l.val < cfg0.N := by have := l.isLt; omega
  simp only [dif_pos hl]
  have hI : I ⟨8 * (t.val / 8) + l.val, hl⟩ = I t := Fin.ext (by simp only [I]; have := l.isLt; omega)
  have hJ : J ⟨8 * (t.val / 8) + l.val, hl⟩ = l := Fin.ext (by simp only [J]; have := l.isLt; omega)
  rw [hI, hJ]

/-- At the last point of a grid row every cell of the first result's buffer holds the row's slab value. -/
theorem cell8 (t : Fin cfg0.N) (h7 : t.val % 8 = 7) (j : S8x128.Idx) :
    outsAt8 m c t.val t.isLt j = slab (gramK (X m c) (X m c)) (I t) :=
  row_end (gramK (X m c) (X m c)) (fun n h => outsAt8 m c n h j)
    (fun t h0 => by
      show outsAt8 m c t.val t.isLt j = _
      rw [outsAt8_A m c t h0, acc_xx, pay2_apply, zero_add, tile_xx])
    (fun t h0 => by
      show outsAt8 m c t.val t.isLt j = outsAt8 m c (t.val - 1) _ j + _
      rw [outsAt8_B m c t h0, acc_xx, tile_xx])
    t h7

theorem cell9 (t : Fin cfg0.N) (h7 : t.val % 8 = 7) (j : S8x128.Idx) :
    outsAt9 m c t.val t.isLt j = slab (gramK (Y m c) (Y m c)) (I t) :=
  row_end (gramK (Y m c) (Y m c)) (fun n h => outsAt9 m c n h j)
    (fun t h0 => by
      show outsAt9 m c t.val t.isLt j = _
      rw [outsAt9_A m c t h0, acc_yy, pay3_apply, zero_add, tile_yy])
    (fun t h0 => by
      show outsAt9 m c t.val t.isLt j = outsAt9 m c (t.val - 1) _ j + _
      rw [outsAt9_B m c t h0, acc_yy, tile_yy])
    t h7

theorem cell10 (t : Fin cfg0.N) (h7 : t.val % 8 = 7) (j : S8x128.Idx) :
    outsAt10 m c t.val t.isLt j = slab (gramK (X m c) (Y m c)) (I t) :=
  row_end (gramK (X m c) (Y m c)) (fun n h => outsAt10 m c n h j)
    (fun t h0 => by
      show outsAt10 m c t.val t.isLt j = _
      rw [outsAt10_A m c t h0, acc_xy, pay4_apply, zero_add, tile_xy])
    (fun t h0 => by
      show outsAt10 m c t.val t.isLt j = outsAt10 m c (t.val - 1) _ j + _
      rw [outsAt10_B m c t h0, acc_xy, tile_xy])
    t h7

/-- At the last point of a grid row each result's staging buffer is constant at the row's slab value. -/
theorem after8_row (t : Fin cfg0.N) (h7 : t.val % 8 = 7) :
    (dats m 0 c).after 8 t = fun _ => slab (gramK (X m c) (X m c)) ⟨t.val / 8, by have := t.isLt; have h : cfg0.N = 64 := N_0; omega⟩ := by
  rw [after0_8]; funext j; exact cell8 m c t h7 j
theorem after9_row (t : Fin cfg0.N) (h7 : t.val % 8 = 7) :
    (dats m 0 c).after 9 t = fun _ => slab (gramK (Y m c) (Y m c)) ⟨t.val / 8, by have := t.isLt; have h : cfg0.N = 64 := N_0; omega⟩ := by
  rw [after0_9]; funext j; exact cell9 m c t h7 j
theorem after10_row (t : Fin cfg0.N) (h7 : t.val % 8 = 7) :
    (dats m 0 c).after 10 t = fun _ => slab (gramK (X m c) (Y m c)) ⟨t.val / 8, by have := t.isLt; have h : cfg0.N = 64 := N_0; omega⟩ := by
  rw [after0_10]; funext j; exact cell10 m c t h7 j

end Cert.KernelIdeal.Val

end
-- ==== Proof.KI.TailValue.lean ====
/-
  The twenty-eight host lines after the region: each of the three 64 × 128 result arrays is summed over both axes,
  divided by 1024 (every tile sum sits in all 1024 cells of its slab) and by 4096 · 4096, and the three means are
  combined as `(xx + yy) − 2 · xy`. First as one term of the three arrays, for every float instance; then, at the
  ideal instance, read as extended reals: when every cell `(r, l)` of each array holds the slab value of row block
  `r / 8`, the result is the tiled program's form of the specification.
-/
import proofs.«104702_j27968827031704_2_alg».proof.Proof.KI.Base
import proofs.«104702_j27968827031704_2_alg».proof.Proof.Spec
import Idealize.ShloMosaic.Lib.ValueIdx
import Idealize.ShloMosaic.Lib.Pipeline.Value
import Idealize.ShloMosaic.Lib.StableHlo.Run
import Idealize.ShloMosaic.PureOps.Ideal.Laws

noncomputable section

namespace Cert.KernelIdeal.Val

open Cert.KernelIdeal Cert.KernelIdeal.Gen
open Idealize.ShloMosaic Idealize.ShloMosaic.TcCoe Idealize.ShloMosaic.ValueIdx Idealize.SL.Sem
open scoped BigOperators

variable {F : FTy → Type} [FloatOps F]

/-- One result array's mean as the lines compute it: the total, over 1024, over `4096 · 4096`. -/
def meanTerm (O : (⟨S64x128, .f32⟩ : BufTy).Contents (Elt F)) : (⟨S_, .f32⟩ : BufTy).Contents (Elt F) :=
  Host.divf (Host.divf (Host.reduceAdd O (constant S_ .f32 0x00000000#32) reducesTo_S64x128_S_d0_1 h_S_) (constant S_ .f32 0x44800000#32))
    (mulf (constant S_ .f32 0x45800000#32) (constant S_ .f32 0x45800000#32))

/-- The lines' result as one term of the three arrays. -/
def tailTerm (O0 O1 O2 : (⟨S64x128, .f32⟩ : BufTy).Contents (Elt F)) : (⟨S_, .f32⟩ : BufTy).Contents (Elt F) :=
  subf (addf (meanTerm O0) (meanTerm O1)) (mulf (constant S_ .f32 0x40000000#32) (meanTerm O2))

set_option maxRecDepth 8192 in
set_option maxHeartbeats 16000000 in
/-- Run from any contents `W` of the buffers, the lines leave the result at that term of the three arrays as `W` has them. -/
theorem after_tail (W : Valuation τ sig (Elt F)) :
    StableHlo.after (hostOps1 (F := F)) W (Proc.devRef .tc main_v27)
      = tailTerm (W (Proc.devRef .tc main_v12_0)) (W (Proc.devRef .tc main_v12_1)) (W (Proc.devRef .tc main_v12_2)) := by
  unfold tailTerm meanTerm
  after_results_simp

/-! ## Read at the ideal instance -/

theorem ofBits_1024 : Ideal.ofBits .f32 0x44800000#32 = ((1024 : ℝ) : EReal) := by
  simp [Ideal.ofBits, Ideal.ieee, -EReal.coe_mul]; norm_num
theorem ofBits_4096 : Ideal.ofBits .f32 0x45800000#32 = ((4096 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num

/-- When every cell `(r, l)` of a result array holds the slab value of row block `r / 8`, its mean as the lines compute
    it is the specification's tiled mean: the total over all cells, over 1024, over `4096 · 4096`. -/
theorem meanTerm_ideal (O : S64x128.Idx → EReal) (g : Fin 4096 → Fin 4096 → EReal)
    (h : ∀ (r : Fin 64) (l : Fin 128), O (ix2 r l) = Cert.Spec.slab g ⟨r.val / 8, by omega⟩) (i : S_.Idx) :
    (meanTerm (F := Ideal) O : S_.Idx → EReal) i = Cert.Spec.meanK g := by
  simp only [meanTerm, Host.divf, Host.reduceAdd, mulf, constant, Ideal.hostDivf_def, Ideal.mulf_def, Ideal.ofBits_def,
    Ideal.hostReduceAdd_def]
  rw [Ideal.hostReduceAdd_total _ (fun b => b.elim0), Ideal.ofBits_zero_f32, zero_add, ofBits_1024, ofBits_4096, sum_idx2]
  unfold Cert.Spec.meanK
  simp only [h]

/-- The lines' result is the tiled program's form of the specification. -/
theorem tailTerm_ideal (O0 O1 O2 : S64x128.Idx → EReal) (g0 g1 g2 : Fin 4096 → Fin 4096 → EReal)
    (h0 : ∀ (r : Fin 64) (l : Fin 128), O0 (ix2 r l) = Cert.Spec.slab g0 ⟨r.val / 8, by omega⟩)
    (h1 : ∀ (r : Fin 64) (l : Fin 128), O1 (ix2 r l) = Cert.Spec.slab g1 ⟨r.val / 8, by omega⟩)
    (h2 : ∀ (r : Fin 64) (l : Fin 128), O2 (ix2 r l) = Cert.Spec.slab g2 ⟨r.val / 8, by omega⟩) :
    (tailTerm (F := Ideal) O0 O1 O2 : S_.Idx → EReal)
      = fun _ => (Cert.Spec.meanK g0 + Cert.Spec.meanK g1) - ((2 : ℝ) : EReal) * Cert.Spec.meanK g2 := by
  funext i
  simp only [tailTerm, subf, addf, mulf, constant, Ideal.subf_def, Ideal.addf_def, Ideal.mulf_def, Ideal.ofBits_def]
  rw [meanTerm_ideal O0 g0 h0, meanTerm_ideal O1 g1 h1, meanTerm_ideal O2 g2 h2, ofBits_two]

end Cert.KernelIdeal.Val

end
-- ==== Proof.KI.Value.lean ====
/-
  The idealized kernel program's result as an extended real: the lines after the region applied to the three result
  arrays, each holding in every cell of row `r` the slab value of row block `r / 8` of its Gram matrix, give the tiled
  form of the specification at the two argument arrays.
-/
import proofs.«104702_j27968827031704_2_alg».proof.Proof.KI.Frame
import proofs.«104702_j27968827031704_2_alg».proof.Proof.KI.OutValue
import proofs.«104702_j27968827031704_2_alg».proof.Proof.KI.TailValue

set_option maxRecDepth 16384

noncomputable section

namespace Cert.KernelIdeal.Val

open Cert.KernelIdeal Cert.KernelIdeal.Gen Cert.KernelIdeal.Frm Cert.Spec
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The result buffer's term is the tiled form of the specification. -/
theorem value (c : Dev nD) :
    StableHlo.after (hostOps1 (F := Ideal)) (exitVal m (dats m) c) (Proc.devRef .tc main_v27)
      = (fun _ => kernelForm (X m c) (Y m c)) := by
  rw [after_tail, exitVal_out0, exitVal_out1, exitVal_out2,
    final8 (dats m 0 c) (slab (gramK (X m c) (X m c))) (after8_row m c),
    final9 (dats m 0 c) (slab (gramK (Y m c) (Y m c))) (after9_row m c),
    final10 (dats m 0 c) (slab (gramK (X m c) (Y m c))) (after10_row m c)]
  exact tailTerm_ideal _ _ _ _ _ _ (fun _ _ => rfl) (fun _ _ => rfl) (fun _ _ => rfl)

/-- The run at the ideal instance, its result read. -/
theorem run_value : θ_run defs (onTc (τ := τ) (main (F := Ideal))) ⟨m, fun _ => 0, ρ⟩ (fun r => ∀ c : Dev nD,
      r.2.mem ((c.tc : Thread nD τ).loc main_v27) = (fun _ => kernelForm (X m c) (Y m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (value m c), (h c).2⟩) (run_main m ρ)

end Cert.KernelIdeal.Val

end
-- ==== Proof.RefConsts.lean ====
/-
  The float literals the plain program spells, as the extended reals their bit patterns denote: 2, 32 and 2²⁴.
-/
import Idealize.ShloMosaic.PureOps.Ideal

noncomputable section

namespace Cert.ReferenceIdeal.RefConsts

open Idealize.ShloMosaic

/-- `2.0` denotes the real `2`. -/
theorem ofBits_two : Ideal.ofBits .f32 0x40000000#32 = ((2 : ℝ) : EReal) := by
  simp [Ideal.ofBits, Ideal.ieee, -EReal.coe_mul]; norm_num

/-- `32.0` denotes the real `32`. -/
theorem ofBits_32 : Ideal.ofBits .f32 0x42000000#32 = ((32 : ℝ) : EReal) := by
  simp [Ideal.ofBits, Ideal.ieee, -EReal.coe_mul]; norm_num

/-- The pattern `0x4B800000` denotes `2²⁴ = 16777216`. -/
theorem ofBits_2p24 : Ideal.ofBits .f32 0x4B800000#32 = ((16777216 : ℝ) : EReal) := by
  simp [Ideal.ofBits, Ideal.ieee, -EReal.coe_mul]; norm_num

end Cert.ReferenceIdeal.RefConsts

end
-- ==== Proof.RefValue.lean ====
/-
  The plain program's value. Its run ends with the result buffer at the composed term of its host operations
  applied to the two argument matrices; here that term is read index by index and identified with `Cert.Spec.refForm`.
  For a pair of matrices `a`, `b` the program forms the row sums of squares of each (an initial zero plus a sum over
  the 1024 columns), the matrix of inner products of rows (a contraction over the column axis), broadcasts the two
  norm vectors along the other axis, and computes `exp (−(|a_n|² + |b_m|² − 2 ⟨a_n, b_m⟩) / 32)` at every `(n, m)`:
  the entry `gramR a b n m`. The sum of all 4096 × 4096 entries (zero plus a sum over a rank-two index set, which is
  the double sum over its coordinates) divided by `2²⁴` is `meanR (gramR a b)`. The program does this for the pairs
  `(x, x)`, `(y, y)` and `(x, y)` — the first two stretches are the third one's text at equal arguments — and ends
  with `(xx + yy) − 2 · xy`.
-/
import proofs.«104702_j27968827031704_2_alg».proof.Defs
import proofs.«104702_j27968827031704_2_alg».proof.Proof.Gen.ReferenceIdeal.Read
import proofs.«104702_j27968827031704_2_alg».proof.Proof.Gen.Pre_finite_inputs
import proofs.«104702_j27968827031704_2_alg».proof.Proof.Spec
import proofs.«104702_j27968827031704_2_alg».proof.Proof.RefConsts

noncomputable section

open scoped BigOperators
open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.Spec Cert.ReferenceIdeal.RefConsts

/-- An argument array at the ideal values: a 4096 × 1024 matrix of extended reals. -/
abbrev Arg : Type := (⟨S4096x1024, .f32⟩ : BufTy).Contents (Elt Ideal)

/-- The row sums of squares of the left matrix: zero plus the sum over the columns of the squared entries. -/
theorem v39_apply (a : Arg) (i : S4096.Idx) : val_main_v39 (F := Ideal) a i = sqn a (i 0) := by
  rw [val_main_v39_apply]
  simp only [val_main_cst_11_apply, val_main_v38_apply, Ideal.ofBits_def, Ideal.mulf_def, Ideal.ofBits_zero_f32, zero_add]
  exact Finset.sum_congr rfl fun k _ => by
    rw [show idx_main_v39 i k = ix2 (i 0) k from funext fun d => Fin.ext (by match d with | ⟨0, _⟩ => rfl | ⟨1, _⟩ => rfl)]
    rfl

/-- The row sums of squares of the right matrix. -/
theorem v41_apply (b : Arg) (i : S4096.Idx) : val_main_v41 (F := Ideal) b i = sqn b (i 0) := by
  rw [val_main_v41_apply]
  simp only [val_main_cst_12_apply, val_main_v40_apply, Ideal.ofBits_def, Ideal.mulf_def, Ideal.ofBits_zero_f32, zero_add]
  exact Finset.sum_congr rfl fun k _ => by
    rw [show idx_main_v41 i k = ix2 (i 0) k from funext fun d => Fin.ext (by match d with | ⟨0, _⟩ => rfl | ⟨1, _⟩ => rfl)]
    rfl

/-- The contraction over the column axis at `(n, m)`: the inner product of row `n` of the left matrix and row `m` of the
    right one. -/
theorem v42_apply (a b : Arg) (i : S4096x4096.Idx) : val_main_v42 (F := Ideal) a b i = dotp a b (i 0) (i 1) := by
  rw [val_main_v42_apply]
  exact Finset.sum_congr rfl fun k _ => by
    rw [show lidx_main_v42 i k = ix2 (i 0) k from funext fun d => Fin.ext (by match d with | ⟨0, _⟩ => rfl | ⟨1, _⟩ => rfl),
      show ridx_main_v42 i k = ix2 (i 1) k from funext fun d => Fin.ext (by match d with | ⟨0, _⟩ => rfl | ⟨1, _⟩ => rfl)]
    rfl

/-- The exponentiated stage at `(n, m)`: the norm of row `n` broadcast along the second axis plus the norm of row `m`
    broadcast along the first, minus twice the inner product, negated, divided by `32`, exponentiated. -/
theorem v54_apply (a b : Arg) (i : S4096x4096.Idx) : val_main_v54 (F := Ideal) a b i = gramR a b (i 0) (i 1) := by
  rw [val_main_v54_apply, val_main_v53_apply, val_main_v51_apply, val_main_v50_apply, val_main_v47_apply,
    val_main_v45_apply, val_main_v43_apply, v39_apply, val_main_v46_apply, val_main_v44_apply, v41_apply,
    val_main_v49_apply, val_main_v48_apply, val_main_cst_13_apply, v42_apply, val_main_v52_apply, val_main_cst_14_apply]
  simp only [Ideal.hostUnary_exp_def, Ideal.hostDivf_def, Ideal.hostNegf_def, Ideal.negf_def, Ideal.subf_def, Ideal.addf_def,
    Ideal.mulf_def, Ideal.ofBits_def, ofBits_two, ofBits_32]
  rfl

/-- The mean stage: zero plus the sum over every index of the Gram matrix — the double sum over rows and columns —
    divided by `2²⁴`. -/
theorem v56_apply (a b : Arg) (i : S_.Idx) : val_main_v56 (F := Ideal) a b i = meanR (gramR a b) := by
  rw [val_main_v56_apply, val_main_v55_apply, val_main_cst_15_apply, val_main_cst_16_apply]
  simp only [Ideal.hostDivf_def, Ideal.ofBits_def, Ideal.ofBits_zero_f32, zero_add, ofBits_2p24]
  unfold meanR
  rw [sum_idx2]
  simp only [v54_apply]

/-- The `(x, x)` stretch is the mixed stretch at equal arguments … -/
theorem v18_eq (a : Arg) : val_main_v18 (F := Ideal) a = val_main_v56 (F := Ideal) a a := rfl
/-- … and so is the `(y, y)` stretch. -/
theorem v37_eq (b : Arg) : val_main_v37 (F := Ideal) b = val_main_v56 (F := Ideal) b b := rfl

/-- The last stage, at its one index: the two self means added, minus twice the mixed mean. -/
theorem v59_eq_refForm (x y : Arg) : val_main_v59 (F := Ideal) x y = fun _ => refForm x y := by
  funext i
  rw [val_main_v59_apply, val_main_v57_apply, val_main_v58_apply, val_main_cst_17_apply, v18_eq, v37_eq,
    v56_apply, v56_apply, v56_apply]
  simp only [Ideal.subf_def, Ideal.addf_def, Ideal.mulf_def, Ideal.ofBits_def, ofBits_two]
  rfl

/-- Every weakly fair execution of the plain program terminates with its result at `refForm` of the two argument
    matrices and the arguments unchanged. -/
theorem run_refForm (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v59)
          = (fun _ => Cert.Spec.refForm (m' ((c.tc : Thread _ _).loc Cert.ReferenceIdeal.main_arg0)) (m' ((c.tc : Thread _ _).loc Cert.ReferenceIdeal.main_arg1)))
      ∧ r.2.mem ((c.tc : Thread _ _).loc Cert.ReferenceIdeal.main_arg0) = m' ((c.tc : Thread _ _).loc Cert.ReferenceIdeal.main_arg0)
      ∧ r.2.mem ((c.tc : Thread _ _).loc Cert.ReferenceIdeal.main_arg1) = m' ((c.tc : Thread _ _).loc Cert.ReferenceIdeal.main_arg1)) :=
  (θ_run (Cert.ReferenceIdeal.defs (F := Ideal)) _ _).mono
    (fun _ h c => ⟨(h c).1.trans ((Read.val_main_v59_eq _ _).trans (v59_eq_refForm _ _)), (h c).2⟩)
    (Cert.ReferenceIdeal.Value.run (F := Ideal) m' ρ')

/-- In particular it runs and leaves its arguments unchanged. -/
theorem frame_ri : Cert.frame_ReferenceIdeal := fun m ρ _ =>
  (θ_run (Cert.ReferenceIdeal.defs (F := Ideal)) _ _).mono (fun _ h c => (h c).2) (run_refForm m ρ)

end Cert.ReferenceIdeal.RefValue

end
-- ==== Proof.LibSumBlocks.lean ====
/-
  A sum over `Fin n`, where n = a · b, regrouped as a sum over a blocks of b consecutive indices:
      Σ_{k < n} g k = Σ_{c < a} Σ_{d < b} g (c · b + d).
  It holds in every commutative additive monoid, so in particular for sums of extended reals, where no term needs to be finite.
-/
import Mathlib.Algebra.BigOperators.Fin

namespace Cert.Lib

/-- The k-th index of block c. -/
def blockIdx {a b n : ℕ} (h : a * b = n) (c : Fin a) (d : Fin b) : Fin n :=
  ⟨c.val * b + d.val, by
    have hc := c.isLt
    have hd := d.isLt
    calc c.val * b + d.val < c.val * b + b := Nat.add_lt_add_left hd _
      _ = (c.val + 1) * b := (Nat.succ_mul _ _).symm
      _ ≤ a * b := Nat.mul_le_mul_right _ hc
      _ = n := h⟩

@[simp] theorem blockIdx_val {a b n : ℕ} (h : a * b = n) (c : Fin a) (d : Fin b) : (blockIdx h c d).val = c.val * b + d.val := rfl

/-- A sum over `Fin (a * b)` is the sum over the a blocks of the sums over each block's b indices. -/
theorem sum_fin_blocks {M : Type*} [AddCommMonoid M] {a b n : ℕ} (h : a * b = n) (g : Fin n → M) :
    ∑ k : Fin n, g k = ∑ c : Fin a, ∑ d : Fin b, g (blockIdx h c d) := by
  subst h
  rw [← Fintype.sum_prod_type', ← finProdFinEquiv.sum_comp]
  refine Finset.sum_congr rfl fun p _ => congrArg g (Fin.ext ?_)
  show p.2.val + b * p.1.val = p.1.val * b + p.2.val
  rw [Nat.mul_comm, Nat.add_comm]

end Cert.Lib
-- ==== Proof.Algebra.lean ====
/-
  The two closed forms of the claim agree on all extended reals, with no hypothesis on the inputs.
  Scaling a squared distance by the literal −1/32 is negating it and dividing by 32 (division by a nonzero real is the
  product with its reciprocal, at the infinities too). The slab cells hold, 1024 times over (8 rows × 128 lanes per row
  block), the sum of the eight tile sums of a row of tiles; those 64 tile sums regroup the 4096 × 4096 entries by
  blocks of 512 rows and 512 columns; and dividing 1024 · T by 1024 and then by 4096 · 4096 is dividing T by 2²⁴.
-/
import proofs.«104702_j27968827031704_2_alg».proof.Proof.Spec
import proofs.«104702_j27968827031704_2_alg».proof.Proof.LibSumBlocks

noncomputable section

open scoped BigOperators

namespace Cert.Spec

open Idealize.ShloMosaic Idealize.ShloMosaic.ValueIdx

/-- Times the literal −1/32 is: negate, then divide by 32. On every extended real. -/
theorem scale_eq (s : EReal) : s * ((-(1 / 32) : ℝ) : EReal) = Ideal.div (-s) ((32 : ℝ) : EReal) := by
  rw [Ideal.div_coe (by norm_num : (32 : ℝ) ≠ 0), EReal.coe_neg, mul_neg, neg_mul]

/-- The two Gram entries are one function. -/
theorem gramK_eq_gramR (a b : Mat) : gramK a b = gramR a b := by
  funext n m
  simp only [gramK, gramR, scale_eq]

/-- All 4096 × 4096 entries, summed, are the eight slab values summed: rows and columns regroup by blocks of 512. -/
theorem sum_all_eq (g : Fin 4096 → Fin 4096 → EReal) :
    ∑ n : Fin 4096, ∑ m : Fin 4096, g n m = ∑ i : Fin 8, slab g i := by
  have h : 8 * 512 = 4096 := by norm_num
  rw [Cert.Lib.sum_fin_blocks h]
  refine Finset.sum_congr rfl fun i _ => ?_
  simp only [slab, tileSum]
  calc ∑ p : Fin 512, ∑ m : Fin 4096, g (Cert.Lib.blockIdx h i p) m
      = ∑ p : Fin 512, ∑ j : Fin 8, ∑ q : Fin 512, g (rowOf i p) (rowOf j q) :=
          Finset.sum_congr rfl fun p _ => Cert.Lib.sum_fin_blocks h _
    _ = ∑ j : Fin 8, ∑ p : Fin 512, ∑ q : Fin 512, g (rowOf i p) (rowOf j q) := Finset.sum_comm

/-- The 64 × 128 slab cells, summed, are 1024 times the eight slab values summed: each row block has 8 rows of 128 lanes. -/
theorem cells_eq (g : Fin 4096 → Fin 4096 → EReal) :
    (∑ r : Fin 64, ∑ _l : Fin 128, slab g ⟨r.val / 8, by omega⟩) = 1024 • ∑ i : Fin 8, slab g i := by
  have h : 8 * 8 = 64 := by norm_num
  rw [Cert.Lib.sum_fin_blocks h, Finset.smul_sum]
  refine Finset.sum_congr rfl fun i _ => ?_
  have e : ∀ d : Fin 8, (⟨(Cert.Lib.blockIdx h i d).val / 8, by have := (Cert.Lib.blockIdx h i d).isLt; omega⟩ : Fin 8) = i := by
    intro d; apply Fin.ext; simp only [Cert.Lib.blockIdx_val]; omega
  simp only [e, Finset.sum_const, Finset.card_univ, Fintype.card_fin, smul_smul]
  norm_num

/-- The two means are one function. -/
theorem meanK_eq_meanR (g : Fin 4096 → Fin 4096 → EReal) : meanK g = meanR g := by
  unfold meanK meanR
  rw [cells_eq, sum_all_eq, Ideal.div_coe (by norm_num : (1024 : ℝ) ≠ 0), EReal.nsmul_eq_mul]
  have h1 : ((1024 : ℕ) : EReal) = ((1024 : ℝ) : EReal) := by
    rw [← EReal.coe_natCast]; norm_num
  have h2 : ((1024 : ℝ) : EReal) * (((1 / 1024 : ℝ)) : EReal) = 1 := by
    rw [← EReal.coe_mul]; norm_num
  have h3 : ((4096 : ℝ) : EReal) * ((4096 : ℝ) : EReal) = ((16777216 : ℝ) : EReal) := by
    rw [← EReal.coe_mul]; norm_num
  rw [h1, h3, mul_comm ((1024 : ℝ) : EReal), mul_assoc, h2, mul_one]

/-- The tiled program's closed form is the plain program's, for all inputs. -/
theorem kernelForm_eq_refForm (x y : Mat) : kernelForm x y = refForm x y := by
  simp only [kernelForm, refForm, meanK_eq_meanR, gramK_eq_gramR]

end Cert.Spec

end
-- ==== Proof.lean ====
/-
  The certificate assembled. The tiled kernel program and the plain reference both compute the maximum mean
  discrepancy of two 4096 × 1024 samples under a Gaussian kernel of bandwidth 32 by the biased estimator: the mean of
  the Gram matrix of the first sample with itself, plus that of the second with itself, minus twice the mean of the
  cross Gram matrix, each entry `exp (−(|a|² + |b|² − 2⟨a, b⟩) / 32)`. The kernel program casts the samples to a
  narrower format first (the identity on extended reals), takes the row norms on the host, and in one region over an
  8 × 8 grid of 512 × 512 tiles accumulates each tile's sum over the second grid axis into an 8 × 128 slab per first-axis
  index — three slabs, one per Gram matrix — whose cells the host then totals and rescales. On extended reals the two
  results are one number: scaling by `−1/32` is negating and dividing by `32`, a sum of 1024 equal cells over 1024 is the
  cell, sums may be regrouped by tiles, and `4096 · 4096 = 2²⁴`; no finiteness of the inputs is needed for that.
  The frames: the kernel program's run is the launch of its one region between its host lines (two pairs of its input
  windows share an array, each window of a pair holding half of it), for every float instance, so at the word level and
  at the ideal one; the reference's is its straight-line run. Nothing was rewritten in idealizing the kernel program.
-/
import proofs.«104702_j27968827031704_2_alg».proof.Defs
import proofs.«104702_j27968827031704_2_alg».proof.Proof.Gen.Kernel
import proofs.«104702_j27968827031704_2_alg».proof.Proof.Gen.KernelIdeal
import proofs.«104702_j27968827031704_2_alg».proof.Proof.Gen.ReferenceIdeal
import proofs.«104702_j27968827031704_2_alg».proof.Proof.Gen.Pre_finite_inputs
import proofs.«104702_j27968827031704_2_alg».proof.Proof.K.Frame
import proofs.«104702_j27968827031704_2_alg».proof.Proof.KI.Value
import proofs.«104702_j27968827031704_2_alg».proof.Proof.RefValue
import proofs.«104702_j27968827031704_2_alg».proof.Proof.Algebra
import Idealize.ShloMosaic.Adequacy
import Idealize.ShloMosaic.Init

noncomputable section

namespace Cert.Proof

open Idealize.ShloMosaic Idealize.SL.Sem

/-- The kernel program as printed runs and keeps its arguments. -/
theorem frame_p : Cert.frame_Kernel := fun m ρ _ => Cert.Kernel.Frm.frame (F := Bits) m ρ
/-- So does its idealization. -/
theorem frame_pi : Cert.frame_KernelIdeal := fun m ρ _ => Cert.KernelIdeal.Frm.frame (F := Ideal) m ρ
/-- And the reference. -/
theorem frame_ri : Cert.frame_ReferenceIdeal := Cert.ReferenceIdeal.RefValue.frame_ri
/-- The idealization rewrote nothing. -/
theorem preserves : Cert.preserves_Kernel_KernelIdeal := trivial

/-- From memories agreeing on the arguments both idealized programs end with the same extended real: the tiled form
    and the plain form of the specification agree. -/
theorem algebraic : Cert.algebraic_KernelIdeal_ReferenceIdeal := by
  intro m ρ m' ρ' _ hagree
  refine ⟨fun c => (fun _ => Cert.Spec.kernelForm (Cert.KernelIdeal.Val.X m c) (Cert.KernelIdeal.Val.Y m c)),
    Cert.KernelIdeal.Val.run_value m ρ, ?_⟩
  refine (θ_run Cert.ReferenceIdeal.defs _ _).mono (fun _ h c => ⟨(h c).1.trans ?_, (h c).2⟩)
    (Cert.ReferenceIdeal.RefValue.run_refForm m' ρ')
  rw [(hagree c).1, (hagree c).2]
  funext _
  exact (Cert.Spec.kernelForm_eq_refForm _ _).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
